-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x55 : Shape := ⟨2, ![32768, 55]⟩
abbrev S32768x9 : Shape := ⟨2, ![32768, 9]⟩
abbrev S32768x4 : Shape := ⟨2, ![32768, 4]⟩
abbrev S62x256 : Shape := ⟨2, ![62, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S32768x55 : S_.BroadcastsInDim S32768x55 (![] : Fin 0 → Fin S32768x55.rank)
  reducesTo_S32768x55_S_d0_1 : S32768x55.ReducesTo [0, 1] S_
  h_S_ : 0 < S_.numel
  bcast_S_S32768x9 : S_.BroadcastsInDim S32768x9 (![] : Fin 0 → Fin S32768x9.rank)
  reducesTo_S32768x9_S_d0_1 : S32768x9.ReducesTo [0, 1] S_
  bcast_S_S32768x4 : S_.BroadcastsInDim S32768x4 (![] : Fin 0 → Fin S32768x4.rank)
  reducesTo_S32768x4_S_d0_1 : S32768x4.ReducesTo [0, 1] S_
  bcast_S_S62x256 : S_.BroadcastsInDim S62x256 (![] : Fin 0 → Fin S62x256.rank)
  reducesTo_S62x256_S_d0_1 : S62x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S256x1 .f32) (main_arg19 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg18
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S256x1 .f32) (main_arg15 : FVec F S1 .f32) (main_arg16 : FVec F S256x256 .f32) (main_arg17 : FVec F S256 .f32) (main_arg18 : FVec F S256x1 .f32) (main_arg19 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S256 .f32) (main_arg12 : FVec F S256x256 .f32) (main_arg13 : FVec F S256 .f32) (main_arg14 : FVec F S256x1 .f32) (main_arg15 : FVec F S1 .f32) (main_arg16 : FVec F S256x256 .f32) (main_arg17 : FVec F S256 .f32) (main_arg18 : FVec F S256x1 .f32) (main_arg19 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S62x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) (main_arg16 : FVec F S256x256 .f32) (main_arg17 : FVec F S256 .f32) (main_arg18 : FVec F S256x1 .f32) (main_arg19 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S62x256 .f32 := Host.absf main_arg8
  let main_cst_14 : FVec F S_ .f32 := constant S_ .f32 0x7F800000#32
  let main_v40 : FVec F S62x256 .f32 := broadcastInDim S62x256 ![] bcast_S_S62x256 main_cst_14
  let main_v41 : IVec S62x256 1 := cmpf .olt main_v39 main_v40
  let main_c_15 : IVec S_ 1 := constantI S_ 1 1#1
  let main_v42 : IVec S_ 1 := (fun x v => Host.reduce IntOp.andi x v reducesTo_S62x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S62x256 .f32) (main_arg5 : FVec F S256 .f32) (main_arg6 : FVec F S256x256 .f32) (main_arg7 : FVec F S256 .f32) (main_arg8 : FVec F S62x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) (main_arg16 : FVec F S256x256 .f32) (main_arg17 : FVec F S256 .f32) (main_arg18 : FVec F S256x1 .f32) (main_arg19 : FVec F S1 .f32) (main_v13 : IVec S_ 1) (main_v16 : IVec S32768x4 1) : IVec S_ 1 :=
  let main_c_5 : IVec S_ 1 := constantI S_ 1 1#1
  let main_v17 : IVec S_ 1 := (fun x v => Host.reduce IntOp.andi x v reducesTo_S32768x4_S_d0_1 h_S_) main_v16 main_c_5
  let main_v18 : IVec S_ 1 := andi main_v13 main_v17
  let main_v19 : FVec F S62x256 .f32 := Host.absf main_arg4
  let main_cst_6 : FVec F S_ .f32 := constant S_ .f32 0x7F800000#32
  let main_v20 : FVec F S62x256 .f32 := broadcastInDim S62x256 ![] bcast_S_S62x256 main_cst_6
  let main_v21 : IVec S62x256 1 := cmpf .olt main_v19 main_v20
  let main_c_7 : IVec S_ 1 := constantI S_ 1 1#1
  let main_v22 : IVec S_ 1 := (fun x v => Host.reduce IntOp.andi x v reducesTo_S62x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S32768x55 .f32) (main_arg1 : FVec F S32768x9 .f32) (main_arg2 : FVec F S32768x9 .f32) (main_arg3 : FVec F S32768x4 .f32) (main_arg4 : FVec F S62x256 .f32) (main_arg5 : FVec F S256 .f32) (main_arg6 : FVec F S256x256 .f32) (main_arg7 : FVec F S256 .f32) (main_arg8 : FVec F S62x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) (main_arg16 : FVec F S256x256 .f32) (main_arg17 : FVec F S256 .f32) (main_arg18 : FVec F S256x1 .f32) (main_arg19 : FVec F S1 .f32) : IVec S_ 1 :=
  let main_v0 : FVec F S32768x55 .f32 := Host.absf main_arg0
  let main_cst : FVec F S_ .f32 := constant S_ .f32 0x7F800000#32
  let main_v1 : FVec F S32768x55 .f32 := broadcastInDim S32768x55 ![] bcast_S_S32768x55 main_cst
  let main_v2 : IVec S32768x55 1 := cmpf .olt main_v0 main_v1
  let main_c : IVec S_ 1 := constantI S_ 1 1#1
  let main_v3 : IVec S_ 1 := (fun x v => Host.reduce IntOp.andi x v reducesTo_S32768x55_S_d0_1 h_S_) main_v2 main_c
  let main_v4 : FVec F S32768x9 .f32 := Host.absf main_arg1
  let main_cst_0 : FVec F S_ .f32 := constant S_ .f32 0x7F800000#32
  let main_v5 : FVec F S32768x9 .f32 := broadcastInDim S32768x9 ![] bcast_S_S32768x9 main_cst_0
  let main_v6 : IVec S32768x9 1 := cmpf .olt main_v4 main_v5
  let main_c_1 : IVec S_ 1 := constantI S_ 1 1#1
  let main_v7 : IVec S_ 1 := (fun x v => Host.reduce IntOp.andi x v reducesTo_S32768x9_S_d0_1 h_S_) main_v6 main_c_1
  let main_v8 : IVec S_ 1 := andi main_v3 main_v7
  let main_v9 : FVec F S32768x9 .f32 := Host.absf main_arg2
  let main_cst_2 : FVec F S_ .f32 := constant S_ .f32 0x7F800000#32
  let main_v10 : FVec F S32768x9 .f32 := broadcastInDim S32768x9 ![] bcast_S_S32768x9 main_cst_2
  let main_v11 : IVec S32768x9 1 := cmpf .olt main_v9 main_v10
  let main_c_3 : IVec S_ 1 := constantI S_ 1 1#1
  let main_v12 : IVec S_ 1 := (fun x v => Host.reduce IntOp.andi x v reducesTo_S32768x9_S_d0_1 h_S_) main_v11 main_c_3
  let main_v13 : IVec S_ 1 := andi main_v8 main_v12
  let main_v14 : FVec F S32768x4 .f32 := Host.absf main_arg3
  let main_cst_4 : FVec F S_ .f32 := constant S_ .f32 0x7F800000#32
  let main_v15 : FVec F S32768x4 .f32 := broadcastInDim S32768x4 ![] bcast_S_S32768x4 main_cst_4
  let main_v16 : IVec S32768x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S32768x55 : Shape := ⟨2, ![32768, 55]⟩
abbrev S32768x9 : Shape := ⟨2, ![32768, 9]⟩
abbrev S32768x4 : Shape := ⟨2, ![32768, 4]⟩
abbrev S62x256 : Shape := ⟨2, ![62, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S32768x1 : Shape := ⟨2, ![32768, 1]⟩
abbrev S1024x55 : Shape := ⟨2, ![1024, 55]⟩
abbrev S1024x9 : Shape := ⟨2, ![1024, 9]⟩
abbrev S1024x4 : Shape := ⟨2, ![1024, 4]⟩
abbrev S1024x1 : Shape := ⟨2, ![1024, 1]⟩
abbrev S1024x10 : Shape := ⟨2, ![1024, 10]⟩
abbrev S1024x15 : Shape := ⟨2, ![1024, 15]⟩
abbrev S1024x3 : Shape := ⟨2, ![1024, 3]⟩
abbrev S1024x18 : Shape := ⟨2, ![1024, 18]⟩
abbrev S1024x62 : Shape := ⟨2, ![1024, 62]⟩
abbrev S6144x62 : Shape := ⟨2, ![6144, 62]⟩
abbrev S6144x256 : Shape := ⟨2, ![6144, 256]⟩
abbrev S1024x256 : Shape := ⟨2, ![1024, 256]⟩

abbrev nBuf : Space → Nat
  | .hbm => 38
  | .vmem => 28
  | .smem => 0
  | _ => 0

abbrev bufTy : (tb : Table) → Fin (tcTables nBuf tb) → BufTy
  | .hbm, ⟨0, _⟩ => ⟨S32768x55, .f32⟩
  | .hbm, ⟨1, _⟩ => ⟨S32768x9, .f32⟩
  | .hbm, ⟨2, _⟩ => ⟨S32768x9, .f32⟩
  | .hbm, ⟨3, _⟩ => ⟨S32768x4, .f32⟩
  | .hbm, ⟨4, _⟩ => ⟨S62x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S62x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S256x256, .f32⟩
  | .hbm, ⟨17, _⟩ => ⟨S256, .f32⟩
  | .hbm, ⟨18, _⟩ => ⟨S256x1, .f32⟩
  | .hbm, ⟨19, _⟩ => ⟨S1, .f32⟩
  | .hbm, ⟨20, _⟩ => ⟨S62x256, .bf16⟩
  | .hbm, ⟨21, _⟩ => ⟨S256x256, .bf16⟩
  | .hbm, ⟨22, _⟩ => ⟨S62x256, .bf16⟩
  | .hbm, ⟨23, _⟩ => ⟨S256x256, .bf16⟩
  | .hbm, ⟨24, _⟩ => ⟨S256x256, .bf16⟩
  | .hbm, ⟨25, _⟩ => ⟨S256x1, .bf16⟩
  | .hbm, ⟨26, _⟩ => ⟨S256x256, .bf16⟩
  | .hbm, ⟨27, _⟩ => ⟨S256x1, .bf16⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x1, .f32⟩
  | .hbm, ⟨34, _⟩ => ⟨S1x256, .f32⟩
  | .hbm, ⟨35, _⟩ => ⟨S1x1, .f32⟩
  | .hbm, ⟨36, _⟩ => ⟨S32768x1, .f32⟩
  | .hbm, ⟨37, _⟩ => ⟨S32768x1, .f32⟩
  | .local _ .vmem, ⟨0, _⟩ => ⟨S1024x55, .f32⟩
  | .local _ .vmem, ⟨1, _⟩ => ⟨S1024x55, .f32⟩
  | .local _ .vmem, ⟨2, _⟩ => ⟨S1024x9, .f32⟩
  | .local _ .vmem, ⟨3, _⟩ => ⟨S1024x9, .f32⟩
  | .local _ .vmem, ⟨4, _⟩ => ⟨S1024x9, .f32⟩
  | .local _ .vmem, ⟨5, _⟩ => ⟨S1024x9, .f32⟩
  | .local _ .vmem, ⟨6, _⟩ => ⟨S1024x4, .f32⟩
  | .local _ .vmem, ⟨7, _⟩ => ⟨S1024x4, .f32⟩
  | .local _ .vmem, ⟨8, _⟩ => ⟨S62x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S62x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S256x1, .bf16⟩
  | .local _ .vmem, ⟨19, _⟩ => ⟨S1x1, .f32⟩
  | .local _ .vmem, ⟨20, _⟩ => ⟨S256x256, .bf16⟩
  | .local _ .vmem, ⟨21, _⟩ => ⟨S1x256, .f32⟩
  | .local _ .vmem, ⟨22, _⟩ => ⟨S256x1, .bf16⟩
  | .local _ .vmem, ⟨23, _⟩ => ⟨S1x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | _, _ => ⟨S32768x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S62x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S62x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S256_S1x256 : S256.ShapeCasts S1x256
  shapeCasts_S1_S1x1 : S1.ShapeCasts S1x1
  inb_S1024x55_S1024x55_0_0 : ∀ a, (![0, 0] : Fin 2 → Nat) a + S1024x55.size a ≤ S1024x55.size a
  h_S1024x55 : 0 < S1024x55.numel
  inb_S1024x9_S1024x9_0_0 : ∀ a, (![0, 0] : Fin 2 → Nat) a + S1024x9.size a ≤ S1024x9.size a
  h_S1024x9 : 0 < S1024x9.numel
  inb_S1024x4_S1024x4_0_0 : ∀ a, (![0, 0] : Fin 2 → Nat) a + S1024x4.size a ≤ S1024x4.size a
  h_S1024x4 : 0 < S1024x4.numel
  slices_S1024x55_o0_0_S1024x10 : S1024x55.Slices ![0, 0] S1024x10
  slices_S1024x55_o0_10_S1024x15 : S1024x55.Slices ![0, 10] S1024x15
  slices_S1024x55_o0_25_S1024x15 : S1024x55.Slices ![0, 25] S1024x15
  slices_S1024x55_o0_40_S1024x15 : S1024x55.Slices ![0, 40] S1024x15
  slices_S1024x9_o0_0_S1024x3 : S1024x9.Slices ![0, 0] S1024x3
  slices_S1024x9_o0_3_S1024x3 : S1024x9.Slices ![0, 3] S1024x3
  slices_S1024x9_o0_6_S1024x3 : S1024x9.Slices ![0, 6] S1024x3
  concatenates_S1024x1_S1024x1_S1024x1_S1024x3_d1 : Shape.Concatenates [S1024x1, S1024x1, S1024x1] S1024x3 1
  concatenates_S1024x3_S1024x15_S1024x18_d1 : Shape.Concatenates [S1024x3, S1024x15] S1024x18 1
  concatenates_S1024x3_S1024x3_S1024x3_S1024x3_S1024x10_S1024x18_S1024x18_S1024x4_S1024x62_d1 : Shape.Concatenates [S1024x3, S1024x3, S1024x3, S1024x3, S1024x10, S1024x18, S1024x18, S1024x4] S1024x62 1
  concatenates_S1024x62_S1024x62_S1024x62_S1024x62_S1024x62_S1024x62_S6144x62_d0 : Shape.Concatenates [S1024x62, S1024x62, S1024x62, S1024x62, S1024x62, S1024x62] S6144x62 0
  inb_S62x256_S62x256_0_0 : ∀ a, (![0, 0] : Fin 2 → Nat) a + S62x256.size a ≤ S62x256.size a
  h_S62x256 : 0 < S62x256.numel
  shapeCasts_S62x256_S62x256 : S62x256.ShapeCasts S62x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6144x256 : S1x256.Broadcasts S6144x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S6144x256_o0_0_S1024x256 : S6144x256.Slices ![0, 0] S1024x256
  slices_S6144x256_o1024_0_S1024x256 : S6144x256.Slices ![1024, 0] S1024x256
  slices_S6144x256_o2048_0_S1024x256 : S6144x256.Slices ![2048, 0] S1024x256
  slices_S6144x256_o3072_0_S1024x256 : S6144x256.Slices ![3072, 0] S1024x256
  slices_S6144x256_o4096_0_S1024x256 : S6144x256.Slices ![4096, 0] S1024x256
  slices_S6144x256_o5120_0_S1024x256 : S6144x256.Slices ![5120, 0] S1024x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S6144x62_S62x256_S6144x256_1_0_0_1_n_n_wf : DotDims.WF S6144x62 S62x256 S6144x256 [1] [0] [0] [1] [] []
  dot_S6144x256_S256x256_S6144x256_1_0_0_1_n_n_wf : DotDims.WF S6144x256 S256x256 S6144x256 [1] [0] [0] [1] [] []
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x55.size a ≤ S32768x55.size a
  hwx0_0 : ∀ i : grid0.Coords, EltTy.bits .f32 = 32 ∨ (Rect.block (s := S32768x55) S1024x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x9.size a ≤ S32768x9.size a
  hwx0_1 : ∀ i : grid0.Coords, EltTy.bits .f32 = 32 ∨ (Rect.block (s := S32768x9) S1024x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x9.size a ≤ S32768x9.size a
  hwx0_2 : ∀ i : grid0.Coords, EltTy.bits .f32 = 32 ∨ (Rect.block (s := S32768x9) S1024x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S32768x4.size a
  hwx0_3 : ∀ i : grid0.Coords, EltTy.bits .f32 = 32 ∨ (Rect.block (s := S32768x4) S1024x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S62x256.size a ≤ S62x256.size a
  hwx0_4 : ∀ i : grid0.Coords, EltTy.bits .bf16 = 32 ∨ (Rect.block (s := S62x256) S62x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S62x256.size a ≤ S62x256.size a
  hwx0_8 : ∀ i : grid0.Coords, EltTy.bits .bf16 = 32 ∨ (Rect.block (s := S62x256) S62x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S256x1.size a
  hwx0_14 : ∀ i : grid0.Coords, EltTy.bits .bf16 = 32 ∨ (Rect.block (s := S256x1) S256x1.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x1.size a ≤ S256x1.size a
  hwx0_18 : ∀ i : grid0.Coords, EltTy.bits .bf16 = 32 ∨ (Rect.block (s := S256x1) S256x1.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x1.size a ≤ S32768x1.size a
  hwx0_20 : ∀ i : grid0.Coords, EltTy.bits .f32 = 32 ∨ (Rect.block (s := S32768x1) S1024x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x1.size a ≤ S32768x1.size a
  hwx0_21 : ∀ i : grid0.Coords, EltTy.bits .f32 = 32 ∨ (Rect.block (s := S32768x1) S1024x1.size (cc0_transform_21 i) (hinb0_21 i)).WholeWords (EltTy.packing .f32)

variable [Facts₀]

def dot_S6144x62_S62x256_S6144x256_1_0_0_1_n_n : DotDims S6144x62 S62x256 S6144x256 where
  lhsContracting := [1]
  rhsContracting := [0]
  lhsNonContracting := [0]
  rhsNonContracting := [1]
  lhsBatch := []
  rhsBatch := []
  wf := dot_S6144x62_S62x256_S6144x256_1_0_0_1_n_n_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S1024x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S62x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S62x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S256x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v7) S256x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v16_0) S1024x1.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v16_1) S1024x1.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S32768x55 : Shape := ⟨2, ![32768, 55]⟩
abbrev S32768x9 : Shape := ⟨2, ![32768, 9]⟩
abbrev S32768x4 : Shape := ⟨2, ![32768, 4]⟩
abbrev S62x256 : Shape := ⟨2, ![62, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S3x3 : Shape := ⟨2, ![3, 3]⟩
abbrev S6 : Shape := ⟨1, ![6]⟩
abbrev S32768x10 : Shape := ⟨2, ![32768, 10]⟩
abbrev S32768x45 : Shape := ⟨2, ![32768, 45]⟩
abbrev S32768x3x15 : Shape := ⟨3, ![32768, 3, 15]⟩
abbrev S_ : Shape := ⟨0, ![]⟩
abbrev S32768x3x3 : Shape := ⟨3, ![32768, 3, 3]⟩
abbrev S32768x3x18 : Shape := ⟨3, ![32768, 3, 18]⟩
abbrev S3x3x1 : Shape := ⟨3, ![3, 3, 1]⟩
abbrev S32768x1x10 : Shape := ⟨3, ![32768, 1, 10]⟩
abbrev S32768x6x10 : Shape := ⟨3, ![32768, 6, 10]⟩
abbrev S32768x1x4 : Shape := ⟨3, ![32768, 1, 4]⟩
abbrev S32768x6x4 : Shape := ⟨3, ![32768, 6, 4]⟩
abbrev S6x1 : Shape := ⟨2, ![6, 1]⟩
abbrev S32768x6x3 : Shape := ⟨3, ![32768, 6, 3]⟩
abbrev S32768x6x18 : Shape := ⟨3, ![32768, 6, 18]⟩
abbrev S32768x6x62 : Shape := ⟨3, ![32768, 6, 62]⟩
abbrev S32768x6x256 : Shape := ⟨3, ![32768, 6, 256]⟩
abbrev S1x1x256 : Shape := ⟨3, ![1, 1, 256]⟩
abbrev S32768x256 : Shape := ⟨2, ![32768, 256]⟩
abbrev S1x256 : Shape := ⟨2, ![1, 256]⟩
abbrev S32768x1 : Shape := ⟨2, ![32768, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S32768x55, .f32⟩
  | 1 => ⟨S32768x9, .f32⟩
  | 2 => ⟨S32768x9, .f32⟩
  | 3 => ⟨S32768x4, .f32⟩
  | 4 => ⟨S62x256, .f32⟩
  | 5 => ⟨S256, .f32⟩
  | 6 => ⟨S256x256, .f32⟩
  | 7 => ⟨S256, .f32⟩
  | 8 => ⟨S62x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x1, .f32⟩
  | 15 => ⟨S1, .f32⟩
  | 16 => ⟨S256x256, .f32⟩
  | 17 => ⟨S256, .f32⟩
  | 18 => ⟨S256x1, .f32⟩
  | 19 => ⟨S1, .f32⟩
  | 20 => ⟨S3x3, .i32⟩
  | 21 => ⟨S3x3, .i1⟩
  | 22 => ⟨S3x3, .i1⟩
  | 23 => ⟨S6, .i32⟩
  | 24 => ⟨S6, .i1⟩
  | 25 => ⟨S6, .i32⟩
  | 26 => ⟨S6, .i1⟩
  | 27 => ⟨S6, .i1⟩
  | 28 => ⟨S6, .i1⟩
  | 29 => ⟨S6, .i1⟩
  | 30 => ⟨S6, .i1⟩
  | 31 => ⟨S32768x10, .f32⟩
  | 32 => ⟨S32768x45, .f32⟩
  | 33 => ⟨S32768x3x15, .f32⟩
  | 34 => ⟨S3x3, .i32⟩
  | 35 => ⟨S3x3, .i32⟩
  | 36 => ⟨S_, .i32⟩
  | 37 => ⟨S3x3, .i32⟩
  | 38 => ⟨S3x3, .i32⟩
  | 39 => ⟨S3x3, .i1⟩
  | 40 => ⟨S3x3, .f32⟩
  | 41 => ⟨S32768x3x3, .f32⟩
  | 42 => ⟨S32768x3x18, .f32⟩
  | 43 => ⟨S_, .i32⟩
  | 44 => ⟨S3x3, .i32⟩
  | 45 => ⟨S3x3, .i32⟩
  | 46 => ⟨S3x3, .i32⟩
  | 47 => ⟨S3x3x1, .i32⟩
  | 48 => ⟨S32768x3x3, .f32⟩
  | 49 => ⟨S_, .i32⟩
  | 50 => ⟨S3x3, .i32⟩
  | 51 => ⟨S3x3, .i32⟩
  | 52 => ⟨S3x3, .i32⟩
  | 53 => ⟨S3x3x1, .i32⟩
  | 54 => ⟨S32768x3x3, .f32⟩
  | 55 => ⟨S32768x1x10, .f32⟩
  | 56 => ⟨S32768x6x10, .f32⟩
  | 57 => ⟨S32768x1x4, .f32⟩
  | 58 => ⟨S32768x6x4, .f32⟩
  | 59 => ⟨S_, .i32⟩
  | 60 => ⟨S6, .i32⟩
  | 61 => ⟨S6, .i32⟩
  | 62 => ⟨S6, .i32⟩
  | 63 => ⟨S6x1, .i32⟩
  | 64 => ⟨S32768x6x3, .f32⟩
  | 65 => ⟨S_, .i32⟩
  | 66 => ⟨S6, .i32⟩
  | 67 => ⟨S6, .i32⟩
  | 68 => ⟨S6, .i32⟩
  | 69 => ⟨S6x1, .i32⟩
  | 70 => ⟨S32768x6x3, .f32⟩
  | 71 => ⟨S_, .i32⟩
  | 72 => ⟨S6, .i32⟩
  | 73 => ⟨S6, .i32⟩
  | 74 => ⟨S6, .i32⟩
  | 75 => ⟨S6x1, .i32⟩
  | 76 => ⟨S32768x6x3, .f32⟩
  | 77 => ⟨S_, .i32⟩
  | 78 => ⟨S6, .i32⟩
  | 79 => ⟨S6, .i32⟩
  | 80 => ⟨S6, .i32⟩
  | 81 => ⟨S6x1, .i32⟩
  | 82 => ⟨S32768x6x3, .f32⟩
  | 83 => ⟨S_, .i32⟩
  | 84 => ⟨S6, .i32⟩
  | 85 => ⟨S6, .i32⟩
  | 86 => ⟨S6, .i32⟩
  | 87 => ⟨S6x1, .i32⟩
  | 88 => ⟨S32768x6x18, .f32⟩
  | 89 => ⟨S_, .i32⟩
  | 90 => ⟨S6, .i32⟩
  | 91 => ⟨S6, .i32⟩
  | 92 => ⟨S6, .i32⟩
  | 93 => ⟨S6x1, .i32⟩
  | 94 => ⟨S32768x6x18, .f32⟩
  | 95 => ⟨S32768x6x62, .f32⟩
  | 96 => ⟨S32768x6x256, .f32⟩
  | 97 => ⟨S1x1x256, .f32⟩
  | 98 => ⟨S32768x6x256, .f32⟩
  | 99 => ⟨S32768x6x256, .f32⟩
  | 100 => ⟨S_, .f32⟩
  | 101 => ⟨S32768x6x256, .f32⟩
  | 102 => ⟨S32768x6x256, .f32⟩
  | 103 => ⟨S32768x6x256, .f32⟩
  | 104 => ⟨S1x1x256, .f32⟩
  | 105 => ⟨S32768x6x256, .f32⟩
  | 106 => ⟨S32768x6x256, .f32⟩
  | 107 => ⟨S_, .f32⟩
  | 108 => ⟨S32768x6x256, .f32⟩
  | 109 => ⟨S32768x6x256, .f32⟩
  | 110 => ⟨S_, .f32⟩
  | 111 => ⟨S32768x256, .f32⟩
  | 112 => ⟨S32768x6x256, .f32⟩
  | 113 => ⟨S1x1x256, .f32⟩
  | 114 => ⟨S32768x6x256, .f32⟩
  | 115 => ⟨S32768x6x256, .f32⟩
  | 116 => ⟨S_, .f32⟩
  | 117 => ⟨S32768x6x256, .f32⟩
  | 118 => ⟨S32768x6x256, .f32⟩
  | 119 => ⟨S32768x6x256, .f32⟩
  | 120 => ⟨S1x1x256, .f32⟩
  | 121 => ⟨S32768x6x256, .f32⟩
  | 122 => ⟨S32768x6x256, .f32⟩
  | 123 => ⟨S_, .f32⟩
  | 124 => ⟨S32768x6x256, .f32⟩
  | 125 => ⟨S32768x6x256, .f32⟩
  | 126 => ⟨S_, .f32⟩
  | 127 => ⟨S32768x256, .f32⟩
  | _ => ⟨S32768x55, .f32⟩

abbrev hbmTy0_1 (i : Nat) : BufTy := match i % 128 with
  | 0 => ⟨S32768x256, .f32⟩
  | 1 => ⟨S1x256, .f32⟩
  | 2 => ⟨S32768x256, .f32⟩
  | 3 => ⟨S32768x256, .f32⟩
  | 4 => ⟨S_, .f32⟩
  | 5 => ⟨S32768x256, .f32⟩
  | 6 => ⟨S32768x256, .f32⟩
  | 7 => ⟨S32768x1, .f32⟩
  | 8 => ⟨S1x1, .f32⟩
  | 9 => ⟨S32768x1, .f32⟩
  | 10 => ⟨S32768x1, .f32⟩
  | 11 => ⟨S32768x256, .f32⟩
  | 12 => ⟨S1x256, .f32⟩
  | 13 => ⟨S32768x256, .f32⟩
  | 14 => ⟨S32768x256, .f32⟩
  | 15 => ⟨S_, .f32⟩
  | 16 => ⟨S32768x256, .f32⟩
  | 17 => ⟨S32768x256, .f32⟩
  | 18 => ⟨S32768x1, .f32⟩
  | 19 => ⟨S1x1, .f32⟩
  | 20 => ⟨S32768x1, .f32⟩
  | 21 => ⟨S32768x1, .f32⟩
  | _ => ⟨S32768x55, .f32⟩

abbrev hbmTy (i : Nat) : BufTy := match i / 128 with
  | 0 => hbmTy0_0 i
  | 1 => hbmTy0_1 i
  | _ => ⟨S32768x55, .f32⟩

abbrev bufTy : (tb : Table) → Fin (tcTables nBuf tb) → BufTy
  | .hbm, ⟨i, _⟩ => hbmTy i
  | _, _ => ⟨S32768x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_c_4 : Ref sig .tc := ⟨.hbm, 25, rfl⟩
abbrev main_c_5 : Ref sig .tc := ⟨.hbm, 26, rfl⟩
abbrev main_c_6 : Ref sig .tc := ⟨.hbm, 27, rfl⟩
abbrev main_c_7 : Ref sig .tc := ⟨.hbm, 28, rfl⟩
abbrev main_c_8 : Ref sig .tc := ⟨.hbm, 29, rfl⟩
abbrev main_c_9 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_c_10 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_c_11 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_c_12 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_13 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_14 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_15 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_16 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_17 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_call0_cst : Ref sig .tc := ⟨.hbm, 100, rfl⟩
abbrev main_call0_v0 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call1_cst : Ref sig .tc := ⟨.hbm, 107, rfl⟩
abbrev main_call1_v0 : Ref sig .tc := ⟨.hbm, 108, rfl⟩
abbrev main_v65 : Ref sig .tc := ⟨.hbm, 109, rfl⟩
abbrev main_cst : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_call2_cst : Ref sig .tc := ⟨.hbm, 116, rfl⟩
abbrev main_call2_v0 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call3_cst : Ref sig .tc := ⟨.hbm, 123, rfl⟩
abbrev main_call3_v0 : Ref sig .tc := ⟨.hbm, 124, rfl⟩
abbrev main_v76 : Ref sig .tc := ⟨.hbm, 125, rfl⟩
abbrev main_cst_19 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_call4_cst : Ref sig .tc := ⟨.hbm, 132, rfl⟩
abbrev main_call4_v0 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_call5_cst : Ref sig .tc := ⟨.hbm, 143, rfl⟩
abbrev main_call5_v0 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩

abbrev nD : Nat := 1
abbrev τ : Topo := Topo.v7x

variable {F : FTy → Type} [FloatOps F]

class Facts₀ : Prop where
  slices_S32768x55_S32768x10_0_0 : S32768x55.Slices ![0, 0] S32768x10
  slices_S32768x55_S32768x45_0_10 : S32768x55.Slices ![0, 10] S32768x45
  shapeCasts_S32768x45_S32768x3x15 : S32768x45.ShapeCasts S32768x3x15
  bcast_S_S3x3 : S_.BroadcastsInDim S3x3 (![] : Fin 0 → Fin S3x3.rank)
  bcast_S3x3_S32768x3x3_1_2 : S3x3.BroadcastsInDim S32768x3x3 (![1, 2] : Fin 2 → Fin S32768x3x3.rank)
  concatenates_S32768x3x3_S32768x3x15_S32768x3x18_d2 : Shape.Concatenates [S32768x3x3, S32768x3x15] S32768x3x18 2
  bcast_S3x3_S3x3x1_0_1 : S3x3.BroadcastsInDim S3x3x1 (![0, 1] : Fin 2 → Fin S3x3x1.rank)
  bcast_S32768x10_S32768x1x10_0_2 : S32768x10.BroadcastsInDim S32768x1x10 (![0, 2] : Fin 2 → Fin S32768x1x10.rank)
  bcast_S32768x1x10_S32768x6x10_0_1_2 : S32768x1x10.BroadcastsInDim S32768x6x10 (![0, 1, 2] : Fin 3 → Fin S32768x6x10.rank)
  bcast_S32768x4_S32768x1x4_0_2 : S32768x4.BroadcastsInDim S32768x1x4 (![0, 2] : Fin 2 → Fin S32768x1x4.rank)
  bcast_S32768x1x4_S32768x6x4_0_1_2 : S32768x1x4.BroadcastsInDim S32768x6x4 (![0, 1, 2] : Fin 3 → Fin S32768x6x4.rank)
  bcast_S_S6 : S_.BroadcastsInDim S6 (![] : Fin 0 → Fin S6.rank)
  bcast_S6_S6x1_0 : S6.BroadcastsInDim S6x1 (![0] : Fin 1 → Fin S6x1.rank)
  concatenates_S32768x6x3_S32768x6x3_S32768x6x3_S32768x6x3_S32768x6x10_S32768x6x18_S32768x6x18_S32768x6x4_S32768x6x62_d2 : Shape.Concatenates [S32768x6x3, S32768x6x3, S32768x6x3, S32768x6x3, S32768x6x10, S32768x6x18, S32768x6x18, S32768x6x4] S32768x6x62 2
  bcast_S256_S1x1x256_2 : S256.BroadcastsInDim S1x1x256 (![2] : Fin 1 → Fin S1x1x256.rank)
  bcast_S1x1x256_S32768x6x256_0_1_2 : S1x1x256.BroadcastsInDim S32768x6x256 (![0, 1, 2] : Fin 3 → Fin S32768x6x256.rank)
  bcast_S_S32768x6x256 : S_.BroadcastsInDim S32768x6x256 (![] : Fin 0 → Fin S32768x6x256.rank)
  reducesTo_S32768x6x256_S32768x256_d1 : S32768x6x256.ReducesTo [1] S32768x256
  h_S_ : 0 < S_.numel
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  gather_S32768x9_S3x3x1_S32768x3x3_0_1_n_n_1_2_327681_wf : GatherDims.WF S32768x9 S3x3x1 S32768x3x3 [0] [1] [] [1] [] 2 ![32768, 1]
  gather_S32768x3x3_S6x1_S32768x6x3_02_1_n_n_1_1_3276813_wf : GatherDims.WF S32768x3x3 S6x1 S32768x6x3 [0, 2] [1] [] [1] [] 1 ![32768, 1, 3]
  gather_S32768x3x18_S6x1_S32768x6x18_02_1_n_n_1_1_32768118_wf : GatherDims.WF S32768x3x18 S6x1 S32768x6x18 [0, 2] [1] [] [1] [] 1 ![32768, 1, 18]
  dot_S32768x6x62_S62x256_S32768x6x256_2_0_01_1_n_n_wf : DotDims.WF S32768x6x62 S62x256 S32768x6x256 [2] [0] [0, 1] [1] [] []
  dot_S32768x6x256_S256x256_S32768x6x256_2_0_01_1_n_n_wf : DotDims.WF S32768x6x256 S256x256 S32768x6x256 [2] [0] [0, 1] [1] [] []
  dot_S32768x256_S256x256_S32768x256_1_0_0_1_n_n_wf : DotDims.WF S32768x256 S256x256 S32768x256 [1] [0] [0] [1] [] []
  dot_S32768x256_S256x1_S32768x1_1_0_0_1_n_n_wf : DotDims.WF S32768x256 S256x1 S32768x1 [1] [0] [0] [1] [] []

variable [Facts₀]

def gather_S32768x9_S3x3x1_S32768x3x3_0_1_n_n_1_2_327681 : GatherDims S32768x9 S3x3x1 S32768x3x3 where
  offsetDims := [0]
  collapsedSliceDims := [1]
  operandBatchingDims := []
  startIndicesBatchingDims := []
  startIndexMap := [1]
  indexVectorDim := 2
  sliceSizes := ![32768, 1]
  wf := gather_S32768x9_S3x3x1_S32768x3x3_0_1_n_n_1_2_327681_wf
def gather_S32768x3x3_S6x1_S32768x6x3_02_1_n_n_1_1_3276813 : GatherDims S32768x3x3 S6x1 S32768x6x3 where
  offsetDims := [0, 2]
  collapsedSliceDims := [1]
  operandBatchingDims := []
  startIndicesBatchingDims := []
  startIndexMap := [1]
  indexVectorDim := 1
  sliceSizes := ![32768, 1, 3]
  wf := gather_S32768x3x3_S6x1_S32768x6x3_02_1_n_n_1_1_3276813_wf
def gather_S32768x3x18_S6x1_S32768x6x18_02_1_n_n_1_1_32768118 : GatherDims S32768x3x18 S6x1 S32768x6x18 where
  offsetDims := [0, 2]
  collapsedSliceDims := [1]
  operandBatchingDims := []
  startIndicesBatchingDims := []
  startIndexMap := [1]
  indexVectorDim := 1
  sliceSizes := ![32768, 1, 18]
  wf := gather_S32768x3x18_S6x1_S32768x6x18_02_1_n_n_1_1_32768118_wf
def dot_S32768x6x62_S62x256_S32768x6x256_2_0_01_1_n_n : DotDims S32768x6x62 S62x256 S32768x6x256 where
  lhsContracting := [2]
  rhsContracting := [0]
  lhsNonContracting := [0, 1]
  rhsNonContracting := [1]
  lhsBatch := []
  rhsBatch := []
  wf := dot_S32768x6x62_S62x256_S32768x6x256_2_0_01_1_n_n_wf
def dot_S32768x6x256_S256x256_S32768x6x256_2_0_01_1_n_n : DotDims S32768x6x256 S256x256 S32768x6x256 where
  lhsContracting := [2]
  rhsContracting := [0]
  lhsNonContracting := [0, 1]
  rhsNonContracting := [1]
  lhsBatch := []
  rhsBatch := []
  wf := dot_S32768x6x256_S256x256_S32768x6x256_2_0_01_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf

class Facts : Prop extends Facts₀ where

variable [Facts]
-- ==== Proof.Spec.lean ====
/-
  The critic network as plain mathematics on the extended reals.

  A sample is a row of four arrays: an observation of 55 entries (10 of the body, then 15 for each of three objects), an
  achieved goal and a goal of 9 entries each (3 for each object), and an action of 4 entries. For each of the six ordered
  pairs (i, j) of distinct objects the network reads 62 features of the sample: the achieved-goal entries of object i and
  of object j, the goal entries of object i and of object j, the 10 body entries, then for object i and for object j a
  one-hot code of the object's number (3 entries) followed by the object's 15 observation entries, and last the action.
  Each feature row goes through two layers (a matrix product, a bias, the rectifier max(·, 0), twice); the six results
  are added; the sum goes through a third such layer and a final product with one column and a bias. There are two such
  networks ("twins") with their own weights; both are instances of `qOut` below.
-/
import Idealize.ShloMosaic.PureOps.Ideal
import Idealize.ShloMosaic.Lib.ValueIdx

noncomputable section

open scoped BigOperators

namespace Cert.Critic

open Idealize.ShloMosaic Idealize.ShloMosaic.ValueIdx

/-- An array of `R` rows and `C` columns of extended reals. -/
abbrev A2 (R C : Nat) : Type := (⟨2, ![R, C]⟩ : Shape).Idx → EReal
/-- A vector of `C` extended reals. -/
abbrev A1 (C : Nat) : Type := (⟨1, ![C]⟩ : Shape).Idx → EReal

/-- The first object of the `p`-th ordered pair: (0,1), (0,2), (1,0), (1,2), (2,0), (2,1). -/
def pI (p : Nat) : Nat := p / 2
/-- The second object of the `p`-th ordered pair. -/
def pJ (p : Nat) : Nat := if p = 0 then 1 else if p = 1 then 2 else if p = 2 then 0 else if p = 3 then 2 else if p = 4 then 0 else 1

/-- Row `r`, column `c` of an array, and zero past the last column. -/
def at2 {R C : Nat} (A : A2 R C) (r : Fin R) (c : Nat) : EReal := if h : c < C then A (ix2 r ⟨c, h⟩) else 0

theorem at2_eq {R C : Nat} (A : A2 R C) (r : Fin R) (c : Nat) (h : c < C) : at2 A r c = A (ix2 r ⟨c, h⟩) := dif_pos h

/-- Feature `f` (of 62) of sample `r` for the `p`-th ordered pair of objects. -/
def feat {R : Nat} (obs : A2 R 55) (ag g : A2 R 9) (act : A2 R 4) (r : Fin R) (p : Nat) (f : Nat) : EReal :=
  if f < 3 then at2 ag r (3 * pI p + f)
  else if f < 6 then at2 ag r (3 * pJ p + (f - 3))
  else if f < 9 then at2 g r (3 * pI p + (f - 6))
  else if f < 12 then at2 g r (3 * pJ p + (f - 9))
  else if f < 22 then at2 obs r (f - 12)
  else if f < 25 then (if f - 22 = pI p then 1 else 0)
  else if f < 40 then at2 obs r (10 + 15 * pI p + (f - 25))
  else if f < 43 then (if f - 40 = pJ p then 1 else 0)
  else if f < 58 then at2 obs r (10 + 15 * pJ p + (f - 43))
  else at2 act r (f - 58)

/-- The rectifier. -/
def relu (x : EReal) : EReal := max x 0

/-- The first layer at hidden unit `h`, for the feature row `x`. -/
def layer1 (x : Fin 62 → EReal) (w1 : A2 62 256) (b1 : A1 256) (h : Fin 256) : EReal :=
  relu ((∑ f : Fin 62, x f * w1 (ix2 f h)) + b1 (ix1 h))

/-- The second layer at unit `j`, for the feature row `x`. -/
def layer2 (x : Fin 62 → EReal) (w1 : A2 62 256) (b1 : A1 256) (w2 : A2 256 256) (b2 : A1 256) (j : Fin 256) : EReal :=
  relu ((∑ h : Fin 256, layer1 x w1 b1 h * w2 (ix2 h j)) + b2 (ix1 j))

/-- The six pairs' second-layer results added, at unit `j` (`inp p` is the feature row of the `p`-th pair). -/
def pooled (inp : Fin 6 → Fin 62 → EReal) (w1 : A2 62 256) (b1 : A1 256) (w2 : A2 256 256) (b2 : A1 256) (j : Fin 256) : EReal :=
  ∑ p : Fin 6, layer2 (inp p) w1 b1 w2 b2 j

/-- The head: a third layer of the pooled vector `o`, then the product with one column and a bias. -/
def head (o : Fin 256 → EReal) (v1 : A2 256 256) (c1 : A1 256) (v2 : A2 256 1) (c2 : A1 1) : EReal :=
  (∑ k : Fin 256, relu ((∑ j : Fin 256, o j * v1 (ix2 j k)) + c1 (ix1 k)) * v2 (ix2 k (0 : Fin 1))) + c2 (ix1 (0 : Fin 1))

/-- One twin's value for sample `r`. -/
def qRow {R : Nat} (obs : A2 R 55) (ag g : A2 R 9) (act : A2 R 4) (w1 : A2 62 256) (b1 : A1 256) (w2 : A2 256 256) (b2 : A1 256)
    (v1 : A2 256 256) (c1 : A1 256) (v2 : A2 256 1) (c2 : A1 1) (r : Fin R) : EReal :=
  head (pooled (fun p f => feat obs ag g act r p.val f.val) w1 b1 w2 b2) v1 c1 v2 c2

/-- One twin's output array, `R` rows and one column. -/
def qOut {R : Nat} (obs : A2 R 55) (ag g : A2 R 9) (act : A2 R 4) (w1 : A2 62 256) (b1 : A1 256) (w2 : A2 256 256) (b2 : A1 256)
    (v1 : A2 256 256) (c1 : A1 256) (v2 : A2 256 1) (c2 : A1 1) : A2 R 1 :=
  fun i => qRow obs ag g act w1 b1 w2 b2 v1 c1 v2 c2 (i 0)

/-- A block of rows: when the rows of four block arrays are the rows `ρ r` of four whole arrays, the block's features are the
    whole arrays' features at those rows. -/
theorem feat_rows {R R' : Nat} (obs : A2 R 55) (ag g : A2 R 9) (act : A2 R 4) (obs' : A2 R' 55) (ag' g' : A2 R' 9) (act' : A2 R' 4)
    (ρ : Fin R' → Fin R) (hobs : ∀ r c, obs' (ix2 r c) = obs (ix2 (ρ r) c)) (hag : ∀ r c, ag' (ix2 r c) = ag (ix2 (ρ r) c))
    (hg : ∀ r c, g' (ix2 r c) = g (ix2 (ρ r) c)) (hact : ∀ r c, act' (ix2 r c) = act (ix2 (ρ r) c)) (r : Fin R') (p f : Nat) :
    feat obs' ag' g' act' r p f = feat obs ag g act (ρ r) p f := by
  have e1 : ∀ c, at2 obs' r c = at2 obs (ρ r) c := fun c => by unfold at2; split <;> simp [hobs]
  have e2 : ∀ c, at2 ag' r c = at2 ag (ρ r) c := fun c => by unfold at2; split <;> simp [hag]
  have e3 : ∀ c, at2 g' r c = at2 g (ρ r) c := fun c => by unfold at2; split <;> simp [hg]
  have e4 : ∀ c, at2 act' r c = at2 act (ρ r) c := fun c => by unfold at2; split <;> simp [hact]
  unfold feat
  simp only [e1, e2, e3, e4]

/-- So a block's value at its row `r` is the whole arrays' value at row `ρ r`. -/
theorem qRow_rows {R R' : Nat} (obs : A2 R 55) (ag g : A2 R 9) (act : A2 R 4) (obs' : A2 R' 55) (ag' g' : A2 R' 9) (act' : A2 R' 4)
    (ρ : Fin R' → Fin R) (hobs : ∀ r c, obs' (ix2 r c) = obs (ix2 (ρ r) c)) (hag : ∀ r c, ag' (ix2 r c) = ag (ix2 (ρ r) c))
    (hg : ∀ r c, g' (ix2 r c) = g (ix2 (ρ r) c)) (hact : ∀ r c, act' (ix2 r c) = act (ix2 (ρ r) c))
    (w1 : A2 62 256) (b1 : A1 256) (w2 : A2 256 256) (b2 : A1 256) (v1 : A2 256 256) (c1 : A1 256) (v2 : A2 256 1) (c2 : A1 1) (r : Fin R') :
    qRow obs' ag' g' act' w1 b1 w2 b2 v1 c1 v2 c2 r = qRow obs ag g act w1 b1 w2 b2 v1 c1 v2 c2 (ρ r) := by
  unfold qRow
  simp only [feat_rows obs ag g act obs' ag' g' act' ρ hobs hag hg hact]

end Cert.Critic

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.LibTileLayer.lean ====
/-
  A dense layer on a tile of rows, at the exact (extended-real) reading, element by element: a matrix product into a zero
  accumulator is the plain sum over the shared axis whatever the operands' float formats; one bias row added to every row and
  the maximum with zero read at (r, c); and a block of consecutive rows cut out of a taller array.
-/
import Idealize.ShloMosaic.PureOps.Ideal.Laws
import Idealize.ShloMosaic.Lib.ValueIdx
import Idealize.ShloMosaic.Lib.ValueLayout
import Idealize.ShloMosaic.Lib.Pipeline.Value
import proofs.«164559_j30691836297668_1_alg».proof.Proof.LibDotSum
import proofs.«164559_j30691836297668_1_alg».proof.Proof.LibRowBias

noncomputable section

open scoped BigOperators

namespace Cert.LibTileLayer

open Idealize.ShloMosaic Idealize.ShloMosaic.ValueIdx

/-- A tile's product of an `M × K` by a `K × N` array into the zero accumulator, at (r, c): `∑ k, A (r, k) · B (k, c)`. -/
theorem matmul0_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ φ₁) (B : FVec Ideal ⟨2, ![K, N]⟩ φ₂) (r : Fin M) (c : Fin N) :
    matmul (F := Ideal) d none A B (constant ⟨2, ![M, N]⟩ .f32 0x00000000#32) (ix2 r c)
      = ∑ k : Fin K, (A (ix2 r k) : EReal) * (B (ix2 k c) : EReal) := by
  simp only [matmul]
  rw [Ideal.matmul_constant_zero_apply]
  exact Cert.LibDotSum.plain d hr hs hl0 hl1 hr0 hr1 (fun a b => (A a : EReal) * (B b : EReal)) (ix2 r c)

/-- One bias row (a `[1, N]` block, cast to its own shape) added to every row of `P`, then the maximum with the zero splat,
    at (r, c): `max (P (r, c) + bias (0, c)) 0`. -/
theorem biasRelu_apply {M N : Nat} (P : FVec Ideal ⟨2, ![M, N]⟩ .f32) (bias : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (r : Fin M) (c : Fin N) :
    maximumf (addf P (broadcastTo ⟨2, ![M, N]⟩ (shapeCast ⟨2, ![1, N]⟩ bias h1) h2))
        (broadcast ⟨2, ![M, N]⟩ (Scalar.ofBits (F := Ideal) .f32 0x00000000#32)) (ix2 r c)
      = max (P (ix2 r c) + bias (ix2 (0 : Fin 1) c)) 0 := by
  rw [maximumf_apply, addf_apply, broadcast_apply, Cert.RowBias.bcastRow_apply, shapeCast_self]
  show max _ (Ideal.ofBits .f32 0x00000000#32) = _
  rw [Ideal.ofBits_zero_f32]
  rfl

/-- The same bias row added with no rectifier, at (r, c). -/
theorem bias_apply {M N : Nat} (P : FVec Ideal ⟨2, ![M, N]⟩ .f32) (bias : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (r : Fin M) (c : Fin N) :
    addf P (broadcastTo ⟨2, ![M, N]⟩ (shapeCast ⟨2, ![1, N]⟩ bias h1) h2) (ix2 r c)
      = P (ix2 r c) + bias (ix2 (0 : Fin 1) c) := by
  rw [addf_apply, Cert.RowBias.bcastRow_apply, shapeCast_self]
  rfl

/-- Rows `off … off + R − 1` of an `M × N` array, at (r, c): the array at (off + r, c). -/
theorem rowsSlice_apply {α : Type} {M N R : Nat} (off : Nat) (H : (⟨2, ![M, N]⟩ : Shape).Idx → α)
    (h : (⟨2, ![M, N]⟩ : Shape).Slices ![off, 0] ⟨2, ![R, N]⟩) (r : Fin R) (c : Fin N) (hlt : off + r.val < M) :
    extractStridedSlice ⟨2, ![R, N]⟩ ![off, 0] H h (ix2 r c) = H (ix2 ⟨off + r.val, hlt⟩ c) :=
  extractStridedSlice_apply _ H h (ix2 r c) (ix2 ⟨off + r.val, hlt⟩ c) (fun a => by
    match a with
    | ⟨0, _⟩ => rfl
    | ⟨1, _⟩ => show c.val = 0 + c.val; omega)

end Cert.LibTileLayer

end
-- ==== Proof.KerNet.lean ====
/-
  The kernel body's arithmetic, read at an index. The body stacks the six pairs' feature rows of a block of 1024 samples into
  6144 rows (pair p's rows are rows p·1024 … p·1024 + 1023), runs the two layers on all 6144 rows at once, adds the six
  slabs of 1024 rows, and runs the head. On the extended reals the changes of float format are the identity and a product
  into a zero accumulator is the plain sum, so row r of the result is the specification's `head` of `pooled` of the six
  feature rows p·1024 + r. The second twin adds its six slabs in three places of the body; the sum is the same.
-/
import proofs.«164559_j30691836297668_1_alg».proof.Proof.Gen.KernelIdeal.Skeleton
import proofs.«164559_j30691836297668_1_alg».proof.Proof.Spec
import proofs.«164559_j30691836297668_1_alg».proof.Proof.LibTileLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerNet

open Idealize.ShloMosaic Idealize.ShloMosaic.ValueIdx Cert.KernelIdeal Cert.Critic Cert.LibTileLayer

/-- A one-row block as a vector. -/
def rowVec {N : Nat} (v : FVec Ideal ⟨2, ![1, N]⟩ .f32) : A1 N := fun i => v (ix2 (0 : Fin 1) (i 0))

/-- Row `p·1024 + r` of the stacked 6144 rows. -/
abbrev slab (p : Fin 6) (r : Fin 1024) : Fin 6144 := ⟨p.val * 1024 + r.val, by omega⟩

/-- The hidden layer on the stacked rows, at (R, h). -/
theorem pay3_apply (x0 : Vec Ideal S1024x55 .f32) (x1 x2 : Vec Ideal S1024x9 .f32) (x3 : Vec Ideal S1024x4 .f32)
    (W : Vec Ideal S62x256 .bf16) (B : Vec Ideal S1x256 .f32) (R : Fin 6144) (h : Fin 256) :
    Gen.k0_pay3 (F := Ideal) x0 x1 x2 x3 W B (ix2 R h)
      = layer1 (fun f => Gen.k0_pay2 (F := Ideal) x0 x1 x2 x3 (ix2 R f)) W (rowVec B) h := by
  unfold Gen.k0_pay3
  rw [truncf_apply, biasRelu_apply, matmul0_apply dot_S6144x62_S62x256_S6144x256_1_0_0_1_n_n rfl rfl (fun _ _ => rfl) (fun _ _ => rfl) (fun _ _ => rfl) (fun _ _ => rfl), shapeCast_self]
  rfl

/-- The second layer on the stacked rows, before the slabs are added, at (R, j). -/
theorem layer2_rows (H : FVec Ideal S6144x256 .bf16) (W : FVec Ideal S256x256 .bf16) (B : FVec Ideal S1x256 .f32)
    (h1 : S256x256.ShapeCasts S256x256) (h2 : S1x256.ShapeCasts S1x256) (h3 : S1x256.Broadcasts S6144x256) (R : Fin 6144) (j : Fin 256) :
    maximumf (addf (matmul (F := Ideal) dot_S6144x256_S256x256_S6144x256_1_0_0_1_n_n none H (shapeCast S256x256 W h1) (constant S6144x256 .f32 0x00000000#32))
        (broadcastTo S6144x256 (shapeCast S1x256 B h2) h3)) (broadcast S6144x256 (Scalar.ofBits (F := Ideal) .f32 0x00000000#32)) (ix2 R j)
      = relu ((∑ h : Fin 256, H (ix2 R h) * W (ix2 h j)) + rowVec B (ix1 j)) := by
  rw [biasRelu_apply, matmul0_apply dot_S6144x256_S256x256_S6144x256_1_0_0_1_n_n rfl rfl (fun _ _ => rfl) (fun _ _ => rfl) (fun _ _ => rfl) (fun _ _ => rfl), shapeCast_self]
  rfl

/-- The first twin's pooled second layer, at (r, j): the six slabs added. -/
theorem pay4_apply (H : FVec Ideal S6144x256 .bf16) (W : Vec Ideal S256x256 .bf16) (B : Vec Ideal S1x256 .f32)
    (r : Fin 1024) (j : Fin 256) :
    Gen.k0_pay4 (F := Ideal) H W B (ix2 r j)
      = ∑ p : Fin 6, relu ((∑ h : Fin 256, H (ix2 (slab p r) h) * W (ix2 h j)) + rowVec B (ix1 j)) := by
  unfold Gen.k0_pay4
  simp only [addf_apply]
  rw [rowsSlice_apply 0 _ _ r j (by omega), rowsSlice_apply 1024 _ _ r j (by omega), rowsSlice_apply 2048 _ _ r j (by omega),
    rowsSlice_apply 3072 _ _ r j (by omega), rowsSlice_apply 4096 _ _ r j (by omega), rowsSlice_apply 5120 _ _ r j (by omega)]
  simp only [layer2_rows]
  rw [Fin.sum_univ_six]
  rfl

/-- The second twin's second layer on the stacked rows, at (R, j): the two layers of row R. -/
theorem pay5_apply (A : FVec Ideal S6144x62 .bf16) (W1 : Vec Ideal S62x256 .bf16) (B1 : Vec Ideal S1x256 .f32)
    (W2 : Vec Ideal S256x256 .bf16) (B2 : Vec Ideal S1x256 .f32) (R : Fin 6144) (j : Fin 256) :
    Gen.k0_pay5 (F := Ideal) A W1 B1 W2 B2 (ix2 R j) = layer2 (fun f => A (ix2 R f)) W1 (rowVec B1) W2 (rowVec B2) j := by
  unfold Gen.k0_pay5
  rw [layer2_rows]
  unfold layer2
  congr 2
  refine Finset.sum_congr rfl fun h _ => ?_
  congr 1
  rw [truncf_apply, biasRelu_apply, matmul0_apply dot_S6144x62_S62x256_S6144x256_1_0_0_1_n_n rfl rfl (fun _ _ => rfl) (fun _ _ => rfl) (fun _ _ => rfl) (fun _ _ => rfl), shapeCast_self]
  rfl

/-- The first three slabs of the second twin added, at (r, j). -/
theorem pay6_apply (A : FVec Ideal S6144x62 .bf16) (W1 : Vec Ideal S62x256 .bf16) (B1 : Vec Ideal S1x256 .f32)
    (W2 : Vec Ideal S256x256 .bf16) (B2 : Vec Ideal S1x256 .f32) (r : Fin 1024) (j : Fin 256) :
    Gen.k0_pay6 (F := Ideal) A W1 B1 W2 B2 (ix2 r j)
      = (Gen.k0_pay5 (F := Ideal) A W1 B1 W2 B2 (ix2 (slab 0 r) j) + Gen.k0_pay5 (F := Ideal) A W1 B1 W2 B2 (ix2 (slab 1 r) j))
        + Gen.k0_pay5 (F := Ideal) A W1 B1 W2 B2 (ix2 (slab 2 r) j) := by
  unfold Gen.k0_pay6
  simp only [addf_apply]
  rw [rowsSlice_apply 0 _ _ r j (by omega), rowsSlice_apply 1024 _ _ r j (by omega), rowsSlice_apply 2048 _ _ r j (by omega)]
  rfl

/-- The fourth slab of the second twin, at (r, j). -/
theorem pay7_apply (A : FVec Ideal S6144x62 .bf16) (W1 : Vec Ideal S62x256 .bf16) (B1 : Vec Ideal S1x256 .f32)
    (W2 : Vec Ideal S256x256 .bf16) (B2 : Vec Ideal S1x256 .f32) (r : Fin 1024) (j : Fin 256) :
    Gen.k0_pay7 (F := Ideal) A W1 B1 W2 B2 (ix2 r j) = Gen.k0_pay5 (F := Ideal) A W1 B1 W2 B2 (ix2 (slab 3 r) j) := by
  unfold Gen.k0_pay7
  rw [rowsSlice_apply 3072 _ _ r j (by omega)]
  rfl

/-- The head without its last bias, on a block `o` of pooled vectors, at (r, 0). -/
theorem headCore_apply (o : FVec Ideal S1024x256 .f32) (W : FVec Ideal S256x256 .bf16) (B : FVec Ideal S1x256 .f32)
    (V : FVec Ideal S256x1 .bf16) (hb : (FTy.bf16).bits < (FTy.f32).bits) (h1 : S256x256.ShapeCasts S256x256)
    (h2 : S1x256.ShapeCasts S1x256) (h3 : S1x256.Broadcasts S1024x256) (h4 : S256x1.ShapeCasts S256x1) (r : Fin 1024) :
    matmul (F := Ideal) dot_S1024x256_S256x1_S1024x1_1_0_0_1_n_n none
        (truncf .bf16 (maximumf (addf (matmul (F := Ideal) dot_S1024x256_S256x256_S1024x256_1_0_0_1_n_n none (truncf .bf16 o hb) (shapeCast S256x256 W h1)
            (constant S1024x256 .f32 0x00000000#32)) (broadcastTo S1024x256 (shapeCast S1x256 B h2) h3))
          (broadcast S1024x256 (Scalar.ofBits (F := Ideal) .f32 0x00000000#32))) hb)
        (shapeCast S256x1 V h4) (constant S1024x1 .f32 0x00000000#32) (ix2 r (0 : Fin 1))
      = ∑ k : Fin 256, relu ((∑ j : Fin 256, o (ix2 r j) * W (ix2 j k)) + rowVec B (ix1 k)) * V (ix2 k (0 : Fin 1)) := by
  rw [matmul0_apply dot_S1024x256_S256x1_S1024x1_1_0_0_1_n_n rfl rfl (fun _ _ => rfl) (fun _ _ => rfl) (fun _ _ => rfl) (fun _ _ => rfl), shapeCast_self V h4]
  refine Finset.sum_congr rfl fun (k : Fin 256) _ => ?_
  refine congrArg (· * V (ix2 k (0 : Fin 1))) ?_
  rw [truncf_apply, biasRelu_apply, matmul0_apply dot_S1024x256_S256x256_S1024x256_1_0_0_1_n_n rfl rfl (fun _ _ => rfl) (fun _ _ => rfl) (fun _ _ => rfl) (fun _ _ => rfl), shapeCast_self W h1]
  rfl

/-- The first twin's head, at (r, 0). -/
theorem pay8_apply (o : FVec Ideal S1024x256 .f32) (W : Vec Ideal S256x256 .bf16) (B : Vec Ideal S1x256 .f32)
    (V : Vec Ideal S256x1 .bf16) (C : Vec Ideal S1x1 .f32) (r : Fin 1024) :
    Gen.k0_pay8 (F := Ideal) o W B V C (ix2 r (0 : Fin 1)) = head (fun j => o (ix2 r j)) W (rowVec B) V (rowVec C) := by
  unfold Gen.k0_pay8
  rw [bias_apply, headCore_apply]
  rfl

/-- The second twin's head without its last bias, at (r, 0): the last three slabs are added to the first three here. -/
theorem pay9_apply (P : FVec Ideal S6144x256 .f32) (u w : FVec Ideal S1024x256 .f32) (W : Vec Ideal S256x256 .bf16)
    (B : Vec Ideal S1x256 .f32) (V : Vec Ideal S256x1 .bf16) (r : Fin 1024) :
    Gen.k0_pay9 (F := Ideal) P u w W B V (ix2 r (0 : Fin 1))
      = ∑ k : Fin 256, relu ((∑ j : Fin 256,
          (((u (ix2 r j) + w (ix2 r j)) + P (ix2 (slab 4 r) j)) + P (ix2 (slab 5 r) j)) * W (ix2 j k)) + rowVec B (ix1 k))
          * V (ix2 k (0 : Fin 1)) := by
  unfold Gen.k0_pay9
  rw [headCore_apply]
  refine Finset.sum_congr rfl fun k _ => ?_
  congr 3
  refine Finset.sum_congr rfl fun j _ => ?_
  congr 1
  simp only [addf_apply]
  rw [rowsSlice_apply 4096 _ _ r j (by omega), rowsSlice_apply 5120 _ _ r j (by omega)]
  rfl

/-- The last bias of the second twin's head, at (r, 0). -/
theorem pay1_apply (u : FVec Ideal S1024x1 .f32) (C : Vec Ideal S1x1 .f32) (r : Fin 1024) :
    Gen.k0_pay1 (F := Ideal) u C (ix2 r (0 : Fin 1)) = u (ix2 r (0 : Fin 1)) + rowVec C (ix1 (0 : Fin 1)) := by
  unfold Gen.k0_pay1
  rw [bias_apply]
  rfl

/-- The first twin on a block, at (r, 0): the head of the pooled two layers of the six stacked feature rows. -/
theorem twin1_apply (x0 : Vec Ideal S1024x55 .f32) (x1 x2 : Vec Ideal S1024x9 .f32) (x3 : Vec Ideal S1024x4 .f32)
    (W1 : Vec Ideal S62x256 .bf16) (B1 : Vec Ideal S1x256 .f32) (W2 : Vec Ideal S256x256 .bf16) (B2 : Vec Ideal S1x256 .f32)
    (V1 : Vec Ideal S256x256 .bf16) (C1 : Vec Ideal S1x256 .f32) (V2 : Vec Ideal S256x1 .bf16) (C2 : Vec Ideal S1x1 .f32) (r : Fin 1024) :
    Gen.k0_pay8 (F := Ideal) (Gen.k0_pay4 (Gen.k0_pay3 x0 x1 x2 x3 W1 B1) W2 B2) V1 C1 V2 C2 (ix2 r (0 : Fin 1))
      = head (pooled (fun p f => Gen.k0_pay2 (F := Ideal) x0 x1 x2 x3 (ix2 (slab p r) f)) W1 (rowVec B1) W2 (rowVec B2))
          V1 (rowVec C1) V2 (rowVec C2) := by
  refine (pay8_apply _ V1 C1 V2 C2 r).trans ?_
  refine congrArg (fun o => head o V1 (rowVec C1) V2 (rowVec C2)) (funext fun j => ?_)
  refine (pay4_apply _ W2 B2 r j).trans ?_
  unfold pooled
  refine Finset.sum_congr rfl fun (p : Fin 6) _ => ?_
  unfold layer2
  refine congrArg (fun s : EReal => relu (s + rowVec B2 (ix1 j))) ?_
  refine Finset.sum_congr rfl fun (h : Fin 256) _ => ?_
  exact congrArg (fun s : EReal => s * W2 (ix2 h j)) (pay3_apply x0 x1 x2 x3 W1 B1 (slab p r) h)

/-- The second twin on a block, at (r, 0): the same function of its own weights. -/
theorem twin2_apply (x0 : Vec Ideal S1024x55 .f32) (x1 x2 : Vec Ideal S1024x9 .f32) (x3 : Vec Ideal S1024x4 .f32)
    (W1 : Vec Ideal S62x256 .bf16) (B1 : Vec Ideal S1x256 .f32) (W2 : Vec Ideal S256x256 .bf16) (B2 : Vec Ideal S1x256 .f32)
    (V1 : Vec Ideal S256x256 .bf16) (C1 : Vec Ideal S1x256 .f32) (V2 : Vec Ideal S256x1 .bf16) (C2 : Vec Ideal S1x1 .f32) (r : Fin 1024) :
    Gen.k0_pay1 (F := Ideal) (Gen.k0_pay9 (Gen.k0_pay5 (Gen.k0_pay2 x0 x1 x2 x3) W1 B1 W2 B2)
        (Gen.k0_pay6 (Gen.k0_pay2 x0 x1 x2 x3) W1 B1 W2 B2) (Gen.k0_pay7 (Gen.k0_pay2 x0 x1 x2 x3) W1 B1 W2 B2) V1 C1 V2) C2
        (ix2 r (0 : Fin 1))
      = head (pooled (fun p f => Gen.k0_pay2 (F := Ideal) x0 x1 x2 x3 (ix2 (slab p r) f)) W1 (rowVec B1) W2 (rowVec B2))
          V1 (rowVec C1) V2 (rowVec C2) := by
  refine (pay1_apply _ C2 r).trans ?_
  unfold head
  refine congrArg (fun s : EReal => s + rowVec C2 (ix1 (0 : Fin 1))) ?_
  refine (pay9_apply _ _ _ V1 C1 V2 r).trans ?_
  refine Finset.sum_congr rfl fun (k : Fin 256) _ => ?_
  refine congrArg (fun s : EReal => relu (s + rowVec C1 (ix1 k)) * V2 (ix2 k (0 : Fin 1))) ?_
  refine Finset.sum_congr rfl fun (j : Fin 256) _ => ?_
  refine congrArg (fun s : EReal => s * V1 (ix2 j k)) ?_
  rw [pay6_apply, pay7_apply]
  unfold pooled
  rw [Fin.sum_univ_six]
  simp only [pay5_apply]

end Cert.KernelIdeal.KerNet

end
-- ==== Proof.KerBlocks.lean ====
/-
  From blocks to arrays. The launch cuts the four sample arrays into 32 blocks of 1024 rows and hands every block the whole
  weight arrays (narrowed to bf16 beforehand, which changes nothing on exact values) and the bias vectors as one-row arrays.
  Point t computes rows t·1024 … t·1024 + 1023 of each output from rows t·1024 … of the samples; the 32 output blocks tile the
  32768 rows, so each output array ends as the specification's function of the argument arrays.
-/
import proofs.«164559_j30691836297668_1_alg».proof.Proof.KernelValueP
import proofs.«164559_j30691836297668_1_alg».proof.Proof.Spec
import proofs.«164559_j30691836297668_1_alg».proof.Proof.KerNet
import proofs.«164559_j30691836297668_1_alg».proof.Proof.LibRowBias
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KerBlocks

open Cert.KernelIdeal Cert.KernelIdeal.Gen Idealize.ShloMosaic Idealize.ShloMosaic.TcCoe Idealize.SL.Sem
open Idealize.ShloMosaic.ValueIdx Cert.Critic Cert.KernelIdeal.KerNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! The printed index maps, decided over the 32 grid points: the sample arrays' and the outputs' blocks move with the point
    along the rows; every weight and bias window stages its whole array at every point. -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows3 : ∀ t : Fin cfg0.N, win0_3.index t (0 : Fin 2) = t.val ∧ win0_3.index t (1 : Fin 2) = 0 :=
  (by decide +kernel : ∀ t : Fin grid0.N, _)
theorem idx_rows20 : ∀ t : Fin cfg0.N, win0_20.index t (0 : Fin 2) = t.val ∧ win0_20.index t (1 : Fin 2) = 0 :=
  (by decide +kernel : ∀ t : Fin grid0.N, _)
theorem idx_rows21 : ∀ t : Fin cfg0.N, win0_21.index t (0 : Fin 2) = t.val ∧ win0_21.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)
theorem idx_whole11 : ∀ t : Fin cfg0.N, win0_11.index t (0 : Fin 2) = 0 ∧ win0_11.index t (1 : Fin 2) = 0 :=
  (by decide +kernel : ∀ t : Fin grid0.N, _)
theorem idx_whole12 : ∀ t : Fin cfg0.N, win0_12.index t (0 : Fin 2) = 0 ∧ win0_12.index t (1 : Fin 2) = 0 :=
  (by decide +kernel : ∀ t : Fin grid0.N, _)
theorem idx_whole13 : ∀ t : Fin cfg0.N, win0_13.index t (0 : Fin 2) = 0 ∧ win0_13.index t (1 : Fin 2) = 0 :=
  (by decide +kernel : ∀ t : Fin grid0.N, _)
theorem idx_whole14 : ∀ t : Fin cfg0.N, win0_14.index t (0 : Fin 2) = 0 ∧ win0_14.index t (1 : Fin 2) = 0 :=
  (by decide +kernel : ∀ t : Fin grid0.N, _)
theorem idx_whole15 : ∀ t : Fin cfg0.N, win0_15.index t (0 : Fin 2) = 0 ∧ win0_15.index t (1 : Fin 2) = 0 :=
  (by decide +kernel : ∀ t : Fin grid0.N, _)
theorem idx_whole16 : ∀ t : Fin cfg0.N, win0_16.index t (0 : Fin 2) = 0 ∧ win0_16.index t (1 : Fin 2) = 0 :=
  (by decide +kernel : ∀ t : Fin grid0.N, _)
theorem idx_whole17 : ∀ t : Fin cfg0.N, win0_17.index t (0 : Fin 2) = 0 ∧ win0_17.index t (1 : Fin 2) = 0 :=
  (by decide +kernel : ∀ t : Fin grid0.N, _)
theorem idx_whole18 : ∀ t : Fin cfg0.N, win0_18.index t (0 : Fin 2) = 0 ∧ win0_18.index t (1 : Fin 2) = 0 :=
  (by decide +kernel : ∀ t : Fin grid0.N, _)
theorem idx_whole19 : ∀ t : Fin cfg0.N, win0_19.index t (0 : Fin 2) = 0 ∧ win0_19.index t (1 : Fin 2) = 0 :=
  (by decide +kernel : ∀ t : Fin grid0.N, _)

/-- Row r of point t's block is row t·1024 + r of the array. -/
def rowOf (t : Fin cfg0.N) (r : Fin 1024) : Fin 32768 :=
  ⟨t.val * 1024 + r.val, by have h1 := t.isLt; have h2 : cfg0.N = 32 := N_0; omega⟩

/-! ## The arrays the region finds: narrowed weights and one-row biases -/

theorem V_main_v0 (c : Dev nD) : (V m c main_v0 : S62x256.Idx → EReal) = m ((c : Thread nD τ).loc main_arg4) := by
  dsimp only [Gen.V, Gen.hostOps0]; after_results; rfl
theorem V_main_v8 (c : Dev nD) : (V m c main_v8 : S1x256.Idx → EReal) = shapeCast S1x256 (m ((c : Thread nD τ).loc main_arg5)) shapeCasts_S256_S1x256 := by
  dsimp only [Gen.V, Gen.hostOps0]; after_results; rfl
theorem V_main_v1 (c : Dev nD) : (V m c main_v1 : S256x256.Idx → EReal) = m ((c : Thread nD τ).loc main_arg6) := by
  dsimp only [Gen.V, Gen.hostOps0]; after_results; rfl
theorem V_main_v9 (c : Dev nD) : (V m c main_v9 : S1x256.Idx → EReal) = shapeCast S1x256 (m ((c : Thread nD τ).loc main_arg7)) shapeCasts_S256_S1x256 := by
  dsimp only [Gen.V, Gen.hostOps0]; after_results; rfl
theorem V_main_v2 (c : Dev nD) : (V m c main_v2 : S62x256.Idx → EReal) = m ((c : Thread nD τ).loc main_arg8) := by
  dsimp only [Gen.V, Gen.hostOps0]; after_results; rfl
theorem V_main_v10 (c : Dev nD) : (V m c main_v10 : S1x256.Idx → EReal) = shapeCast S1x256 (m ((c : Thread nD τ).loc main_arg9)) shapeCasts_S256_S1x256 := by
  dsimp only [Gen.V, Gen.hostOps0]; after_results; rfl
theorem V_main_v3 (c : Dev nD) : (V m c main_v3 : S256x256.Idx → EReal) = m ((c : Thread nD τ).loc main_arg10) := by
  dsimp only [Gen.V, Gen.hostOps0]; after_results; rfl
theorem V_main_v11 (c : Dev nD) : (V m c main_v11 : S1x256.Idx → EReal) = shapeCast S1x256 (m ((c : Thread nD τ).loc main_arg11)) shapeCasts_S256_S1x256 := by
  dsimp only [Gen.V, Gen.hostOps0]; after_results; rfl
theorem V_main_v4 (c : Dev nD) : (V m c main_v4 : S256x256.Idx → EReal) = m ((c : Thread nD τ).loc main_arg12) := by
  dsimp only [Gen.V, Gen.hostOps0]; after_results; rfl
theorem V_main_v12 (c : Dev nD) : (V m c main_v12 : S1x256.Idx → EReal) = shapeCast S1x256 (m ((c : Thread nD τ).loc main_arg13)) shapeCasts_S256_S1x256 := by
  dsimp only [Gen.V, Gen.hostOps0]; after_results; rfl
theorem V_main_v5 (c : Dev nD) : (V m c main_v5 : S256x1.Idx → EReal) = m ((c : Thread nD τ).loc main_arg14) := by
  dsimp only [Gen.V, Gen.hostOps0]; after_results; rfl
theorem V_main_v13 (c : Dev nD) : (V m c main_v13 : S1x1.Idx → EReal) = shapeCast S1x1 (m ((c : Thread nD τ).loc main_arg15)) shapeCasts_S1_S1x1 := by
  dsimp only [Gen.V, Gen.hostOps0]; after_results; rfl
theorem V_main_v6 (c : Dev nD) : (V m c main_v6 : S256x256.Idx → EReal) = m ((c : Thread nD τ).loc main_arg16) := by
  dsimp only [Gen.V, Gen.hostOps0]; after_results; rfl
theorem V_main_v14 (c : Dev nD) : (V m c main_v14 : S1x256.Idx → EReal) = shapeCast S1x256 (m ((c : Thread nD τ).loc main_arg17)) shapeCasts_S256_S1x256 := by
  dsimp only [Gen.V, Gen.hostOps0]; after_results; rfl
theorem V_main_v7 (c : Dev nD) : (V m c main_v7 : S256x1.Idx → EReal) = m ((c : Thread nD τ).loc main_arg18) := by
  dsimp only [Gen.V, Gen.hostOps0]; after_results; rfl
theorem V_main_v15 (c : Dev nD) : (V m c main_v15 : S1x1.Idx → EReal) = shapeCast S1x1 (m ((c : Thread nD τ).loc main_arg19)) shapeCasts_S1_S1x1 := by
  dsimp only [Gen.V, Gen.hostOps0]; after_results; rfl

/-! ## The blocks the body loads -/

/-- Window 0's block at point t, at (r, k): the array's row t·1024 + r. -/
theorem blk0 (c : Dev nD) (t : Fin cfg0.N) (r : Fin 1024) (k : Fin 55) :
    iblk m c 0 t (ix2 r k) = m ((c : Thread nD τ).loc main_arg0) (ix2 (rowOf t r) k) := by
  have e0 := (idx_rows0 t).1
  have e1 := (idx_rows0 t).2
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 55 + 1 * k.val = k.val; omega

/-- Window 1's block at point t, at (r, k): the array's row t·1024 + r. -/
theorem blk1 (c : Dev nD) (t : Fin cfg0.N) (r : Fin 1024) (k : Fin 9) :
    iblk m c 1 t (ix2 r k) = m ((c : Thread nD τ).loc main_arg1) (ix2 (rowOf t r) k) := by
  have e0 := (idx_rows1 t).1
  have e1 := (idx_rows1 t).2
  show V m c main_arg1 (((cfg0.win 1).blk t).view.emb (ix2 r k)) = _
  rw [V_main_arg1]
  refine congrArg _ (funext fun a => Fin.ext ?_)
  match a with
  | ⟨0, _⟩ => show win0_1.index t (0 : Fin 2) * 1024 + 1 * r.val = t.val * 1024 + r.val; omega
  | ⟨1, _⟩ => show win0_1.index t (1 : Fin 2) * 9 + 1 * k.val = k.val; omega

/-- Window 2's block at point t, at (r, k): the array's row t·1024 + r. -/
theorem blk2 (c : Dev nD) (t : Fin cfg0.N) (r : Fin 1024) (k : Fin 9) :
    iblk m c 2 t (ix2 r k) = m ((c : Thread nD τ).loc main_arg2) (ix2 (rowOf t r) k) := by
  have e0 := (idx_rows2 t).1
  have e1 := (idx_rows2 t).2
  show V m c main_arg2 (((cfg0.win 2).blk t).view.emb (ix2 r k)) = _
  rw [V_main_arg2]
  refine congrArg _ (funext fun a => Fin.ext ?_)
  match a with
  | ⟨0, _⟩ => show win0_2.index t (0 : Fin 2) * 1024 + 1 * r.val = t.val * 1024 + r.val; omega
  | ⟨1, _⟩ => show win0_2.index t (1 : Fin 2) * 9 + 1 * k.val = k.val; omega

/-- Window 3's block at point t, at (r, k): the array's row t·1024 + r. -/
theorem blk3 (c : Dev nD) (t : Fin cfg0.N) (r : Fin 1024) (k : Fin 4) :
    iblk m c 3 t (ix2 r k) = m ((c : Thread nD τ).loc main_arg3) (ix2 (rowOf t r) k) := by
  have e0 := (idx_rows3 t).1
  have e1 := (idx_rows3 t).2
  show V m c main_arg3 (((cfg0.win 3).blk t).view.emb (ix2 r k)) = _
  rw [V_main_arg3]
  refine congrArg _ (funext fun a => Fin.ext ?_)
  match a with
  | ⟨0, _⟩ => show win0_3.index t (0 : Fin 2) * 1024 + 1 * r.val = t.val * 1024 + r.val; omega
  | ⟨1, _⟩ => show win0_3.index t (1 : Fin 2) * 4 + 1 * k.val = k.val; omega

/-- Window 4's block at every point is its whole weight array. -/
theorem blk4 (c : Dev nD) (t : Fin cfg0.N) : (iblk m c 4 t : S62x256.Idx → EReal) = m ((c : Thread nD τ).loc main_arg4) := by
  have e0 := (idx_whole4 t).1
  have e1 := (idx_whole4 t).2
  funext y
  have hemb : ((cfg0.win 4).blk t).view.emb y = y := by
    funext a; apply Fin.ext
    match a with
    | ⟨0, _⟩ => show win0_4.index t (0 : Fin 2) * 62 + 1 * (y 0).val = (y 0).val; omega
    | ⟨1, _⟩ => show win0_4.index t (1 : Fin 2) * 256 + 1 * (y 1).val = (y 1).val; omega
  show V m c main_v0 (((cfg0.win 4).blk t).view.emb y) = _
  rw [hemb]
  exact congrFun (V_main_v0 m c) y

/-- Window 5's one-row block at every point, as a vector, is its bias vector. -/
theorem blk5 (c : Dev nD) (t : Fin cfg0.N) : rowVec (iblk m c 5 t : S1x256.Idx → EReal) = m ((c : Thread nD τ).loc main_arg5) := by
  have e0 := (idx_whole5 t).1
  have e1 := (idx_whole5 t).2
  funext i
  obtain ⟨q, rfl⟩ : ∃ q : Fin 256, i = ix1 q := ⟨i 0, eq_ix1 i⟩
  have hemb : ∀ y : S1x256.Idx, ((cfg0.win 5).blk t).view.emb y = y := fun y => by
    funext a; apply Fin.ext
    match a with
    | ⟨0, _⟩ => show win0_5.index t (0 : Fin 2) * 1 + 1 * (y 0).val = (y 0).val; omega
    | ⟨1, _⟩ => show win0_5.index t (1 : Fin 2) * 256 + 1 * (y 1).val = (y 1).val; omega
  show V m c main_v8 (((cfg0.win 5).blk t).view.emb (ix2 (0 : Fin 1) q)) = _
  rw [hemb]
  refine (congrFun (V_main_v8 m c) _).trans ?_
  exact Cert.RowBias.rowOf_apply _ _ q

/-- Window 6's block at every point is its whole weight array. -/
theorem blk6 (c : Dev nD) (t : Fin cfg0.N) : (iblk m c 6 t : S256x256.Idx → EReal) = m ((c : Thread nD τ).loc main_arg6) := by
  have e0 := (idx_whole6 t).1
  have e1 := (idx_whole6 t).2
  funext y
  have hemb : ((cfg0.win 6).blk t).view.emb y = y := by
    funext a; apply Fin.ext
    match a with
    | ⟨0, _⟩ => show win0_6.index t (0 : Fin 2) * 256 + 1 * (y 0).val = (y 0).val; omega
    | ⟨1, _⟩ => show win0_6.index t (1 : Fin 2) * 256 + 1 * (y 1).val = (y 1).val; omega
  show V m c main_v1 (((cfg0.win 6).blk t).view.emb y) = _
  rw [hemb]
  exact congrFun (V_main_v1 m c) y

/-- Window 7's one-row block at every point, as a vector, is its bias vector. -/
theorem blk7 (c : Dev nD) (t : Fin cfg0.N) : rowVec (iblk m c 7 t : S1x256.Idx → EReal) = m ((c : Thread nD τ).loc main_arg7) := by
  have e0 := (idx_whole7 t).1
  have e1 := (idx_whole7 t).2
  funext i
  obtain ⟨q, rfl⟩ : ∃ q : Fin 256, i = ix1 q := ⟨i 0, eq_ix1 i⟩
  have hemb : ∀ y : S1x256.Idx, ((cfg0.win 7).blk t).view.emb y = y := fun y => by
    funext a; apply Fin.ext
    match a with
    | ⟨0, _⟩ => show win0_7.index t (0 : Fin 2) * 1 + 1 * (y 0).val = (y 0).val; omega
    | ⟨1, _⟩ => show win0_7.index t (1 : Fin 2) * 256 + 1 * (y 1).val = (y 1).val; omega
  show V m c main_v9 (((cfg0.win 7).blk t).view.emb (ix2 (0 : Fin 1) q)) = _
  rw [hemb]
  refine (congrFun (V_main_v9 m c) _).trans ?_
  exact Cert.RowBias.rowOf_apply _ _ q

/-- Window 8's block at every point is its whole weight array. -/
theorem blk8 (c : Dev nD) (t : Fin cfg0.N) : (iblk m c 8 t : S62x256.Idx → EReal) = m ((c : Thread nD τ).loc main_arg8) := by
  have e0 := (idx_whole8 t).1
  have e1 := (idx_whole8 t).2
  funext y
  have hemb : ((cfg0.win 8).blk t).view.emb y = y := by
    funext a; apply Fin.ext
    match a with
    | ⟨0, _⟩ => show win0_8.index t (0 : Fin 2) * 62 + 1 * (y 0).val = (y 0).val; omega
    | ⟨1, _⟩ => show win0_8.index t (1 : Fin 2) * 256 + 1 * (y 1).val = (y 1).val; omega
  show V m c main_v2 (((cfg0.win 8).blk t).view.emb y) = _
  rw [hemb]
  exact congrFun (V_main_v2 m c) y

/-- Window 9's one-row block at every point, as a vector, is its bias vector. -/
theorem blk9 (c : Dev nD) (t : Fin cfg0.N) : rowVec (iblk m c 9 t : S1x256.Idx → EReal) = m ((c : Thread nD τ).loc main_arg9) := by
  have e0 := (idx_whole9 t).1
  have e1 := (idx_whole9 t).2
  funext i
  obtain ⟨q, rfl⟩ : ∃ q : Fin 256, i = ix1 q := ⟨i 0, eq_ix1 i⟩
  have hemb : ∀ y : S1x256.Idx, ((cfg0.win 9).blk t).view.emb y = y := fun y => by
    funext a; apply Fin.ext
    match a with
    | ⟨0, _⟩ => show win0_9.index t (0 : Fin 2) * 1 + 1 * (y 0).val = (y 0).val; omega
    | ⟨1, _⟩ => show win0_9.index t (1 : Fin 2) * 256 + 1 * (y 1).val = (y 1).val; omega
  show V m c main_v10 (((cfg0.win 9).blk t).view.emb (ix2 (0 : Fin 1) q)) = _
  rw [hemb]
  refine (congrFun (V_main_v10 m c) _).trans ?_
  exact Cert.RowBias.rowOf_apply _ _ q

/-- Window 10's block at every point is its whole weight array. -/
theorem blk10 (c : Dev nD) (t : Fin cfg0.N) : (iblk m c 10 t : S256x256.Idx → EReal) = m ((c : Thread nD τ).loc main_arg10) := by
  have e0 := (idx_whole10 t).1
  have e1 := (idx_whole10 t).2
  funext y
  have hemb : ((cfg0.win 10).blk t).view.emb y = y := by
    funext a; apply Fin.ext
    match a with
    | ⟨0, _⟩ => show win0_10.index t (0 : Fin 2) * 256 + 1 * (y 0).val = (y 0).val; omega
    | ⟨1, _⟩ => show win0_10.index t (1 : Fin 2) * 256 + 1 * (y 1).val = (y 1).val; omega
  show V m c main_v3 (((cfg0.win 10).blk t).view.emb y) = _
  rw [hemb]
  exact congrFun (V_main_v3 m c) y

/-- Window 11's one-row block at every point, as a vector, is its bias vector. -/
theorem blk11 (c : Dev nD) (t : Fin cfg0.N) : rowVec (iblk m c 11 t : S1x256.Idx → EReal) = m ((c : Thread nD τ).loc main_arg11) := by
  have e0 := (idx_whole11 t).1
  have e1 := (idx_whole11 t).2
  funext i
  obtain ⟨q, rfl⟩ : ∃ q : Fin 256, i = ix1 q := ⟨i 0, eq_ix1 i⟩
  have hemb : ∀ y : S1x256.Idx, ((cfg0.win 11).blk t).view.emb y = y := fun y => by
    funext a; apply Fin.ext
    match a with
    | ⟨0, _⟩ => show win0_11.index t (0 : Fin 2) * 1 + 1 * (y 0).val = (y 0).val; omega
    | ⟨1, _⟩ => show win0_11.index t (1 : Fin 2) * 256 + 1 * (y 1).val = (y 1).val; omega
  show V m c main_v11 (((cfg0.win 11).blk t).view.emb (ix2 (0 : Fin 1) q)) = _
  rw [hemb]
  refine (congrFun (V_main_v11 m c) _).trans ?_
  exact Cert.RowBias.rowOf_apply _ _ q

/-- Window 12's block at every point is its whole weight array. -/
theorem blk12 (c : Dev nD) (t : Fin cfg0.N) : (iblk m c 12 t : S256x256.Idx → EReal) = m ((c : Thread nD τ).loc main_arg12) := by
  have e0 := (idx_whole12 t).1
  have e1 := (idx_whole12 t).2
  funext y
  have hemb : ((cfg0.win 12).blk t).view.emb y = y := by
    funext a; apply Fin.ext
    match a with
    | ⟨0, _⟩ => show win0_12.index t (0 : Fin 2) * 256 + 1 * (y 0).val = (y 0).val; omega
    | ⟨1, _⟩ => show win0_12.index t (1 : Fin 2) * 256 + 1 * (y 1).val = (y 1).val; omega
  show V m c main_v4 (((cfg0.win 12).blk t).view.emb y) = _
  rw [hemb]
  exact congrFun (V_main_v4 m c) y

/-- Window 13's one-row block at every point, as a vector, is its bias vector. -/
theorem blk13 (c : Dev nD) (t : Fin cfg0.N) : rowVec (iblk m c 13 t : S1x256.Idx → EReal) = m ((c : Thread nD τ).loc main_arg13) := by
  have e0 := (idx_whole13 t).1
  have e1 := (idx_whole13 t).2
  funext i
  obtain ⟨q, rfl⟩ : ∃ q : Fin 256, i = ix1 q := ⟨i 0, eq_ix1 i⟩
  have hemb : ∀ y : S1x256.Idx, ((cfg0.win 13).blk t).view.emb y = y := fun y => by
    funext a; apply Fin.ext
    match a with
    | ⟨0, _⟩ => show win0_13.index t (0 : Fin 2) * 1 + 1 * (y 0).val = (y 0).val; omega
    | ⟨1, _⟩ => show win0_13.index t (1 : Fin 2) * 256 + 1 * (y 1).val = (y 1).val; omega
  show V m c main_v12 (((cfg0.win 13).blk t).view.emb (ix2 (0 : Fin 1) q)) = _
  rw [hemb]
  refine (congrFun (V_main_v12 m c) _).trans ?_
  exact Cert.RowBias.rowOf_apply _ _ q

/-- Window 14's block at every point is its whole weight array. -/
theorem blk14 (c : Dev nD) (t : Fin cfg0.N) : (iblk m c 14 t : S256x1.Idx → EReal) = m ((c : Thread nD τ).loc main_arg14) := by
  have e0 := (idx_whole14 t).1
  have e1 := (idx_whole14 t).2
  funext y
  have hemb : ((cfg0.win 14).blk t).view.emb y = y := by
    funext a; apply Fin.ext
    match a with
    | ⟨0, _⟩ => show win0_14.index t (0 : Fin 2) * 256 + 1 * (y 0).val = (y 0).val; omega
    | ⟨1, _⟩ => show win0_14.index t (1 : Fin 2) * 1 + 1 * (y 1).val = (y 1).val; omega
  show V m c main_v5 (((cfg0.win 14).blk t).view.emb y) = _
  rw [hemb]
  exact congrFun (V_main_v5 m c) y

/-- Window 15's one-row block at every point, as a vector, is its bias vector. -/
theorem blk15 (c : Dev nD) (t : Fin cfg0.N) : rowVec (iblk m c 15 t : S1x1.Idx → EReal) = m ((c : Thread nD τ).loc main_arg15) := by
  have e0 := (idx_whole15 t).1
  have e1 := (idx_whole15 t).2
  funext i
  obtain ⟨q, rfl⟩ : ∃ q : Fin 1, i = ix1 q := ⟨i 0, eq_ix1 i⟩
  have hemb : ∀ y : S1x1.Idx, ((cfg0.win 15).blk t).view.emb y = y := fun y => by
    funext a; apply Fin.ext
    match a with
    | ⟨0, _⟩ => show win0_15.index t (0 : Fin 2) * 1 + 1 * (y 0).val = (y 0).val; omega
    | ⟨1, _⟩ => show win0_15.index t (1 : Fin 2) * 1 + 1 * (y 1).val = (y 1).val; omega
  show V m c main_v13 (((cfg0.win 15).blk t).view.emb (ix2 (0 : Fin 1) q)) = _
  rw [hemb]
  refine (congrFun (V_main_v13 m c) _).trans ?_
  exact Cert.RowBias.rowOf_apply _ _ q

/-- Window 16's block at every point is its whole weight array. -/
theorem blk16 (c : Dev nD) (t : Fin cfg0.N) : (iblk m c 16 t : S256x256.Idx → EReal) = m ((c : Thread nD τ).loc main_arg16) := by
  have e0 := (idx_whole16 t).1
  have e1 := (idx_whole16 t).2
  funext y
  have hemb : ((cfg0.win 16).blk t).view.emb y = y := by
    funext a; apply Fin.ext
    match a with
    | ⟨0, _⟩ => show win0_16.index t (0 : Fin 2) * 256 + 1 * (y 0).val = (y 0).val; omega
    | ⟨1, _⟩ => show win0_16.index t (1 : Fin 2) * 256 + 1 * (y 1).val = (y 1).val; omega
  show V m c main_v6 (((cfg0.win 16).blk t).view.emb y) = _
  rw [hemb]
  exact congrFun (V_main_v6 m c) y

/-- Window 17's one-row block at every point, as a vector, is its bias vector. -/
theorem blk17 (c : Dev nD) (t : Fin cfg0.N) : rowVec (iblk m c 17 t : S1x256.Idx → EReal) = m ((c : Thread nD τ).loc main_arg17) := by
  have e0 := (idx_whole17 t).1
  have e1 := (idx_whole17 t).2
  funext i
  obtain ⟨q, rfl⟩ : ∃ q : Fin 256, i = ix1 q := ⟨i 0, eq_ix1 i⟩
  have hemb : ∀ y : S1x256.Idx, ((cfg0.win 17).blk t).view.emb y = y := fun y => by
    funext a; apply Fin.ext
    match a with
    | ⟨0, _⟩ => show win0_17.index t (0 : Fin 2) * 1 + 1 * (y 0).val = (y 0).val; omega
    | ⟨1, _⟩ => show win0_17.index t (1 : Fin 2) * 256 + 1 * (y 1).val = (y 1).val; omega
  show V m c main_v14 (((cfg0.win 17).blk t).view.emb (ix2 (0 : Fin 1) q)) = _
  rw [hemb]
  refine (congrFun (V_main_v14 m c) _).trans ?_
  exact Cert.RowBias.rowOf_apply _ _ q

/-- Window 18's block at every point is its whole weight array. -/
theorem blk18 (c : Dev nD) (t : Fin cfg0.N) : (iblk m c 18 t : S256x1.Idx → EReal) = m ((c : Thread nD τ).loc main_arg18) := by
  have e0 := (idx_whole18 t).1
  have e1 := (idx_whole18 t).2
  funext y
  have hemb : ((cfg0.win 18).blk t).view.emb y = y := by
    funext a; apply Fin.ext
    match a with
    | ⟨0, _⟩ => show win0_18.index t (0 : Fin 2) * 256 + 1 * (y 0).val = (y 0).val; omega
    | ⟨1, _⟩ => show win0_18.index t (1 : Fin 2) * 1 + 1 * (y 1).val = (y 1).val; omega
  show V m c main_v7 (((cfg0.win 18).blk t).view.emb y) = _
  rw [hemb]
  exact congrFun (V_main_v7 m c) y

/-- Window 19's one-row block at every point, as a vector, is its bias vector. -/
theorem blk19 (c : Dev nD) (t : Fin cfg0.N) : rowVec (iblk m c 19 t : S1x1.Idx → EReal) = m ((c : Thread nD τ).loc main_arg19) := by
  have e0 := (idx_whole19 t).1
  have e1 := (idx_whole19 t).2
  funext i
  obtain ⟨q, rfl⟩ : ∃ q : Fin 1, i = ix1 q := ⟨i 0, eq_ix1 i⟩
  have hemb : ∀ y : S1x1.Idx, ((cfg0.win 19).blk t).view.emb y = y := fun y => by
    funext a; apply Fin.ext
    match a with
    | ⟨0, _⟩ => show win0_19.index t (0 : Fin 2) * 1 + 1 * (y 0).val = (y 0).val; omega
    | ⟨1, _⟩ => show win0_19.index t (1 : Fin 2) * 1 + 1 * (y 1).val = (y 1).val; omega
  show V m c main_v15 (((cfg0.win 19).blk t).view.emb (ix2 (0 : Fin 1) q)) = _
  rw [hemb]
  refine (congrFun (V_main_v15 m c) _).trans ?_
  exact Cert.RowBias.rowOf_apply _ _ q

/-! ## What the body leaves in the two output blocks, over variables -/

/-- The stacked feature rows are the specification's features of the block's rows (the hypothesis every statement below takes). -/
def FeatRows : Prop := ∀ (x0 : Vec Ideal S1024x55 .f32) (x1 x2 : Vec Ideal S1024x9 .f32) (x3 : Vec Ideal S1024x4 .f32)
    (p : Fin 6) (r : Fin 1024) (f : Fin 62),
    k0_pay2 (F := Ideal) x0 x1 x2 x3 (ix2 (⟨p.val * 1024 + r.val, by omega⟩ : Fin 6144) f) = feat x0 x1 x2 x3 r p.val f.val

/-- Output window 20's block after the body, at (r, 0): the first twin's value of the block's row r. -/
theorem out20_apply (hF : FeatRows) (x0 : Vec Ideal S1024x55 .f32) (x1 : Vec Ideal S1024x9 .f32) (x2 : Vec Ideal S1024x9 .f32) (x3 : Vec Ideal S1024x4 .f32) (x4 : Vec Ideal S62x256 .bf16) (x5 : Vec Ideal S1x256 .f32) (x6 : Vec Ideal S256x256 .bf16) (x7 : Vec Ideal S1x256 .f32) (x8 : Vec Ideal S62x256 .bf16) (x9 : Vec Ideal S1x256 .f32) (x10 : Vec Ideal S256x256 .bf16) (x11 : Vec Ideal S1x256 .f32) (x12 : Vec Ideal S256x256 .bf16) (x13 : Vec Ideal S1x256 .f32) (x14 : Vec Ideal S256x1 .bf16) (x15 : Vec Ideal S1x1 .f32) (x16 : Vec Ideal S256x256 .bf16) (x17 : Vec Ideal S1x256 .f32) (x18 : Vec Ideal S256x1 .bf16) (x19 : Vec Ideal S1x1 .f32) (r : Fin 1024) :
    out0_20 (F := Ideal) x0 x1 x2 x3 x4 x5 x6 x7 x8 x9 x10 x11 x12 x13 x14 x15 x16 x17 x18 x19 (ix2 r (0 : Fin 1))
      = qRow x0 x1 x2 x3 x4 (rowVec x5) x6 (rowVec x7) x12 (rowVec x13) x14 (rowVec x15) r := by
  unfold out0_20
  rw [View.canon_unit_zero hz]
  simp only [View.ld_unit_zero (S := S1024x55) hz, View.ld_unit_zero (S := S1024x9) hz, View.ld_unit_zero (S := S1024x4) hz, View.ld_unit_zero (S := S62x256) hz, View.ld_unit_zero (S := S1x256) hz, View.ld_unit_zero (S := S256x256) hz, View.ld_unit_zero (S := S256x1) hz, View.ld_unit_zero (S := S1x1) hz]
  refine (twin1_apply x0 x1 x2 x3 x4 x5 x6 x7 x12 x13 x14 x15 r).trans ?_
  unfold qRow
  exact congrArg (fun u => head (pooled u x4 (rowVec x5) x6 (rowVec x7)) x12 (rowVec x13) x14 (rowVec x15))
    (funext fun p => funext fun f => hF x0 x1 x2 x3 p r f)

/-- Output window 21's block after the body, at (r, 0): the second twin's value of the block's row r. -/
theorem out21_apply (hF : FeatRows) (x0 : Vec Ideal S1024x55 .f32) (x1 : Vec Ideal S1024x9 .f32) (x2 : Vec Ideal S1024x9 .f32) (x3 : Vec Ideal S1024x4 .f32) (x4 : Vec Ideal S62x256 .bf16) (x5 : Vec Ideal S1x256 .f32) (x6 : Vec Ideal S256x256 .bf16) (x7 : Vec Ideal S1x256 .f32) (x8 : Vec Ideal S62x256 .bf16) (x9 : Vec Ideal S1x256 .f32) (x10 : Vec Ideal S256x256 .bf16) (x11 : Vec Ideal S1x256 .f32) (x12 : Vec Ideal S256x256 .bf16) (x13 : Vec Ideal S1x256 .f32) (x14 : Vec Ideal S256x1 .bf16) (x15 : Vec Ideal S1x1 .f32) (x16 : Vec Ideal S256x256 .bf16) (x17 : Vec Ideal S1x256 .f32) (x18 : Vec Ideal S256x1 .bf16) (x19 : Vec Ideal S1x1 .f32) (r : Fin 1024) :
    out0_21 (F := Ideal) x0 x1 x2 x3 x4 x5 x6 x7 x8 x9 x10 x11 x12 x13 x14 x15 x16 x17 x18 x19 (ix2 r (0 : Fin 1))
      = qRow x0 x1 x2 x3 x8 (rowVec x9) x10 (rowVec x11) x16 (rowVec x17) x18 (rowVec x19) r := by
  unfold out0_21
  rw [View.canon_unit_zero hz]
  simp only [View.ld_unit_zero (S := S1024x55) hz, View.ld_unit_zero (S := S1024x9) hz, View.ld_unit_zero (S := S1024x4) hz, View.ld_unit_zero (S := S62x256) hz, View.ld_unit_zero (S := S1x256) hz, View.ld_unit_zero (S := S256x256) hz, View.ld_unit_zero (S := S256x1) hz, View.ld_unit_zero (S := S1x1) hz]
  refine (twin2_apply x0 x1 x2 x3 x8 x9 x10 x11 x16 x17 x18 x19 r).trans ?_
  unfold qRow
  exact congrArg (fun u => head (pooled u x8 (rowVec x9) x10 (rowVec x11)) x16 (rowVec x17) x18 (rowVec x19))
    (funext fun p => funext fun f => hF x0 x1 x2 x3 p r f)

/-! ## From the blocks to the arrays -/

/-- The first twin's output as a function of the argument arrays at launch. -/
def G20 (c : Dev nD) : S32768x1.Idx → EReal :=
  qOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15))

/-- The second twin's output as a function of the argument arrays at launch. -/
def G21 (c : Dev nD) : S32768x1.Idx → EReal :=
  qOut (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))

/-- What point t writes back to output window 20: block t of `G20`. -/
theorem flushed20_eq (hF : FeatRows) (c : Dev nD) (t : Fin cfg0.N) :
    (dats m 0 c).flushed 20 t = ((cfg0.win 20).blk t).view.read (Elt Ideal) (G20 m c) := by
  rw [Cert.KernelIdeal.ValueP.flushed20]
  funext y
  obtain ⟨r, z, rfl⟩ : ∃ (r : Fin 1024) (z : Fin 1), y = ix2 r z := ⟨y 0, y 1, eq_ix2 y⟩
  obtain rfl : z = 0 := Subsingleton.elim _ _
  have e0 := (idx_rows20 t).1
  have e1 := (idx_rows20 t).2
  have hemb : ((cfg0.win 20).blk t).view.emb (ix2 r (0 : Fin 1)) = ix2 (rowOf t r) (0 : Fin 1) := by
    funext a; apply Fin.ext
    match a with
    | ⟨0, _⟩ => show win0_20.index t (0 : Fin 2) * 1024 + 1 * r.val = t.val * 1024 + r.val; omega
    | ⟨1, _⟩ => show win0_20.index t (1 : Fin 2) * 1 + 1 * 0 = 0; omega
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r (0 : Fin 1)) = G20 m c (((cfg0.win 20).blk t).view.emb (ix2 r (0 : Fin 1)))
  rw [hemb]
  refine (out20_apply hF (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r).trans ?_
  rw [blk4 m c t, blk5 m c t, blk6 m c t, blk7 m c t, blk12 m c t, blk13 m c t, blk14 m c t, blk15 m c t]
  exact qRow_rows (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (rowOf t) (blk0 m c t) (blk1 m c t) (blk2 m c t) (blk3 m c t) _ _ _ _ _ _ _ _ r

/-- An index of the array is in point t's block of window 20 iff each coordinate is in the block's range on its axis. -/
theorem mem_blk20 (t : Fin cfg0.N) (i : S32768x1.Idx) :
    i ∈ ((cfg0.win 20).blk t).view.set ↔ ∀ a : Fin 2, win0_20.index t a * S1024x1.size a ≤ (i a).val ∧ (i a).val < win0_20.index t a * S1024x1.size a + S1024x1.size a := by
  show i ∈ ((View.whole main_v16_0).slice (win0_20.rect t)).set ↔ _
  rw [View.set_slice_whole, Rect.mem_set_unit]
  exact Iff.rfl

/-- Every row of output window 20's array is in the block of the point numbered by the row's quotient by 1024. -/
theorem cover20 (i : S32768x1.Idx) : ∃ t : Fin cfg0.N, (cfg0.win 20).flush t = true ∧ i ∈ ((cfg0.win 20).blk t).view.set := by
  have hi0 : (i 0).val < 32768 := (i 0).isLt
  have hi1 : (i 1).val < 1 := (i 1).isLt
  have hN : cfg0.N = 32 := N_0
  have ht : (i 0).val / 1024 < cfg0.N := by rw [hN]; omega
  have e0 : win0_20.index ⟨(i 0).val / 1024, ht⟩ (0 : Fin 2) = (i 0).val / 1024 := (idx_rows20 ⟨(i 0).val / 1024, ht⟩).1
  have e1 := (idx_rows20 ⟨(i 0).val / 1024, ht⟩).2
  refine ⟨⟨(i 0).val / 1024, ht⟩, flush0_20 _, ?_⟩
  rw [mem_blk20]
  intro a
  match a with
  | ⟨0, _⟩ => show win0_20.index ⟨(i 0).val / 1024, ht⟩ (0 : Fin 2) * 1024 ≤ (i 0).val ∧ (i 0).val < win0_20.index ⟨(i 0).val / 1024, ht⟩ (0 : Fin 2) * 1024 + 1024; omega
  | ⟨1, _⟩ => show win0_20.index ⟨(i 0).val / 1024, ht⟩ (1 : Fin 2) * 1 ≤ (i 1).val ∧ (i 1).val < win0_20.index ⟨(i 0).val / 1024, ht⟩ (1 : Fin 2) * 1 + 1; omega

/-- Output window 20's array after the run. -/
theorem final20 (hF : FeatRows) (c : Dev nD) : (dats m 0 c).arrAt 20 cfg0.N = G20 m c :=
  (dats m 0 c).arrAt_eq_of_cover 20 (G20 m c) (fun t _ => flushed20_eq m hF c t) cover20

/-- What point t writes back to output window 21: block t of `G21`. -/
theorem flushed21_eq (hF : FeatRows) (c : Dev nD) (t : Fin cfg0.N) :
    (dats m 0 c).flushed 21 t = ((cfg0.win 21).blk t).view.read (Elt Ideal) (G21 m c) := by
  rw [Cert.KernelIdeal.ValueP.flushed21]
  funext y
  obtain ⟨r, z, rfl⟩ : ∃ (r : Fin 1024) (z : Fin 1), y = ix2 r z := ⟨y 0, y 1, eq_ix2 y⟩
  obtain rfl : z = 0 := Subsingleton.elim _ _
  have e0 := (idx_rows21 t).1
  have e1 := (idx_rows21 t).2
  have hemb : ((cfg0.win 21).blk t).view.emb (ix2 r (0 : Fin 1)) = ix2 (rowOf t r) (0 : Fin 1) := by
    funext a; apply Fin.ext
    match a with
    | ⟨0, _⟩ => show win0_21.index t (0 : Fin 2) * 1024 + 1 * r.val = t.val * 1024 + r.val; omega
    | ⟨1, _⟩ => show win0_21.index t (1 : Fin 2) * 1 + 1 * 0 = 0; omega
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r (0 : Fin 1)) = G21 m c (((cfg0.win 21).blk t).view.emb (ix2 r (0 : Fin 1)))
  rw [hemb]
  refine (out21_apply hF (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r).trans ?_
  rw [blk8 m c t, blk9 m c t, blk10 m c t, blk11 m c t, blk16 m c t, blk17 m c t, blk18 m c t, blk19 m c t]
  exact qRow_rows (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (rowOf t) (blk0 m c t) (blk1 m c t) (blk2 m c t) (blk3 m c t) _ _ _ _ _ _ _ _ r

/-- An index of the array is in point t's block of window 21 iff each coordinate is in the block's range on its axis. -/
theorem mem_blk21 (t : Fin cfg0.N) (i : S32768x1.Idx) :
    i ∈ ((cfg0.win 21).blk t).view.set ↔ ∀ a : Fin 2, win0_21.index t a * S1024x1.size a ≤ (i a).val ∧ (i a).val < win0_21.index t a * S1024x1.size a + S1024x1.size a := by
  show i ∈ ((View.whole main_v16_1).slice (win0_21.rect t)).set ↔ _
  rw [View.set_slice_whole, Rect.mem_set_unit]
  exact Iff.rfl

/-- Every row of output window 21's array is in the block of the point numbered by the row's quotient by 1024. -/
theorem cover21 (i : S32768x1.Idx) : ∃ t : Fin cfg0.N, (cfg0.win 21).flush t = true ∧ i ∈ ((cfg0.win 21).blk t).view.set := by
  have hi0 : (i 0).val < 32768 := (i 0).isLt
  have hi1 : (i 1).val < 1 := (i 1).isLt
  have hN : cfg0.N = 32 := N_0
  have ht : (i 0).val / 1024 < cfg0.N := by rw [hN]; omega
  have e0 : win0_21.index ⟨(i 0).val / 1024, ht⟩ (0 : Fin 2) = (i 0).val / 1024 := (idx_rows21 ⟨(i 0).val / 1024, ht⟩).1
  have e1 := (idx_rows21 ⟨(i 0).val / 1024, ht⟩).2
  refine ⟨⟨(i 0).val / 1024, ht⟩, flush0_21 _, ?_⟩
  rw [mem_blk21]
  intro a
  match a with
  | ⟨0, _⟩ => show win0_21.index ⟨(i 0).val / 1024, ht⟩ (0 : Fin 2) * 1024 ≤ (i 0).val ∧ (i 0).val < win0_21.index ⟨(i 0).val / 1024, ht⟩ (0 : Fin 2) * 1024 + 1024; omega
  | ⟨1, _⟩ => show win0_21.index ⟨(i 0).val / 1024, ht⟩ (1 : Fin 2) * 1 ≤ (i 1).val ∧ (i 1).val < win0_21.index ⟨(i 0).val / 1024, ht⟩ (1 : Fin 2) * 1 + 1; omega

/-- Output window 21's array after the run. -/
theorem final21 (hF : FeatRows) (c : Dev nD) : (dats m 0 c).arrAt 21 cfg0.N = G21 m c :=
  (dats m 0 c).arrAt_eq_of_cover 21 (G21 m c) (fun t _ => flushed21_eq m hF c t) cover21

/-- The kernel's run with both output arrays at the specification's functions of the arguments, the arguments unchanged. -/
theorem run (hF : FeatRows) : θ_run defs (onTc (τ := τ) (main (F := Ideal))) ⟨m, fun _ => 0, ρ⟩ fun r => ∀ c : Dev nD,
      r.2.mem ((c : Thread nD τ).loc main_v16_0) = G20 m c
      ∧ r.2.mem ((c : Thread nD τ).loc main_v16_1) = G21 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final20 m hF c), (h c).2.1.trans (final21 m hF c), (h c).2.2⟩)
    (Cert.KernelIdeal.ValueP.run_blocks m ρ)

end Cert.KernelIdeal.KerBlocks

end
-- ==== Proof.KerInp.lean ====
/-
  The kernel's feature rows read at an index.

  From a block of 1024 samples (an observation array of 55 columns, an achieved-goal and a goal array of 9 columns each, an
  action array of 4 columns) the kernel builds an array of 6144 rows and 62 columns: for each of the six ordered pairs of
  objects (0,1), (0,2), (1,0), (1,2), (2,0), (2,1), in this order, 1024 rows, one per sample. A row is eight blocks of columns
  side by side: the achieved goal of the first and of the second object (3 + 3 columns), the goal of the first and of the
  second object (3 + 3), the 10 body entries of the observation, then for the first and for the second object a block of 18:
  three constant columns spelling the object's number as a one-hot code next to the object's 15 observation entries; and last
  the 4 action entries. The array is then rounded to a narrower float format, which changes nothing over the extended reals.

  `pay2_apply`: row `p * 1024 + r`, column `f` of that array is `Cert.Critic.feat` of sample `r`, pair `p`, feature `f`.
  The proof reads a concatenation at an index as the piece that holds the index (`cat0_apply` along the rows, `cat1_apply`
  along the columns, `row_apply` for the eight blocks of one row), a slice as the array at the shifted column (`at2_slice`),
  and the three constant columns as the one-hot code (`at2_hot` with the two literals' values), once for each of the six pairs.
-/
import proofs.«164559_j30691836297668_1_alg».proof.Proof.Gen.KernelIdeal.Skeleton
import proofs.«164559_j30691836297668_1_alg».proof.Proof.Spec
import Idealize.ShloMosaic.Lib.ValueIdx
import Idealize.ShloMosaic.Lib.Pipeline.Value
import Idealize.ShloMosaic.Lib.ValueLayout

noncomputable section

namespace Cert.KernelIdeal.KerInp

open Idealize.ShloMosaic Idealize.ShloMosaic.ValueIdx Cert.KernelIdeal Cert.KernelIdeal.Gen
open Cert.Critic (A2 at2 at2_eq feat pI pJ)

/-- A concatenation of two-dimensional arrays along the columns, read at row `r` and column `c`: when `c` falls in the
    span of piece `k` (which starts at column `pre` and has `n` columns), it is that piece at column `c - pre`. -/
theorem cat1_apply {R C n : Nat} (xs : List ((s : Shape) × (s.Idx → EReal)))
    (h : Shape.Concatenates (xs.map (·.1)) (⟨2, ![R, C]⟩ : Shape) 1) (r : Fin R) (c : Fin C)
    (k : Nat) (hk : k < xs.length) (x₁ : A2 R n) (hxk : xs[k] = ⟨(⟨2, ![R, n]⟩ : Shape), x₁⟩) (pre : Nat)
    (hpre : (((xs.take k).map (·.1)).map fun s : Shape => if h : s.rank = 2 then s.size ((1 : Fin 2).cast h.symm) else 0).sum = pre)
    (hlo : pre ≤ c.val) (hhi : c.val < pre + n) :
    concatenate (⟨2, ![R, C]⟩ : Shape) 1 xs h (ix2 r c) = at2 x₁ r (c.val - pre) := by
  rw [at2_eq x₁ r (c.val - pre) (by omega)]
  refine concatenate_apply_piece (1 : Fin 2) xs h (ix2 r c) k hk (⟨2, ![R, n]⟩ : Shape) x₁ hxk rfl pre hpre
    (ix2 r ⟨c.val - pre, by omega⟩) ?_ ?_
  · intro b hb
    match b with
    | ⟨0, _⟩ => rfl
    | ⟨1, _⟩ => exact absurd rfl hb
  · show pre + (c.val - pre) = c.val
    omega

/-- A concatenation of two-dimensional arrays along the rows, read at row `pre + r` and column `c`, where piece `k` starts
    at row `pre` and has `n` rows: it is that piece at row `r`. -/
theorem cat0_apply {R C n : Nat} (xs : List ((s : Shape) × (s.Idx → EReal)))
    (h : Shape.Concatenates (xs.map (·.1)) (⟨2, ![R, C]⟩ : Shape) 0) (q : Fin R) (c : Fin C)
    (k : Nat) (hk : k < xs.length) (x₁ : A2 n C) (hxk : xs[k] = ⟨(⟨2, ![n, C]⟩ : Shape), x₁⟩) (pre : Nat)
    (hpre : (((xs.take k).map (·.1)).map fun s : Shape => if h : s.rank = 2 then s.size ((0 : Fin 2).cast h.symm) else 0).sum = pre)
    (r : Fin n) (hq : pre + r.val = q.val) :
    concatenate (⟨2, ![R, C]⟩ : Shape) 0 xs h (ix2 q c) = x₁ (ix2 r c) := by
  refine concatenate_apply_piece (0 : Fin 2) xs h (ix2 q c) k hk (⟨2, ![n, C]⟩ : Shape) x₁ hxk rfl pre hpre
    (ix2 r c) ?_ ?_
  · intro b hb
    match b with
    | ⟨0, _⟩ => exact absurd rfl hb
    | ⟨1, _⟩ => rfl
  · exact hq

/-- A slice of columns `d, …, d + n - 1` of an array, read at row `r` and column `c < n`: the array at column `d + c`. -/
theorem at2_slice {R C n : Nat} (d : Nat) (x : A2 R C) (h : (⟨2, ![R, C]⟩ : Shape).Slices ![0, d] (⟨2, ![R, n]⟩ : Shape))
    (hd : d + n ≤ C) (r : Fin R) (c : Nat) (hc : c < n) :
    at2 (extractStridedSlice (⟨2, ![R, n]⟩ : Shape) ![0, d] x h) r c = at2 x r (d + c) := by
  rw [at2_eq _ r c hc, at2_eq x r (d + c) (by omega)]
  refine extractStridedSlice_apply ![0, d] x h (ix2 r ⟨c, hc⟩) (ix2 r ⟨d + c, by omega⟩) ?_
  intro a
  match a with
  | ⟨0, _⟩ => show r.val = 0 + r.val; omega
  | ⟨1, _⟩ => rfl

/-- Three constant columns `a`, `b`, `c` side by side, read at row `r` and column `k < 3`. -/
theorem at2_hot {R : Nat} (a b c : EReal)
    (h : Shape.Concatenates [(⟨2, ![R, 1]⟩ : Shape), ⟨2, ![R, 1]⟩, ⟨2, ![R, 1]⟩] (⟨2, ![R, 3]⟩ : Shape) 1) (r : Fin R) (k : Nat) (hk : k < 3) :
    at2 (concatenate (⟨2, ![R, 3]⟩ : Shape) 1 [⟨(⟨2, ![R, 1]⟩ : Shape), broadcast _ a⟩, ⟨(⟨2, ![R, 1]⟩ : Shape), broadcast _ b⟩,
      ⟨(⟨2, ![R, 1]⟩ : Shape), broadcast _ c⟩] h) r k = if k = 0 then a else if k = 1 then b else c := by
  rw [at2_eq _ r k hk]
  have h0 : k = 0 ∨ k = 1 ∨ k = 2 := by omega
  rcases h0 with rfl | rfl | rfl
  · refine Eq.trans (cat1_apply _ _ r ⟨0, hk⟩ 0 (by simp) (broadcast _ a) rfl 0 rfl (Nat.le_refl _) (Nat.lt_succ_self _)) ?_
    simp [at2, broadcast_apply]
  · refine Eq.trans (cat1_apply _ _ r ⟨1, hk⟩ 1 (by simp) (broadcast _ b) rfl 1 rfl (Nat.le_refl _) (Nat.lt_succ_self _)) ?_
    simp [at2, broadcast_apply]
  · refine Eq.trans (cat1_apply _ _ r ⟨2, hk⟩ 2 (by simp) (broadcast _ c) rfl 2 rfl (Nat.le_refl _) (Nat.lt_succ_self _)) ?_
    simp [at2, broadcast_apply]

/-- One feature row as the kernel lays it out: eight blocks side by side, of 3, 3, 3, 3, 10, 18, 18 and 4 columns, the two blocks
    of 18 being themselves a block of 3 next to a block of 15. Read at row `r` and column `f`, it is the block that holds `f`,
    at `f` less the columns before that block. -/
theorem row_apply (a0 a1 a2 a3 : A2 1024 3) (a4 : A2 1024 10) (h5 : A2 1024 3) (o5 : A2 1024 15) (h6 : A2 1024 3) (o6 : A2 1024 15)
    (a7 : A2 1024 4)
    (hc : Shape.Concatenates [S1024x3, S1024x3, S1024x3, S1024x3, S1024x10, S1024x18, S1024x18, S1024x4] S1024x62 1)
    (hc2 : Shape.Concatenates [S1024x3, S1024x15] S1024x18 1) (r : Fin 1024) (f : Fin 62) :
    concatenate S1024x62 1 [⟨S1024x3, a0⟩, ⟨S1024x3, a1⟩, ⟨S1024x3, a2⟩, ⟨S1024x3, a3⟩, ⟨S1024x10, a4⟩,
      ⟨S1024x18, concatenate S1024x18 1 [⟨S1024x3, h5⟩, ⟨S1024x15, o5⟩] hc2⟩,
      ⟨S1024x18, concatenate S1024x18 1 [⟨S1024x3, h6⟩, ⟨S1024x15, o6⟩] hc2⟩, ⟨S1024x4, a7⟩] hc (ix2 r f) =
      if f.val < 3 then at2 a0 r f.val
      else if f.val < 6 then at2 a1 r (f.val - 3)
      else if f.val < 9 then at2 a2 r (f.val - 6)
      else if f.val < 12 then at2 a3 r (f.val - 9)
      else if f.val < 22 then at2 a4 r (f.val - 12)
      else if f.val < 25 then at2 h5 r (f.val - 22)
      else if f.val < 40 then at2 o5 r (f.val - 25)
      else if f.val < 43 then at2 h6 r (f.val - 40)
      else if f.val < 58 then at2 o6 r (f.val - 43)
      else at2 a7 r (f.val - 58) := by
  have hf := f.isLt
  split_ifs with c0 c1 c2 c3 c4 c5 c6 c7 c8
  · exact cat1_apply _ _ r f 0 (by simp) a0 rfl 0 rfl (by omega) (by omega)
  · exact cat1_apply _ _ r f 1 (by simp) a1 rfl 3 rfl (by omega) (by omega)
  · exact cat1_apply _ _ r f 2 (by simp) a2 rfl 6 rfl (by omega) (by omega)
  · exact cat1_apply _ _ r f 3 (by simp) a3 rfl 9 rfl (by omega) (by omega)
  · exact cat1_apply _ _ r f 4 (by simp) a4 rfl 12 rfl (by omega) (by omega)
  · refine Eq.trans (cat1_apply _ _ r f 5 (by simp) _ rfl 22 rfl (by omega) (by omega)) ?_
    rw [at2_eq _ r (f.val - 22) (by omega)]
    exact cat1_apply _ _ r ⟨f.val - 22, by omega⟩ 0 (by simp) h5 rfl 0 rfl (Nat.zero_le _) (by show f.val - 22 < 0 + 3; omega)
  · refine Eq.trans (cat1_apply _ _ r f 5 (by simp) _ rfl 22 rfl (by omega) (by omega)) ?_
    rw [at2_eq _ r (f.val - 22) (by omega)]
    refine Eq.trans (cat1_apply _ _ r ⟨f.val - 22, by omega⟩ 1 (by simp) o5 rfl 3 rfl (by show 3 ≤ f.val - 22; omega)
      (by show f.val - 22 < 3 + 15; omega)) (congrArg (at2 o5 r) ?_)
    show f.val - 22 - 3 = f.val - 25
    omega
  · refine Eq.trans (cat1_apply _ _ r f 6 (by simp) _ rfl 40 rfl (by omega) (by omega)) ?_
    rw [at2_eq _ r (f.val - 40) (by omega)]
    exact cat1_apply _ _ r ⟨f.val - 40, by omega⟩ 0 (by simp) h6 rfl 0 rfl (Nat.zero_le _) (by show f.val - 40 < 0 + 3; omega)
  · refine Eq.trans (cat1_apply _ _ r f 6 (by simp) _ rfl 40 rfl (by omega) (by omega)) ?_
    rw [at2_eq _ r (f.val - 40) (by omega)]
    refine Eq.trans (cat1_apply _ _ r ⟨f.val - 40, by omega⟩ 1 (by simp) o6 rfl 3 rfl (by show 3 ≤ f.val - 40; omega)
      (by show f.val - 40 < 3 + 15; omega)) (congrArg (at2 o6 r) ?_)
    show f.val - 40 - 3 = f.val - 43
    omega
  · exact cat1_apply _ _ r f 7 (by simp) a7 rfl 58 rfl (by omega) (by omega)

/-- The pattern of `1.0` denotes the extended real `1`. -/
theorem one_f32 : (FloatOps.ofBits (F := Ideal) .f32 0x3F800000#32 : Ideal .f32) = (1 : EReal) := by
  show Ideal.ofBits .f32 0x3F800000#32 = 1
  simp [Ideal.ofBits, Ideal.ieee, -EReal.coe_mul]; norm_num

/-- The pattern of `0.0` denotes the extended real `0`. -/
theorem zero_f32 : (FloatOps.ofBits (F := Ideal) .f32 0x00000000#32 : Ideal .f32) = (0 : EReal) := by
  show Ideal.ofBits .f32 0x00000000#32 = 0
  simp [Ideal.ofBits, Ideal.ieee]

/-- The rows of the first ordered pair, objects (0, 1): rows `0 + r` of the kernel's feature array. -/
theorem pay2_at_0 (x0 : Vec Ideal S1024x55 .f32) (x1 x2 : Vec Ideal S1024x9 .f32) (x3 : Vec Ideal S1024x4 .f32)
    (r : Fin 1024) (f : Fin 62) :
    k0_pay2 (F := Ideal) x0 x1 x2 x3 (ix2 (⟨0 * 1024 + r.val, by omega⟩ : Fin 6144) f) = feat x0 x1 x2 x3 r 0 f.val := by
  have hf := f.isLt
  unfold k0_pay2
  rw [truncf_apply]
  refine Eq.trans (cat0_apply _ _ _ f 0 (by simp) _ rfl 0 rfl r (by simp)) ?_
  refine Eq.trans (row_apply _ _ _ _ _ _ _ _ _ _ _ _ r f) ?_
  unfold feat
  have hI : pI 0 = 0 := rfl
  have hJ : pJ 0 = 1 := rfl
  simp only [hI, hJ]
  split_ifs
  · exact (at2_slice 0 x1 _ (by norm_num) r _ (by omega)).trans (congrArg (at2 x1 r) (by omega))
  · exact (at2_slice 3 x1 _ (by norm_num) r _ (by omega)).trans (congrArg (at2 x1 r) (by omega))
  · exact (at2_slice 0 x2 _ (by norm_num) r _ (by omega)).trans (congrArg (at2 x2 r) (by omega))
  · exact (at2_slice 3 x2 _ (by norm_num) r _ (by omega)).trans (congrArg (at2 x2 r) (by omega))
  · exact (at2_slice 0 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 10 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 25 x0 _ (by norm_num) r _ (by omega)).trans (congrArg (at2 x0 r) (by omega))
  · with_reducible rfl

/-- The rows of the second ordered pair, objects (0, 2): rows `1024 + r` of the kernel's feature array. -/
theorem pay2_at_1 (x0 : Vec Ideal S1024x55 .f32) (x1 x2 : Vec Ideal S1024x9 .f32) (x3 : Vec Ideal S1024x4 .f32)
    (r : Fin 1024) (f : Fin 62) :
    k0_pay2 (F := Ideal) x0 x1 x2 x3 (ix2 (⟨1 * 1024 + r.val, by omega⟩ : Fin 6144) f) = feat x0 x1 x2 x3 r 1 f.val := by
  have hf := f.isLt
  unfold k0_pay2
  rw [truncf_apply]
  refine Eq.trans (cat0_apply _ _ _ f 1 (by simp) _ rfl 1024 rfl r (by simp)) ?_
  refine Eq.trans (row_apply _ _ _ _ _ _ _ _ _ _ _ _ r f) ?_
  unfold feat
  have hI : pI 1 = 0 := rfl
  have hJ : pJ 1 = 2 := rfl
  simp only [hI, hJ]
  split_ifs
  · exact (at2_slice 0 x1 _ (by norm_num) r _ (by omega)).trans (congrArg (at2 x1 r) (by omega))
  · exact (at2_slice 6 x1 _ (by norm_num) r _ (by omega)).trans (congrArg (at2 x1 r) (by omega))
  · exact (at2_slice 0 x2 _ (by norm_num) r _ (by omega)).trans (congrArg (at2 x2 r) (by omega))
  · exact (at2_slice 6 x2 _ (by norm_num) r _ (by omega)).trans (congrArg (at2 x2 r) (by omega))
  · exact (at2_slice 0 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 10 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 40 x0 _ (by norm_num) r _ (by omega)).trans (congrArg (at2 x0 r) (by omega))
  · with_reducible rfl

/-- The rows of the third ordered pair, objects (1, 0): rows `2048 + r` of the kernel's feature array. -/
theorem pay2_at_2 (x0 : Vec Ideal S1024x55 .f32) (x1 x2 : Vec Ideal S1024x9 .f32) (x3 : Vec Ideal S1024x4 .f32)
    (r : Fin 1024) (f : Fin 62) :
    k0_pay2 (F := Ideal) x0 x1 x2 x3 (ix2 (⟨2 * 1024 + r.val, by omega⟩ : Fin 6144) f) = feat x0 x1 x2 x3 r 2 f.val := by
  have hf := f.isLt
  unfold k0_pay2
  rw [truncf_apply]
  refine Eq.trans (cat0_apply _ _ _ f 2 (by simp) _ rfl 2048 rfl r (by simp)) ?_
  refine Eq.trans (row_apply _ _ _ _ _ _ _ _ _ _ _ _ r f) ?_
  unfold feat
  have hI : pI 2 = 1 := rfl
  have hJ : pJ 2 = 0 := rfl
  simp only [hI, hJ]
  split_ifs
  · exact (at2_slice 3 x1 _ (by norm_num) r _ (by omega)).trans (congrArg (at2 x1 r) (by omega))
  · exact (at2_slice 0 x1 _ (by norm_num) r _ (by omega)).trans (congrArg (at2 x1 r) (by omega))
  · exact (at2_slice 3 x2 _ (by norm_num) r _ (by omega)).trans (congrArg (at2 x2 r) (by omega))
  · exact (at2_slice 0 x2 _ (by norm_num) r _ (by omega)).trans (congrArg (at2 x2 r) (by omega))
  · exact (at2_slice 0 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 25 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 10 x0 _ (by norm_num) r _ (by omega)).trans (congrArg (at2 x0 r) (by omega))
  · with_reducible rfl

/-- The rows of the fourth ordered pair, objects (1, 2): rows `3072 + r` of the kernel's feature array. -/
theorem pay2_at_3 (x0 : Vec Ideal S1024x55 .f32) (x1 x2 : Vec Ideal S1024x9 .f32) (x3 : Vec Ideal S1024x4 .f32)
    (r : Fin 1024) (f : Fin 62) :
    k0_pay2 (F := Ideal) x0 x1 x2 x3 (ix2 (⟨3 * 1024 + r.val, by omega⟩ : Fin 6144) f) = feat x0 x1 x2 x3 r 3 f.val := by
  have hf := f.isLt
  unfold k0_pay2
  rw [truncf_apply]
  refine Eq.trans (cat0_apply _ _ _ f 3 (by simp) _ rfl 3072 rfl r (by simp)) ?_
  refine Eq.trans (row_apply _ _ _ _ _ _ _ _ _ _ _ _ r f) ?_
  unfold feat
  have hI : pI 3 = 1 := rfl
  have hJ : pJ 3 = 2 := rfl
  simp only [hI, hJ]
  split_ifs
  · exact (at2_slice 3 x1 _ (by norm_num) r _ (by omega)).trans (congrArg (at2 x1 r) (by omega))
  · exact (at2_slice 6 x1 _ (by norm_num) r _ (by omega)).trans (congrArg (at2 x1 r) (by omega))
  · exact (at2_slice 3 x2 _ (by norm_num) r _ (by omega)).trans (congrArg (at2 x2 r) (by omega))
  · exact (at2_slice 6 x2 _ (by norm_num) r _ (by omega)).trans (congrArg (at2 x2 r) (by omega))
  · exact (at2_slice 0 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 25 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 40 x0 _ (by norm_num) r _ (by omega)).trans (congrArg (at2 x0 r) (by omega))
  · with_reducible rfl

/-- The rows of the fifth ordered pair, objects (2, 0): rows `4096 + r` of the kernel's feature array. -/
theorem pay2_at_4 (x0 : Vec Ideal S1024x55 .f32) (x1 x2 : Vec Ideal S1024x9 .f32) (x3 : Vec Ideal S1024x4 .f32)
    (r : Fin 1024) (f : Fin 62) :
    k0_pay2 (F := Ideal) x0 x1 x2 x3 (ix2 (⟨4 * 1024 + r.val, by omega⟩ : Fin 6144) f) = feat x0 x1 x2 x3 r 4 f.val := by
  have hf := f.isLt
  unfold k0_pay2
  rw [truncf_apply]
  refine Eq.trans (cat0_apply _ _ _ f 4 (by simp) _ rfl 4096 rfl r (by simp)) ?_
  refine Eq.trans (row_apply _ _ _ _ _ _ _ _ _ _ _ _ r f) ?_
  unfold feat
  have hI : pI 4 = 2 := rfl
  have hJ : pJ 4 = 0 := rfl
  simp only [hI, hJ]
  split_ifs
  · exact (at2_slice 6 x1 _ (by norm_num) r _ (by omega)).trans (congrArg (at2 x1 r) (by omega))
  · exact (at2_slice 0 x1 _ (by norm_num) r _ (by omega)).trans (congrArg (at2 x1 r) (by omega))
  · exact (at2_slice 6 x2 _ (by norm_num) r _ (by omega)).trans (congrArg (at2 x2 r) (by omega))
  · exact (at2_slice 0 x2 _ (by norm_num) r _ (by omega)).trans (congrArg (at2 x2 r) (by omega))
  · exact (at2_slice 0 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 40 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 10 x0 _ (by norm_num) r _ (by omega)).trans (congrArg (at2 x0 r) (by omega))
  · with_reducible rfl

/-- The rows of the sixth ordered pair, objects (2, 1): rows `5120 + r` of the kernel's feature array. -/
theorem pay2_at_5 (x0 : Vec Ideal S1024x55 .f32) (x1 x2 : Vec Ideal S1024x9 .f32) (x3 : Vec Ideal S1024x4 .f32)
    (r : Fin 1024) (f : Fin 62) :
    k0_pay2 (F := Ideal) x0 x1 x2 x3 (ix2 (⟨5 * 1024 + r.val, by omega⟩ : Fin 6144) f) = feat x0 x1 x2 x3 r 5 f.val := by
  have hf := f.isLt
  unfold k0_pay2
  rw [truncf_apply]
  refine Eq.trans (cat0_apply _ _ _ f 5 (by simp) _ rfl 5120 rfl r (by simp)) ?_
  refine Eq.trans (row_apply _ _ _ _ _ _ _ _ _ _ _ _ r f) ?_
  unfold feat
  have hI : pI 5 = 2 := rfl
  have hJ : pJ 5 = 1 := rfl
  simp only [hI, hJ]
  split_ifs
  · exact (at2_slice 6 x1 _ (by norm_num) r _ (by omega)).trans (congrArg (at2 x1 r) (by omega))
  · exact (at2_slice 3 x1 _ (by norm_num) r _ (by omega)).trans (congrArg (at2 x1 r) (by omega))
  · exact (at2_slice 6 x2 _ (by norm_num) r _ (by omega)).trans (congrArg (at2 x2 r) (by omega))
  · exact (at2_slice 3 x2 _ (by norm_num) r _ (by omega)).trans (congrArg (at2 x2 r) (by omega))
  · exact (at2_slice 0 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 40 x0 _ (by norm_num) r _ (by omega)).trans (congrArg (at2 x0 r) (by omega))
  · refine (at2_hot _ _ _ _ r _ (by omega)).trans ?_
    rw [one_f32, zero_f32]
    split_ifs <;> first | with_reducible rfl | omega
  · refine (at2_hot _ _ _ _ r _ (by omega)).trans ?_
    rw [one_f32, zero_f32]
    split_ifs <;> first | with_reducible rfl | omega
  · exact (at2_slice 25 x0 _ (by norm_num) r _ (by omega)).trans (congrArg (at2 x0 r) (by omega))
  · with_reducible rfl

/-- **The kernel's feature array read at an index**: row `p * 1024 + r`, column `f` is feature `f` of sample `r` for the `p`-th
    ordered pair of objects. -/
theorem pay2_apply (x0 : Vec Ideal S1024x55 .f32) (x1 x2 : Vec Ideal S1024x9 .f32) (x3 : Vec Ideal S1024x4 .f32)
    (p : Fin 6) (r : Fin 1024) (f : Fin 62) :
    k0_pay2 (F := Ideal) x0 x1 x2 x3 (ix2 (⟨p.val * 1024 + r.val, by omega⟩ : Fin 6144) f) = Cert.Critic.feat x0 x1 x2 x3 r p.val f.val := by
  match p with
  | ⟨0, _⟩ => exact pay2_at_0 x0 x1 x2 x3 r f
  | ⟨1, _⟩ => exact pay2_at_1 x0 x1 x2 x3 r f
  | ⟨2, _⟩ => exact pay2_at_2 x0 x1 x2 x3 r f
  | ⟨3, _⟩ => exact pay2_at_3 x0 x1 x2 x3 r f
  | ⟨4, _⟩ => exact pay2_at_4 x0 x1 x2 x3 r f
  | ⟨5, _⟩ => exact pay2_at_5 x0 x1 x2 x3 r f

end Cert.KernelIdeal.KerInp

end
-- ==== Proof.RefTerms.lean ====
/-
  The reference program's operations composed into named terms of its argument arrays: the table of each object's three goal
  entries and the two tables of the six ordered pairs as index arrays, the one-hot codes, the per-object arrays, the 62-entry
  feature rows of every sample and pair (`inp`), the two-layer network summed over the pairs (`phi`), the head (`rho`), and a
  twin's output (`q`). Each is the program's own operations, in its order, with nothing evaluated.
-/
import proofs.«164559_j30691836297668_1_alg».proof.Proof.Gen.ReferenceIdeal

noncomputable section

namespace Cert.ReferenceIdeal.Terms

open Cert.ReferenceIdeal Cert.ReferenceIdeal.Facts₀ Idealize.ShloMosaic

variable {F : FTy → Type} [FloatOps F]

/-- The goal-entry numbers of each object, `[[0,1,2],[3,4,5],[6,7,8]]`. -/
def objIds : IVec S3x3 32 := fun i => lit0 (S3x3.rowMajor i)

/-- The same table as the start indices of the gather that picks each object's goal entries (the program first maps
    negative numbers to numbers from the end: "if false then id + 9 else id"). -/
def objIdx : IVec S3x3x1 32 :=
  broadcastInDim S3x3x1 ![0, 1] bcast_S3x3_S3x3x1_0_1
    (select (constantI S3x3 1 0#1) (addi objIds (broadcastInDim S3x3 ![] bcast_S_S3x3 (constantI S_ 32 9#32))) objIds)

/-- The first objects of the six ordered pairs, `[0,0,1,1,2,2]`. -/
def firstOf : IVec S6 32 := fun i => lit1 (S6.rowMajor i)
/-- The second objects of the six ordered pairs, `[1,2,0,2,0,1]`. -/
def secondOf : IVec S6 32 := fun i => lit2 (S6.rowMajor i)

/-- A table of six object numbers as the start indices of the gather that picks the pairs' objects ("if false then id + 3
    else id"). -/
def pairIdx (tab : IVec S6 32) : IVec S6x1 32 :=
  broadcastInDim S6x1 ![0] bcast_S6_S6x1_0
    (select (constantI S6 1 0#1) (addi tab (broadcastInDim S6 ![] bcast_S_S6 (constantI S_ 32 3#32))) tab)

/-- The 3 × 3 identity as floats: row number (plus zero) equal to column number. -/
def eye : FVec F S3x3 .f32 :=
  uitofp .f32 (cmpi .eq (addi (iotaInDim S3x3 32 0) (broadcastInDim S3x3 ![] bcast_S_S3x3 (constantI S_ 32 0#32)))
    (iotaInDim S3x3 32 1))

/-- Per sample and object: the one-hot code of the object then its 15 observation entries. -/
def objFeats (a0 : FVec F S32768x55 .f32) : FVec F S32768x3x18 .f32 :=
  concatenate S32768x3x18 2
    [⟨S32768x3x3, broadcastInDim S32768x3x3 ![1, 2] bcast_S3x3_S32768x3x3_1_2 (eye (F := F))⟩,
     ⟨S32768x3x15, shapeCast S32768x3x15 (extractStridedSlice S32768x45 ![0, 10] a0 slices_S32768x55_S32768x45_0_10)
        shapeCasts_S32768x45_S32768x3x15⟩]
    concatenates_S32768x3x3_S32768x3x15_S32768x3x18_d2

/-- Per sample and object: the object's three entries of a 9-entry goal array. -/
def perObj (a : FVec F S32768x9 .f32) : FVec F S32768x3x3 .f32 := Host.gather gather_S32768x9_S3x3x1_S32768x3x3_0_1_n_n_1_2_327681 a objIdx

/-- The body entries of a sample, repeated for the six pairs. -/
def bodyRows (a0 : FVec F S32768x55 .f32) : FVec F S32768x6x10 .f32 :=
  broadcastInDim S32768x6x10 ![0, 1, 2] bcast_S32768x1x10_S32768x6x10_0_1_2
    (broadcastInDim S32768x1x10 ![0, 2] bcast_S32768x10_S32768x1x10_0_2
      (extractStridedSlice S32768x10 ![0, 0] a0 slices_S32768x55_S32768x10_0_0))

/-- The action of a sample, repeated for the six pairs. -/
def actRows (a3 : FVec F S32768x4 .f32) : FVec F S32768x6x4 .f32 :=
  broadcastInDim S32768x6x4 ![0, 1, 2] bcast_S32768x1x4_S32768x6x4_0_1_2
    (broadcastInDim S32768x1x4 ![0, 2] bcast_S32768x4_S32768x1x4_0_2 a3)

/-- The feature rows: per sample and ordered pair, 62 entries. -/
def inp (a0 : FVec F S32768x55 .f32) (a1 a2 : FVec F S32768x9 .f32) (a3 : FVec F S32768x4 .f32) : FVec F S32768x6x62 .f32 :=
  concatenate S32768x6x62 2
    [⟨S32768x6x3, Host.gather gather_S32768x3x3_S6x1_S32768x6x3_02_1_n_n_1_1_3276813 (perObj a1) (pairIdx firstOf)⟩,
     ⟨S32768x6x3, Host.gather gather_S32768x3x3_S6x1_S32768x6x3_02_1_n_n_1_1_3276813 (perObj a1) (pairIdx secondOf)⟩,
     ⟨S32768x6x3, Host.gather gather_S32768x3x3_S6x1_S32768x6x3_02_1_n_n_1_1_3276813 (perObj a2) (pairIdx firstOf)⟩,
     ⟨S32768x6x3, Host.gather gather_S32768x3x3_S6x1_S32768x6x3_02_1_n_n_1_1_3276813 (perObj a2) (pairIdx secondOf)⟩,
     ⟨S32768x6x10, bodyRows a0⟩,
     ⟨S32768x6x18, Host.gather gather_S32768x3x18_S6x1_S32768x6x18_02_1_n_n_1_1_32768118 (objFeats a0) (pairIdx firstOf)⟩,
     ⟨S32768x6x18, Host.gather gather_S32768x3x18_S6x1_S32768x6x18_02_1_n_n_1_1_32768118 (objFeats a0) (pairIdx secondOf)⟩,
     ⟨S32768x6x4, actRows a3⟩]
    concatenates_S32768x6x3_S32768x6x3_S32768x6x3_S32768x6x3_S32768x6x10_S32768x6x18_S32768x6x18_S32768x6x4_S32768x6x62_d2

/-- The rectifier on a [32768, 6, 256] array: the maximum with a broadcast zero. -/
def relu3 (x : FVec F S32768x6x256 .f32) : FVec F S32768x6x256 .f32 :=
  maximumf x (broadcastInDim S32768x6x256 ![] bcast_S_S32768x6x256 (constant S_ .f32 0x00000000#32))

/-- The rectifier on a [32768, 256] array. -/
def relu2 (x : FVec F S32768x256 .f32) : FVec F S32768x256 .f32 :=
  maximumf x (broadcastInDim S32768x256 ![] bcast_S_S32768x256 (constant S_ .f32 0x00000000#32))

/-- A bias vector repeated over samples and pairs. -/
def bias3 (b : FVec F S256 .f32) : FVec F S32768x6x256 .f32 :=
  broadcastInDim S32768x6x256 ![0, 1, 2] bcast_S1x1x256_S32768x6x256_0_1_2 (broadcastInDim S1x1x256 ![2] bcast_S256_S1x1x256_2 b)

/-- A bias vector repeated over samples. -/
def bias2 (b : FVec F S256 .f32) : FVec F S32768x256 .f32 :=
  broadcastInDim S32768x256 ![0, 1] bcast_S1x256_S32768x256_0_1 (broadcastInDim S1x256 ![1] bcast_S256_S1x256_1 b)

/-- The two layers on every feature row, then the sum over the six pairs (from zero). -/
def phi (x : FVec F S32768x6x62 .f32) (w1 : FVec F S62x256 .f32) (b1 : FVec F S256 .f32) (w2 : FVec F S256x256 .f32)
    (b2 : FVec F S256 .f32) : FVec F S32768x256 .f32 :=
  Host.reduceAdd
    (relu3 (addf (Host.dotGeneral dot_S32768x6x256_S256x256_S32768x6x256_2_0_01_1_n_n none
      (relu3 (addf (Host.dotGeneral dot_S32768x6x62_S62x256_S32768x6x256_2_0_01_1_n_n none x w1) (bias3 b1))) w2) (bias3 b2)))
    (constant S_ .f32 0x00000000#32) reducesTo_S32768x6x256_S32768x256_d1 h_S_

/-- The head. -/
def rho (o : FVec F S32768x256 .f32) (v1 : FVec F S256x256 .f32) (c1 : FVec F S256 .f32) (v2 : FVec F S256x1 .f32)
    (c2 : FVec F S1 .f32) : FVec F S32768x1 .f32 :=
  addf (Host.dotGeneral dot_S32768x256_S256x1_S32768x1_1_0_0_1_n_n none
      (relu2 (addf (Host.dotGeneral dot_S32768x256_S256x256_S32768x256_1_0_0_1_n_n none o v1) (bias2 c1))) v2)
    (broadcastInDim S32768x1 ![0, 1] bcast_S1x1_S32768x1_0_1 (broadcastInDim S1x1 ![1] bcast_S1_S1x1_1 c2))

/-- One twin's output. -/
def q (a0 : FVec F S32768x55 .f32) (a1 a2 : FVec F S32768x9 .f32) (a3 : FVec F S32768x4 .f32)
    (w1 : FVec F S62x256 .f32) (b1 : FVec F S256 .f32) (w2 : FVec F S256x256 .f32) (b2 : FVec F S256 .f32)
    (v1 : FVec F S256x256 .f32) (c1 : FVec F S256 .f32) (v2 : FVec F S256x1 .f32) (c2 : FVec F S1 .f32) : FVec F S32768x1 .f32 :=
  rho (phi (inp a0 a1 a2 a3) w1 b1 w2 b2) v1 c1 v2 c2

end Cert.ReferenceIdeal.Terms

end
-- ==== Proof.RefRun.lean ====
/-
  The reference program's run. Its body is a straight line of operations once the two rectifier functions are unfolded at
  their six calls: 130 operations, listed here in order in two lists that mirror the two halves the program is printed in.
  Every weakly fair execution of the line terminates, and then each buffer holds the fold of the operations' results over
  the launch contents; read at the two result buffers that fold is the composed term `Terms.q` of the arguments (one per twin:
  the shared feature rows, then each twin's own weights), and at every argument buffer it is the launch contents, because no
  operation writes an argument.
-/
import proofs.«164559_j30691836297668_1_alg».proof.Proof.RefTerms
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first 60 operations: the constant tables, the slices of the observation, the identity code, the per-object arrays and the pair index tables. -/
abbrev ops0 : List (HloOp τ sig (Elt F)) :=
  [ nullary main_c (fun i => lit0 (S3x3.rowMajor i)),
    nullary main_c_0 (constantI S3x3 1 0#1),
    nullary main_c_1 (constantI S3x3 1 0#1),
    nullary main_c_2 (fun i => lit1 (S6.rowMajor i)),
    nullary main_c_3 (constantI S6 1 0#1),
    nullary main_c_4 (fun i => lit2 (S6.rowMajor i)),
    nullary main_c_5 (constantI S6 1 0#1),
    nullary main_c_6 (constantI S6 1 0#1),
    nullary main_c_7 (constantI S6 1 0#1),
    nullary main_c_8 (constantI S6 1 0#1),
    nullary main_c_9 (constantI S6 1 0#1),
    unary main_arg0 main_v0 ((extractStridedSlice S32768x10 ![0, 0] · slices_S32768x55_S32768x10_0_0) : (⟨S32768x55, .f32⟩ : BufTy).Contents (Elt F) → (⟨S32768x10, .f32⟩ : BufTy).Contents (Elt F)),
    unary main_arg0 main_v1 ((extractStridedSlice S32768x45 ![0, 10] · slices_S32768x55_S32768x45_0_10) : (⟨S32768x55, .f32⟩ : BufTy).Contents (Elt F) → (⟨S32768x45, .f32⟩ : BufTy).Contents (Elt F)),
    reshape main_v1 main_v2 rfl shapeCasts_S32768x45_S32768x3x15,
    nullary main_v3 (iotaInDim S3x3 32 0),
    nullary main_v4 (iotaInDim S3x3 32 1),
    nullary main_c_10 (constantI S_ 32 0#32),
    unary main_c_10 main_v5 (broadcastInDim S3x3 ![] bcast_S_S3x3 : (⟨S_, .i32⟩ : BufTy).Contents (Elt F) → (⟨S3x3, .i32⟩ : BufTy).Contents (Elt F)),
    binary main_v3 main_v5 main_v6 (addi : (⟨S3x3, .i32⟩ : BufTy).Contents (Elt F) → (⟨S3x3, .i32⟩ : BufTy).Contents (Elt F) → (⟨S3x3, .i32⟩ : BufTy).Contents (Elt F)),
    binary main_v6 main_v4 main_v7 (cmpi .eq : (⟨S3x3, .i32⟩ : BufTy).Contents (Elt F) → (⟨S3x3, .i32⟩ : BufTy).Contents (Elt F) → (⟨S3x3, .i1⟩ : BufTy).Contents (Elt F)),
    unary main_v7 main_v8 (uitofp .f32 : (⟨S3x3, .i1⟩ : BufTy).Contents (Elt F) → (⟨S3x3, .f32⟩ : BufTy).Contents (Elt F)),
    unary main_v8 main_v9 (broadcastInDim S32768x3x3 ![1, 2] bcast_S3x3_S32768x3x3_1_2 : (⟨S3x3, .f32⟩ : BufTy).Contents (Elt F) → (⟨S32768x3x3, .f32⟩ : BufTy).Contents (Elt F)),
    binary main_v9 main_v2 main_v10 ((fun a b => concatenate S32768x3x18 2 [⟨S32768x3x3, a⟩, ⟨S32768x3x15, b⟩] concatenates_S32768x3x3_S32768x3x15_S32768x3x18_d2) : (⟨S32768x3x3, .f32⟩ : BufTy).Contents (Elt F) → (⟨S32768x3x15, .f32⟩ : BufTy).Contents (Elt F) → (⟨S32768x3x18, .f32⟩ : BufTy).Contents (Elt F)),
    nullary main_c_11 (constantI S_ 32 9#32),
    unary main_c_11 main_v11 (broadcastInDim S3x3 ![] bcast_S_S3x3 : (⟨S_, .i32⟩ : BufTy).Contents (Elt F) → (⟨S3x3, .i32⟩ : BufTy).Contents (Elt F)),
    binary main_c main_v11 main_v12 (addi : (⟨S3x3, .i32⟩ : BufTy).Contents (Elt F) → (⟨S3x3, .i32⟩ : BufTy).Contents (Elt F) → (⟨S3x3, .i32⟩ : BufTy).Contents (Elt F)),
    ternary main_c_0 main_v12 main_c main_v13 (select : (⟨S3x3, .i1⟩ : BufTy).Contents (Elt F) → (⟨S3x3, .i32⟩ : BufTy).Contents (Elt F) → (⟨S3x3, .i32⟩ : BufTy).Contents (Elt F) → (⟨S3x3, .i32⟩ : BufTy).Contents (Elt F)),
    unary main_v13 main_v14 (broadcastInDim S3x3x1 ![0, 1] bcast_S3x3_S3x3x1_0_1 : (⟨S3x3, .i32⟩ : BufTy).Contents (Elt F) → (⟨S3x3x1, .i32⟩ : BufTy).Contents (Elt F)),
    binary main_arg1 main_v14 main_v15 ((fun x i => Host.gather gather_S32768x9_S3x3x1_S32768x3x3_0_1_n_n_1_2_327681 x i) : (⟨S32768x9, .f32⟩ : BufTy).Contents (Elt F) → (⟨S3x3x1, .i32⟩ : BufTy).Contents (Elt F) → (⟨S32768x3x3, .f32⟩ : BufTy).Contents (Elt F)),
    nullary main_c_12 (constantI S_ 32 9#32),
    unary main_c_12 main_v16 (broadcastInDim S3x3 ![] bcast_S_S3x3 : (⟨S_, .i32⟩ : BufTy).Contents (Elt F) → (⟨S3x3, .i32⟩ : BufTy).Contents (Elt F)),
    binary main_c main_v16 main_v17 (addi : (⟨S3x3, .i32⟩ : BufTy).Contents (Elt F) → (⟨S3x3, .i32⟩ : BufTy).Contents (Elt F) → (⟨S3x3, .i32⟩ : BufTy).Contents (Elt F)),
    ternary main_c_1 main_v17 main_c main_v18 (select : (⟨S3x3, .i1⟩ : BufTy).Contents (Elt F) → (⟨S3x3, .i32⟩ : BufTy).Contents (Elt F) → (⟨S3x3, .i32⟩ : BufTy).Contents (Elt F) → (⟨S3x3, .i32⟩ : BufTy).Contents (Elt F)),
    unary main_v18 main_v19 (broadcastInDim S3x3x1 ![0, 1] bcast_S3x3_S3x3x1_0_1 : (⟨S3x3, .i32⟩ : BufTy).Contents (Elt F) → (⟨S3x3x1, .i32⟩ : BufTy).Contents (Elt F)),
    binary main_arg2 main_v19 main_v20 ((fun x i => Host.gather gather_S32768x9_S3x3x1_S32768x3x3_0_1_n_n_1_2_327681 x i) : (⟨S32768x9, .f32⟩ : BufTy).Contents (Elt F) → (⟨S3x3x1, .i32⟩ : BufTy).Contents (Elt F) → (⟨S32768x3x3, .f32⟩ : BufTy).Contents (Elt F)),
    unary main_v0 main_v21 (broadcastInDim S32768x1x10 ![0, 2] bcast_S32768x10_S32768x1x10_0_2 : (⟨S32768x10, .f32⟩ : BufTy).Contents (Elt F) → (⟨S32768x1x10, .f32⟩ : BufTy).Contents (Elt F)),
    unary main_v21 main_v22 (broadcastInDim S32768x6x10 ![0, 1, 2] bcast_S32768x1x10_S32768x6x10_0_1_2 : (⟨S32768x1x10, .f32⟩ : BufTy).Contents (Elt F) → (⟨S32768x6x10, .f32⟩ : BufTy).Contents (Elt F)),
    unary main_arg3 main_v23 (broadcastInDim S32768x1x4 ![0, 2] bcast_S32768x4_S32768x1x4_0_2 : (⟨S32768x4, .f32⟩ : BufTy).Contents (Elt F) → (⟨S32768x1x4, .f32⟩ : BufTy).Contents (Elt F)),
    unary main_v23 main_v24 (broadcastInDim S32768x6x4 ![0, 1, 2] bcast_S32768x1x4_S32768x6x4_0_1_2 : (⟨S32768x1x4, .f32⟩ : BufTy).Contents (Elt F) → (⟨S32768x6x4, .f32⟩ : BufTy).Contents (Elt F)),
    nullary main_c_13 (constantI S_ 32 3#32),
    unary main_c_13 main_v25 (broadcastInDim S6 ![] bcast_S_S6 : (⟨S_, .i32⟩ : BufTy).Contents (Elt F) → (⟨S6, .i32⟩ : BufTy).Contents (Elt F)),
    binary main_c_2 main_v25 main_v26 (addi : (⟨S6, .i32⟩ : BufTy).Contents (Elt F) → (⟨S6, .i32⟩ : BufTy).Contents (Elt F) → (⟨S6, .i32⟩ : BufTy).Contents (Elt F)),
    ternary main_c_3 main_v26 main_c_2 main_v27 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v27 main_v28 (broadcastInDim S6x1 ![0] bcast_S6_S6x1_0 : (⟨S6, .i32⟩ : BufTy).Contents (Elt F) → (⟨S6x1, .i32⟩ : BufTy).Contents (Elt F)),
    binary main_v15 main_v28 main_v29 ((fun x i => Host.gather gather_S32768x3x3_S6x1_S32768x6x3_02_1_n_n_1_1_3276813 x i) : (⟨S32768x3x3, .f32⟩ : BufTy).Contents (Elt F) → (⟨S6x1, .i32⟩ : BufTy).Contents (Elt F) → (⟨S32768x6x3, .f32⟩ : BufTy).Contents (Elt F)),
    nullary main_c_14 (constantI S_ 32 3#32),
    unary main_c_14 main_v30 (broadcastInDim S6 ![] bcast_S_S6 : (⟨S_, .i32⟩ : BufTy).Contents (Elt F) → (⟨S6, .i32⟩ : BufTy).Contents (Elt F)),
    binary main_c_4 main_v30 main_v31 (addi : (⟨S6, .i32⟩ : BufTy).Contents (Elt F) → (⟨S6, .i32⟩ : BufTy).Contents (Elt F) → (⟨S6, .i32⟩ : BufTy).Contents (Elt F)),
    ternary main_c_5 main_v31 main_c_4 main_v32 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v32 main_v33 (broadcastInDim S6x1 ![0] bcast_S6_S6x1_0 : (⟨S6, .i32⟩ : BufTy).Contents (Elt F) → (⟨S6x1, .i32⟩ : BufTy).Contents (Elt F)),
    binary main_v15 main_v33 main_v34 ((fun x i => Host.gather gather_S32768x3x3_S6x1_S32768x6x3_02_1_n_n_1_1_3276813 x i) : (⟨S32768x3x3, .f32⟩ : BufTy).Contents (Elt F) → (⟨S6x1, .i32⟩ : BufTy).Contents (Elt F) → (⟨S32768x6x3, .f32⟩ : BufTy).Contents (Elt F)),
    nullary main_c_15 (constantI S_ 32 3#32),
    unary main_c_15 main_v35 (broadcastInDim S6 ![] bcast_S_S6 : (⟨S_, .i32⟩ : BufTy).Contents (Elt F) → (⟨S6, .i32⟩ : BufTy).Contents (Elt F)),
    binary main_c_2 main_v35 main_v36 (addi : (⟨S6, .i32⟩ : BufTy).Contents (Elt F) → (⟨S6, .i32⟩ : BufTy).Contents (Elt F) → (⟨S6, .i32⟩ : BufTy).Contents (Elt F)),
    ternary main_c_6 main_v36 main_c_2 main_v37 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v37 main_v38 (broadcastInDim S6x1 ![0] bcast_S6_S6x1_0 : (⟨S6, .i32⟩ : BufTy).Contents (Elt F) → (⟨S6x1, .i32⟩ : BufTy).Contents (Elt F)),
    binary main_v20 main_v38 main_v39 ((fun x i => Host.gather gather_S32768x3x3_S6x1_S32768x6x3_02_1_n_n_1_1_3276813 x i) : (⟨S32768x3x3, .f32⟩ : BufTy).Contents (Elt F) → (⟨S6x1, .i32⟩ : BufTy).Contents (Elt F) → (⟨S32768x6x3, .f32⟩ : BufTy).Contents (Elt F)),
    nullary main_c_16 (constantI S_ 32 3#32),
    unary main_c_16 main_v40 (broadcastInDim S6 ![] bcast_S_S6 : (⟨S_, .i32⟩ : BufTy).Contents (Elt F) → (⟨S6, .i32⟩ : BufTy).Contents (Elt F)),
    binary main_c_4 main_v40 main_v41 (addi : (⟨S6, .i32⟩ : BufTy).Contents (Elt F) → (⟨S6, .i32⟩ : BufTy).Contents (Elt F) → (⟨S6, .i32⟩ : BufTy).Contents (Elt F)) ]

/-- The remaining 70 operations: the last pair index tables and gathers, the feature rows, and the two twins' layers, each rectifier call as its three operations over that call's buffers. -/
abbrev ops1 : List (HloOp τ sig (Elt F)) :=
  [ ternary main_c_7 main_v41 main_c_4 main_v42 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v42 main_v43 (broadcastInDim S6x1 ![0] bcast_S6_S6x1_0 : (⟨S6, .i32⟩ : BufTy).Contents (Elt F) → (⟨S6x1, .i32⟩ : BufTy).Contents (Elt F)),
    binary main_v20 main_v43 main_v44 ((fun x i => Host.gather gather_S32768x3x3_S6x1_S32768x6x3_02_1_n_n_1_1_3276813 x i) : (⟨S32768x3x3, .f32⟩ : BufTy).Contents (Elt F) → (⟨S6x1, .i32⟩ : BufTy).Contents (Elt F) → (⟨S32768x6x3, .f32⟩ : BufTy).Contents (Elt F)),
    nullary main_c_17 (constantI S_ 32 3#32),
    unary main_c_17 main_v45 (broadcastInDim S6 ![] bcast_S_S6 : (⟨S_, .i32⟩ : BufTy).Contents (Elt F) → (⟨S6, .i32⟩ : BufTy).Contents (Elt F)),
    binary main_c_2 main_v45 main_v46 (addi : (⟨S6, .i32⟩ : BufTy).Contents (Elt F) → (⟨S6, .i32⟩ : BufTy).Contents (Elt F) → (⟨S6, .i32⟩ : BufTy).Contents (Elt F)),
    ternary main_c_8 main_v46 main_c_2 main_v47 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v47 main_v48 (broadcastInDim S6x1 ![0] bcast_S6_S6x1_0 : (⟨S6, .i32⟩ : BufTy).Contents (Elt F) → (⟨S6x1, .i32⟩ : BufTy).Contents (Elt F)),
    binary main_v10 main_v48 main_v49 ((fun x i => Host.gather gather_S32768x3x18_S6x1_S32768x6x18_02_1_n_n_1_1_32768118 x i) : (⟨S32768x3x18, .f32⟩ : BufTy).Contents (Elt F) → (⟨S6x1, .i32⟩ : BufTy).Contents (Elt F) → (⟨S32768x6x18, .f32⟩ : BufTy).Contents (Elt F)),
    nullary main_c_18 (constantI S_ 32 3#32),
    unary main_c_18 main_v50 (broadcastInDim S6 ![] bcast_S_S6 : (⟨S_, .i32⟩ : BufTy).Contents (Elt F) → (⟨S6, .i32⟩ : BufTy).Contents (Elt F)),
    binary main_c_4 main_v50 main_v51 (addi : (⟨S6, .i32⟩ : BufTy).Contents (Elt F) → (⟨S6, .i32⟩ : BufTy).Contents (Elt F) → (⟨S6, .i32⟩ : BufTy).Contents (Elt F)),
    ternary main_c_9 main_v51 main_c_4 main_v52 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v52 main_v53 (broadcastInDim S6x1 ![0] bcast_S6_S6x1_0 : (⟨S6, .i32⟩ : BufTy).Contents (Elt F) → (⟨S6x1, .i32⟩ : BufTy).Contents (Elt F)),
    binary main_v10 main_v53 main_v54 ((fun x i => Host.gather gather_S32768x3x18_S6x1_S32768x6x18_02_1_n_n_1_1_32768118 x i) : (⟨S32768x3x18, .f32⟩ : BufTy).Contents (Elt F) → (⟨S6x1, .i32⟩ : BufTy).Contents (Elt F) → (⟨S32768x6x18, .f32⟩ : BufTy).Contents (Elt F)),
    nary ![main_v29, main_v34, main_v39, main_v44, main_v22, main_v49, main_v54, main_v24] main_v55 (fun u => concatenate S32768x6x62 2 [⟨S32768x6x3, u 0⟩, ⟨S32768x6x3, u 1⟩, ⟨S32768x6x3, u 2⟩, ⟨S32768x6x3, u 3⟩, ⟨S32768x6x10, u 4⟩, ⟨S32768x6x18, u 5⟩, ⟨S32768x6x18, u 6⟩, ⟨S32768x6x4, u 7⟩] concatenates_S32768x6x3_S32768x6x3_S32768x6x3_S32768x6x3_S32768x6x10_S32768x6x18_S32768x6x18_S32768x6x4_S32768x6x62_d2),
    binary main_v55 main_arg4 main_v56 ((fun l r => Host.dotGeneral dot_S32768x6x62_S62x256_S32768x6x256_2_0_01_1_n_n none l r) : (⟨S32768x6x62, .f32⟩ : BufTy).Contents (Elt F) → (⟨S62x256, .f32⟩ : BufTy).Contents (Elt F) → (⟨S32768x6x256, .f32⟩ : BufTy).Contents (Elt F)),
    unary main_arg5 main_v57 (broadcastInDim S1x1x256 ![2] bcast_S256_S1x1x256_2 : (⟨S256, .f32⟩ : BufTy).Contents (Elt F) → (⟨S1x1x256, .f32⟩ : BufTy).Contents (Elt F)),
    unary main_v57 main_v58 (broadcastInDim S32768x6x256 ![0, 1, 2] bcast_S1x1x256_S32768x6x256_0_1_2 : (⟨S1x1x256, .f32⟩ : BufTy).Contents (Elt F) → (⟨S32768x6x256, .f32⟩ : BufTy).Contents (Elt F)),
    binary main_v56 main_v58 main_v59 (addf : (⟨S32768x6x256, .f32⟩ : BufTy).Contents (Elt F) → (⟨S32768x6x256, .f32⟩ : BufTy).Contents (Elt F) → (⟨S32768x6x256, .f32⟩ : BufTy).Contents (Elt F)),
    TRef.nullary main_call0.cst (constant S_ .f32 0x00000000#32),
    TRef.unary main_call0.cst main_call0.v0 (broadcastInDim S32768x6x256 ![] bcast_S_S32768x6x256),
    TRef.binary (.of main_v59) main_call0.v0 main_call0.v1 maximumf,
    binary main_v60 main_arg6 main_v61 ((fun l r => Host.dotGeneral dot_S32768x6x256_S256x256_S32768x6x256_2_0_01_1_n_n none l r) : (⟨S32768x6x256, .f32⟩ : BufTy).Contents (Elt F) → (⟨S256x256, .f32⟩ : BufTy).Contents (Elt F) → (⟨S32768x6x256, .f32⟩ : BufTy).Contents (Elt F)),
    unary main_arg7 main_v62 (broadcastInDim S1x1x256 ![2] bcast_S256_S1x1x256_2 : (⟨S256, .f32⟩ : BufTy).Contents (Elt F) → (⟨S1x1x256, .f32⟩ : BufTy).Contents (Elt F)),
    unary main_v62 main_v63 (broadcastInDim S32768x6x256 ![0, 1, 2] bcast_S1x1x256_S32768x6x256_0_1_2 : (⟨S1x1x256, .f32⟩ : BufTy).Contents (Elt F) → (⟨S32768x6x256, .f32⟩ : BufTy).Contents (Elt F)),
    binary main_v61 main_v63 main_v64 (addf : (⟨S32768x6x256, .f32⟩ : BufTy).Contents (Elt F) → (⟨S32768x6x256, .f32⟩ : BufTy).Contents (Elt F) → (⟨S32768x6x256, .f32⟩ : BufTy).Contents (Elt F)),
    TRef.nullary main_call1.cst (constant S_ .f32 0x00000000#32),
    TRef.unary main_call1.cst main_call1.v0 (broadcastInDim S32768x6x256 ![] bcast_S_S32768x6x256),
    TRef.binary (.of main_v64) main_call1.v0 main_call1.v1 maximumf,
    nullary main_cst (constant S_ .f32 0x00000000#32),
    binary main_v65 main_cst main_v66 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    binary main_v55 main_arg8 main_v67 ((fun l r => Host.dotGeneral dot_S32768x6x62_S62x256_S32768x6x256_2_0_01_1_n_n none l r) : (⟨S32768x6x62, .f32⟩ : BufTy).Contents (Elt F) → (⟨S62x256, .f32⟩ : BufTy).Contents (Elt F) → (⟨S32768x6x256, .f32⟩ : BufTy).Contents (Elt F)),
    unary main_arg9 main_v68 (broadcastInDim S1x1x256 ![2] bcast_S256_S1x1x256_2 : (⟨S256, .f32⟩ : BufTy).Contents (Elt F) → (⟨S1x1x256, .f32⟩ : BufTy).Contents (Elt F)),
    unary main_v68 main_v69 (broadcastInDim S32768x6x256 ![0, 1, 2] bcast_S1x1x256_S32768x6x256_0_1_2 : (⟨S1x1x256, .f32⟩ : BufTy).Contents (Elt F) → (⟨S32768x6x256, .f32⟩ : BufTy).Contents (Elt F)),
    binary main_v67 main_v69 main_v70 (addf : (⟨S32768x6x256, .f32⟩ : BufTy).Contents (Elt F) → (⟨S32768x6x256, .f32⟩ : BufTy).Contents (Elt F) → (⟨S32768x6x256, .f32⟩ : BufTy).Contents (Elt F)),
    TRef.nullary main_call2.cst (constant S_ .f32 0x00000000#32),
    TRef.unary main_call2.cst main_call2.v0 (broadcastInDim S32768x6x256 ![] bcast_S_S32768x6x256),
    TRef.binary (.of main_v70) main_call2.v0 main_call2.v1 maximumf,
    binary main_v71 main_arg10 main_v72 ((fun l r => Host.dotGeneral dot_S32768x6x256_S256x256_S32768x6x256_2_0_01_1_n_n none l r) : (⟨S32768x6x256, .f32⟩ : BufTy).Contents (Elt F) → (⟨S256x256, .f32⟩ : BufTy).Contents (Elt F) → (⟨S32768x6x256, .f32⟩ : BufTy).Contents (Elt F)),
    unary main_arg11 main_v73 (broadcastInDim S1x1x256 ![2] bcast_S256_S1x1x256_2 : (⟨S256, .f32⟩ : BufTy).Contents (Elt F) → (⟨S1x1x256, .f32⟩ : BufTy).Contents (Elt F)),
    unary main_v73 main_v74 (broadcastInDim S32768x6x256 ![0, 1, 2] bcast_S1x1x256_S32768x6x256_0_1_2 : (⟨S1x1x256, .f32⟩ : BufTy).Contents (Elt F) → (⟨S32768x6x256, .f32⟩ : BufTy).Contents (Elt F)),
    binary main_v72 main_v74 main_v75 (addf : (⟨S32768x6x256, .f32⟩ : BufTy).Contents (Elt F) → (⟨S32768x6x256, .f32⟩ : BufTy).Contents (Elt F) → (⟨S32768x6x256, .f32⟩ : BufTy).Contents (Elt F)),
    TRef.nullary main_call3.cst (constant S_ .f32 0x00000000#32),
    TRef.unary main_call3.cst main_call3.v0 (broadcastInDim S32768x6x256 ![] bcast_S_S32768x6x256),
    TRef.binary (.of main_v75) main_call3.v0 main_call3.v1 maximumf,
    nullary main_cst_19 (constant S_ .f32 0x00000000#32),
    binary main_v76 main_cst_19 main_v77 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    binary main_v66 main_arg12 main_v78 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg13 main_v79 (broadcastInDim S1x256 ![1] bcast_S256_S1x256_1 : (⟨S256, .f32⟩ : BufTy).Contents (Elt F) → (⟨S1x256, .f32⟩ : BufTy).Contents (Elt F)),
    unary main_v79 main_v80 (broadcastInDim S32768x256 ![0, 1] bcast_S1x256_S32768x256_0_1 : (⟨S1x256, .f32⟩ : BufTy).Contents (Elt F) → (⟨S32768x256, .f32⟩ : BufTy).Contents (Elt F)),
    binary main_v78 main_v80 main_v81 (addf : (⟨S32768x256, .f32⟩ : BufTy).Contents (Elt F) → (⟨S32768x256, .f32⟩ : BufTy).Contents (Elt F) → (⟨S32768x256, .f32⟩ : BufTy).Contents (Elt F)),
    TRef.nullary main_call4.cst (constant S_ .f32 0x00000000#32),
    TRef.unary main_call4.cst main_call4.v0 (broadcastInDim S32768x256 ![] bcast_S_S32768x256),
    TRef.binary (.of main_v81) main_call4.v0 main_call4.v1 maximumf,
    binary main_v82 main_arg14 main_v83 ((fun l r => Host.dotGeneral dot_S32768x256_S256x1_S32768x1_1_0_0_1_n_n none l r) : (⟨S32768x256, .f32⟩ : BufTy).Contents (Elt F) → (⟨S256x1, .f32⟩ : BufTy).Contents (Elt F) → (⟨S32768x1, .f32⟩ : BufTy).Contents (Elt F)),
    unary main_arg15 main_v84 (broadcastInDim S1x1 ![1] bcast_S1_S1x1_1 : (⟨S1, .f32⟩ : BufTy).Contents (Elt F) → (⟨S1x1, .f32⟩ : BufTy).Contents (Elt F)),
    unary main_v84 main_v85 (broadcastInDim S32768x1 ![0, 1] bcast_S1x1_S32768x1_0_1 : (⟨S1x1, .f32⟩ : BufTy).Contents (Elt F) → (⟨S32768x1, .f32⟩ : BufTy).Contents (Elt F)),
    binary main_v83 main_v85 main_v86 (addf : (⟨S32768x1, .f32⟩ : BufTy).Contents (Elt F) → (⟨S32768x1, .f32⟩ : BufTy).Contents (Elt F) → (⟨S32768x1, .f32⟩ : BufTy).Contents (Elt F)),
    binary main_v77 main_arg16 main_v87 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg17 main_v88 (broadcastInDim S1x256 ![1] bcast_S256_S1x256_1 : (⟨S256, .f32⟩ : BufTy).Contents (Elt F) → (⟨S1x256, .f32⟩ : BufTy).Contents (Elt F)),
    unary main_v88 main_v89 (broadcastInDim S32768x256 ![0, 1] bcast_S1x256_S32768x256_0_1 : (⟨S1x256, .f32⟩ : BufTy).Contents (Elt F) → (⟨S32768x256, .f32⟩ : BufTy).Contents (Elt F)),
    binary main_v87 main_v89 main_v90 (addf : (⟨S32768x256, .f32⟩ : BufTy).Contents (Elt F) → (⟨S32768x256, .f32⟩ : BufTy).Contents (Elt F) → (⟨S32768x256, .f32⟩ : BufTy).Contents (Elt F)),
    TRef.nullary main_call5.cst (constant S_ .f32 0x00000000#32),
    TRef.unary main_call5.cst main_call5.v0 (broadcastInDim S32768x256 ![] bcast_S_S32768x256),
    TRef.binary (.of main_v90) main_call5.v0 main_call5.v1 maximumf,
    binary main_v91 main_arg18 main_v92 ((fun l r => Host.dotGeneral dot_S32768x256_S256x1_S32768x1_1_0_0_1_n_n none l r) : (⟨S32768x256, .f32⟩ : BufTy).Contents (Elt F) → (⟨S256x1, .f32⟩ : BufTy).Contents (Elt F) → (⟨S32768x1, .f32⟩ : BufTy).Contents (Elt F)),
    unary main_arg19 main_v93 (broadcastInDim S1x1 ![1] bcast_S1_S1x1_1 : (⟨S1, .f32⟩ : BufTy).Contents (Elt F) → (⟨S1x1, .f32⟩ : BufTy).Contents (Elt F)),
    unary main_v93 main_v94 (broadcastInDim S32768x1 ![0, 1] bcast_S1x1_S32768x1_0_1 : (⟨S1x1, .f32⟩ : BufTy).Contents (Elt F) → (⟨S32768x1, .f32⟩ : BufTy).Contents (Elt F)),
    binary main_v92 main_v94 main_v95 (addf : (⟨S32768x1, .f32⟩ : BufTy).Contents (Elt F) → (⟨S32768x1, .f32⟩ : BufTy).Contents (Elt F) → (⟨S32768x1, .f32⟩ : BufTy).Contents (Elt F)) ]

set_option maxRecDepth 4096 in
/-- The first half of the program is the first list, run in order. -/
theorem part0_eq (c : Dev nD) : main_part0 (F := F) c = seq ops0 := by
  simp only [main_part0, seq, bind_assoc, pure_bind, bind_pure_unit]

set_option maxRecDepth 4096 in
/-- The second half is the second list: each rectifier call unfolds to its body's three operations over the call's buffers. -/
theorem part1_eq (c : Dev nD) : main_part1 (F := F) c = seq ops1 := by
  simp only [main_part1, fn_relu.body, fn_relu_0.body, seq, bind_assoc, pure_bind]

/-- The whole program is the two lists run one after the other. -/
theorem main_eq (c : Dev nD) : main (F := F) c = seq (ops0 ++ ops1) := by
  rw [seq_append, ← part0_eq c, ← part1_eq c]
  rfl

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The result of an operation with eight operands given as a literal family, each operand's contents at its own reference. -/
theorem nary8_result' {x0 x1 x2 x3 x4 x5 x6 x7 y : Ref sig .tc}
    (f : ((k : Fin 8) → ((![x0, x1, x2, x3, x4, x5, x6, x7] : Fin 8 → Ref sig .tc) k).ty.Contents (Elt F)) → y.ty.Contents (Elt F)) (hxs hy)
    (W : Valuation τ sig (Elt F)) :
    (nary (τ := τ) ![x0, x1, x2, x3, x4, x5, x6, x7] y f hxs hy).result W (no_index (Proc.devRef .tc y))
      = f (Fin.cons (W (Proc.devRef .tc x0)) (Fin.cons (W (Proc.devRef .tc x1)) (Fin.cons (W (Proc.devRef .tc x2)) (Fin.cons (W (Proc.devRef .tc x3))
          (Fin.cons (W (Proc.devRef .tc x4)) (Fin.cons (W (Proc.devRef .tc x5)) (Fin.cons (W (Proc.devRef .tc x6)) (Fin.cons (W (Proc.devRef .tc x7))
            (fun i => i.elim0))))))))) := by
  rw [nary_result]; congr 1; funext k; fin_cases k <;> rfl

theorem scopedRefs_eq : (Finset.univ.filter fun b : Ref sig .tc => b.isScoped) = ∅ := by decide
theorem scopedSems_eq : (Finset.univ.filter fun sm : SemLoc sig => sm.isScoped .tc) = ∅ := by decide

attribute [local irreducible] Host.gather Host.reduceAdd concatenate in
set_option maxRecDepth 8192 in
set_option maxHeartbeats 8000000 in
/-- The fold read back. At each of the two result buffers: every operation's result at its own buffer is its function of its
    operands' contents, and a buffer is unchanged by the operations that write another, so the fold unrolls to the composed term,
    which is `Terms.q` of the argument buffers by unfolding the named terms (the rectifier bodies' operations are stated over typed
    references, whose transports are the identity at these literal buffers). At each argument buffer: no operation writes it. -/
theorem results (V : Valuation τ sig (Elt F)) :
    after (ops0 ++ ops1) V (main_v86 : DevRef τ sig)
        = Terms.q (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) (V (main_arg12 : DevRef τ sig)) (V (main_arg13 : DevRef τ sig)) (V (main_arg14 : DevRef τ sig)) (V (main_arg15 : DevRef τ sig))
    ∧ after (ops0 ++ ops1) V (main_v95 : DevRef τ sig)
        = Terms.q (V (main_arg0 : DevRef τ sig)) (V (main_arg1 : DevRef τ sig)) (V (main_arg2 : DevRef τ sig)) (V (main_arg3 : DevRef τ sig))
          (V (main_arg8 : DevRef τ sig)) (V (main_arg9 : DevRef τ sig)) (V (main_arg10 : DevRef τ sig)) (V (main_arg11 : DevRef τ sig)) (V (main_arg16 : DevRef τ sig)) (V (main_arg17 : DevRef τ sig)) (V (main_arg18 : DevRef τ sig)) (V (main_arg19 : DevRef τ sig))
    ∧ after (ops0 ++ ops1) V (main_arg0 : DevRef τ sig) = V (main_arg0 : DevRef τ sig)
    ∧ after (ops0 ++ ops1) V (main_arg1 : DevRef τ sig) = V (main_arg1 : DevRef τ sig)
    ∧ after (ops0 ++ ops1) V (main_arg2 : DevRef τ sig) = V (main_arg2 : DevRef τ sig)
    ∧ after (ops0 ++ ops1) V (main_arg3 : DevRef τ sig) = V (main_arg3 : DevRef τ sig)
    ∧ after (ops0 ++ ops1) V (main_arg4 : DevRef τ sig) = V (main_arg4 : DevRef τ sig)
    ∧ after (ops0 ++ ops1) V (main_arg5 : DevRef τ sig) = V (main_arg5 : DevRef τ sig)
    ∧ after (ops0 ++ ops1) V (main_arg6 : DevRef τ sig) = V (main_arg6 : DevRef τ sig)
    ∧ after (ops0 ++ ops1) V (main_arg7 : DevRef τ sig) = V (main_arg7 : DevRef τ sig)
    ∧ after (ops0 ++ ops1) V (main_arg8 : DevRef τ sig) = V (main_arg8 : DevRef τ sig)
    ∧ after (ops0 ++ ops1) V (main_arg9 : DevRef τ sig) = V (main_arg9 : DevRef τ sig)
    ∧ after (ops0 ++ ops1) V (main_arg10 : DevRef τ sig) = V (main_arg10 : DevRef τ sig)
    ∧ after (ops0 ++ ops1) V (main_arg11 : DevRef τ sig) = V (main_arg11 : DevRef τ sig)
    ∧ after (ops0 ++ ops1) V (main_arg12 : DevRef τ sig) = V (main_arg12 : DevRef τ sig)
    ∧ after (ops0 ++ ops1) V (main_arg13 : DevRef τ sig) = V (main_arg13 : DevRef τ sig)
    ∧ after (ops0 ++ ops1) V (main_arg14 : DevRef τ sig) = V (main_arg14 : DevRef τ sig)
    ∧ after (ops0 ++ ops1) V (main_arg15 : DevRef τ sig) = V (main_arg15 : DevRef τ sig)
    ∧ after (ops0 ++ ops1) V (main_arg16 : DevRef τ sig) = V (main_arg16 : DevRef τ sig)
    ∧ after (ops0 ++ ops1) V (main_arg17 : DevRef τ sig) = V (main_arg17 : DevRef τ sig)
    ∧ after (ops0 ++ ops1) V (main_arg18 : DevRef τ sig) = V (main_arg18 : DevRef τ sig)
    ∧ after (ops0 ++ ops1) V (main_arg19 : DevRef τ sig) = V (main_arg19 : DevRef τ sig) := by
  rw [after_app]
  simp (disch := decide) only [after_cons, after_nil, nullary_result', unary_result', binary_result', ternary_result', reshape_result', nary8_result',
    nullary_result_ne', unary_result_ne', binary_result_ne', ternary_result_ne', reshape_result_ne', nary_result_ne', and_true, true_and]
  exact ⟨rfl, rfl⟩

/-- Every operation touches only buffers of the device. -/
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., unary_bufs_sub ..,
    unary_bufs_sub .., reshape_bufs_sub .., nullary_bufs_sub .., nullary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., unary_bufs_sub .., unary_bufs_sub .., nullary_bufs_sub .., unary_bufs_sub .., binary_bufs_sub ..,
    ternary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..⟩

theorem ops1_sub : (ops1 : List (HloOp τ sig (Elt F))).Forall fun op => op.bufs ⊆ tcRefs τ sig :=
  ⟨ternary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    ternary_bufs_sub .., unary_bufs_sub .., binary_bufs_sub .., nary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

theorem ops_sub : (ops0 ++ ops1 : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- Every operation determines its results: none leaves a buffer's contents free. -/
theorem fresh0 : ∀ op ∈ (ops0 : List (HloOp τ sig (Elt F))), op.fresh = ∅ := by
  intro _ h; (repeat (cases h with | head => rfl | tail _ h => ?_)); exact nomatch h

theorem fresh1 : ∀ op ∈ (ops1 : List (HloOp τ sig (Elt F))), op.fresh = ∅ := by
  intro _ h; (repeat (cases h with | head => rfl | tail _ h => ?_)); exact nomatch h

theorem ops_fresh : ∀ op ∈ (ops0 ++ ops1 : List (HloOp τ sig (Elt F))), op.fresh = ∅ :=
  fun op h => (List.mem_append.mp h).elim (fresh0 op) (fresh1 op)

/-- On every device, for any float values, from any memory with zero counters: every weakly fair execution of the reference
    program terminates with each twin's result buffer at `Terms.q` of the arguments' launch contents (the four sample arrays,
    then that twin's eight weight arrays) and every argument buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
          = Terms.q (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v95)
          = Terms.q (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => by
      obtain ⟨r0, r1, a0, a1, a2, a3, a4, a5, a6, a7, a8, a9, a10, a11, a12, a13, a14, a15, a16, a17, a18, a19⟩ := results (F := F) (launchContents m c)
      exact ⟨(h c main_v86).trans r0,
        (h c main_v95).trans r1,
        (h c main_arg0).trans a0,
        (h c main_arg1).trans a1,
        (h c main_arg2).trans a2,
        (h c main_arg3).trans a3,
        (h c main_arg4).trans a4,
        (h c main_arg5).trans a5,
        (h c main_arg6).trans a6,
        (h c main_arg7).trans a7,
        (h c main_arg8).trans a8,
        (h c main_arg9).trans a9,
        (h c main_arg10).trans a10,
        (h c main_arg11).trans a11,
        (h c main_arg12).trans a12,
        (h c main_arg13).trans a13,
        (h c main_arg14).trans a14,
        (h c main_arg15).trans a15,
        (h c main_arg16).trans a16,
        (h c main_arg17).trans a17,
        (h c main_arg18).trans a18,
        (h c main_arg19).trans a19⟩)
    (run_seq scopedRefs_eq scopedSems_eq defs main (fun _ => ops0 ++ ops1) main_eq (fun _ => ops_sub) m ρ (fun _ => ops_fresh))

end Cert.ReferenceIdeal.RefRun

end
-- ==== Proof.LibDotRows3.lean ====
/-
  A matrix product applied to every row of a stack of matrices: a `B × P × K` array times a `K × N` array, contracted over
  the shared axis, is at (b, p, n) the plain sum over k of X(b, p, k) · W(k, n) — for any record of dimension numbers whose
  operand indices are known coordinate by coordinate (at a printed program's literal records those facts hold by computation).
-/
import Idealize.ShloMosaic.PureOps.Ideal.Laws
import Idealize.ShloMosaic.Lib.ValueIdx

noncomputable section

open scoped BigOperators

namespace Cert.LibDotRows3

open Idealize.ShloMosaic Idealize.ShloMosaic.ValueIdx

/-- The contraction's sum over the record's index is the sum over `k : Fin K` of the function at `(b, p, k)` and `(k, n)`. -/
theorem sum_eq {B P K N : Nat} (d : DotDims ⟨3, ![B, P, K]⟩ ⟨2, ![K, N]⟩ ⟨3, ![B, P, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (k ⟨0, by omega⟩).val)
    (hr1 : ∀ j k, (d.rhsIdx j k 1).val = (j 2).val)
    {α : Type} [AddCommMonoid α] (f : (⟨3, ![B, P, K]⟩ : Shape).Idx → (⟨2, ![K, N]⟩ : Shape).Idx → α)
    (j : (⟨3, ![B, P, N]⟩ : Shape).Idx) :
    ∑ k : d.contr.Idx, f (d.lhsIdx j k) (d.rhsIdx j k) = ∑ k : Fin K, f (ix3 (j 0) (j 1) k) (ix2 k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix2 k (j 2) := by
    funext a; apply Fin.ext
    match a with
    | ⟨0, _⟩ => exact (hr0 j _).trans (contrEquiv1_symm_val d K hr hs k)
    | ⟨1, _⟩ => exact hr1 j _
  exact congrArg₂ f e1 e2

/-- The host's `dot_general` of a `B × P × K` stack by a `K × N` matrix, at the exact reading, at (b, p, n). -/
theorem hostDot_apply {B P K N : Nat} (d : DotDims ⟨3, ![B, P, K]⟩ ⟨2, ![K, N]⟩ ⟨3, ![B, P, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (k ⟨0, by omega⟩).val)
    (hr1 : ∀ j k, (d.rhsIdx j k 1).val = (j 2).val)
    (X : FVec Ideal ⟨3, ![B, P, K]⟩ .f32) (W : FVec Ideal ⟨2, ![K, N]⟩ .f32) (b : Fin B) (p : Fin P) (n : Fin N) :
    Host.dotGeneral (F := Ideal) d none X W (ix3 b p n) = ∑ k : Fin K, X (ix3 b p k) * W (ix2 k n) := by
  simp only [Host.dotGeneral]
  rw [Ideal.dotGeneral_apply]
  exact sum_eq d hr hs hl0 hl1 hl2 hr0 hr1 (fun a c => X a * W c) (ix3 b p n)

end Cert.LibDotRows3

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«164559_j30691836297668_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.RefNet.lean ====
/-
  The reference's network, read at an index. On the extended reals every operation is the exact one, so the two layers on a
  feature row, the sum over the six pairs and the head are the sums of products, maxima with zero and sums that the
  specification writes: `phi` at (b, j) is `pooled` of sample b's six feature rows, `rho` at (b, 0) is `head` of sample b's
  pooled vector.
-/
import proofs.«164559_j30691836297668_1_alg».proof.Proof.RefTerms
import proofs.«164559_j30691836297668_1_alg».proof.Proof.Spec
import proofs.«164559_j30691836297668_1_alg».proof.Proof.LibDotRows3
import proofs.«164559_j30691836297668_1_alg».proof.Proof.LibMatProd
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefNet

open Idealize.ShloMosaic Idealize.ShloMosaic.ValueIdx Cert.ReferenceIdeal Cert.ReferenceIdeal.Facts₀ Cert.Critic

/-- The float zero word denotes zero. -/
theorem zero_word : (constant S_ .f32 0x00000000#32 : FVec Ideal S_ .f32) ix0 = 0 := Ideal.ofBits_zero_f32

/-- The rectifier on the stack of hidden arrays, at an index. -/
theorem relu3_apply (x : FVec Ideal S32768x6x256 .f32) (j : S32768x6x256.Idx) : Terms.relu3 (F := Ideal) x j = relu (x j) := by
  unfold Terms.relu3 relu
  rw [maximumf_apply]
  congr 1
  refine (broadcastInDim_apply _ _ _ j ix0 (fun a => a.elim0)).trans zero_word

/-- The rectifier on a [32768, 256] array, at an index. -/
theorem relu2_apply (x : FVec Ideal S32768x256 .f32) (j : S32768x256.Idx) : Terms.relu2 (F := Ideal) x j = relu (x j) := by
  unfold Terms.relu2 relu
  rw [maximumf_apply]
  congr 1
  refine (broadcastInDim_apply _ _ _ j ix0 (fun a => a.elim0)).trans zero_word

/-- A bias repeated over samples and pairs, at (b, p, h): entry h. -/
theorem bias3_apply (v : FVec Ideal S256 .f32) (b : Fin 32768) (p : Fin 6) (h : Fin 256) :
    Terms.bias3 (F := Ideal) v (ix3 b p h) = v (ix1 h) := by
  unfold Terms.bias3
  refine (broadcastInDim_apply _ _ _ (ix3 b p h) (ix3 (0 : Fin 1) (0 : Fin 1) h) (fun a => ?_)).trans ?_
  · match a with
    | ⟨0, _⟩ => rfl
    | ⟨1, _⟩ => rfl
    | ⟨2, _⟩ => rfl
  · refine broadcastInDim_apply _ _ _ (ix3 (0 : Fin 1) (0 : Fin 1) h) (ix1 h) (fun a => ?_)
    match a with
    | ⟨0, _⟩ => rfl

/-- A bias repeated over samples, at (b, k): entry k. -/
theorem bias2_apply (v : FVec Ideal S256 .f32) (b : Fin 32768) (k : Fin 256) :
    Terms.bias2 (F := Ideal) v (ix2 b k) = v (ix1 k) := by
  unfold Terms.bias2
  refine (broadcastInDim_apply _ _ _ (ix2 b k) (ix2 (0 : Fin 1) k) (fun a => ?_)).trans ?_
  · match a with
    | ⟨0, _⟩ => rfl
    | ⟨1, _⟩ => rfl
  · refine broadcastInDim_apply _ _ _ (ix2 (0 : Fin 1) k) (ix1 k) (fun a => ?_)
    match a with
    | ⟨0, _⟩ => rfl

/-- The first layer's product at (b, p, h). -/
theorem dot62_apply (x : FVec Ideal S32768x6x62 .f32) (w : FVec Ideal S62x256 .f32) (b : Fin 32768) (p : Fin 6) (h : Fin 256) :
    Host.dotGeneral (F := Ideal) dot_S32768x6x62_S62x256_S32768x6x256_2_0_01_1_n_n none x w (ix3 b p h)
      = ∑ f : Fin 62, x (ix3 b p f) * w (ix2 f h) :=
  Cert.LibDotRows3.hostDot_apply dot_S32768x6x62_S62x256_S32768x6x256_2_0_01_1_n_n rfl rfl
    (fun _ _ => rfl) (fun _ _ => rfl) (fun _ _ => rfl) (fun _ _ => rfl) (fun _ _ => rfl) x w b p h

/-- The second layer's product at (b, p, j). -/
theorem dot256_apply (x : FVec Ideal S32768x6x256 .f32) (w : FVec Ideal S256x256 .f32) (b : Fin 32768) (p : Fin 6) (j : Fin 256) :
    Host.dotGeneral (F := Ideal) dot_S32768x6x256_S256x256_S32768x6x256_2_0_01_1_n_n none x w (ix3 b p j)
      = ∑ h : Fin 256, x (ix3 b p h) * w (ix2 h j) :=
  Cert.LibDotRows3.hostDot_apply dot_S32768x6x256_S256x256_S32768x6x256_2_0_01_1_n_n rfl rfl
    (fun _ _ => rfl) (fun _ _ => rfl) (fun _ _ => rfl) (fun _ _ => rfl) (fun _ _ => rfl) x w b p j

/-- The two layers and the sum over the pairs, at (b, j): `pooled` of sample b's six feature rows. The host's sum starts
    from zero and runs over the pair axis. -/
theorem phi_apply (x : FVec Ideal S32768x6x62 .f32) (w1 : FVec Ideal S62x256 .f32) (b1 : FVec Ideal S256 .f32)
    (w2 : FVec Ideal S256x256 .f32) (b2 : FVec Ideal S256 .f32) (b : Fin 32768) (j : Fin 256) :
    Terms.phi (F := Ideal) x w1 b1 w2 b2 (ix2 b j) = pooled (fun p f => x (ix3 b p f)) w1 b1 w2 b2 j := by
  have hR : S32768x6x256.Reduces [1] S32768x256 := by decide
  unfold Terms.phi
  simp only [Host.reduceAdd, Ideal.hostReduceAdd_def]
  rw [Ideal.hostReduceAdd_single reducesTo_S32768x6x256_S32768x256_d1 hR]
  have hz : (constant S_ .f32 0x00000000#32 : FVec Ideal S_ .f32) (Shape.Idx.first h_S_) = 0 := Ideal.ofBits_zero_f32
  rw [hz, zero_add]
  unfold pooled
  refine Finset.sum_congr rfl fun (p : Fin 6) _ => ?_
  have hl : hR.lift (ix2 b j) p = ix3 b p j := by
    funext a
    match a with
    | ⟨0, _⟩ => rfl
    | ⟨1, _⟩ => rfl
    | ⟨2, _⟩ => rfl
  rw [hl, relu3_apply, addf_apply, dot256_apply, bias3_apply]
  unfold layer2
  congr 2
  refine Finset.sum_congr rfl fun h _ => ?_
  rw [relu3_apply, addf_apply, dot62_apply, bias3_apply]
  rfl

/-- The head at (b, 0): `head` of sample b's pooled vector. -/
theorem rho_apply (o : FVec Ideal S32768x256 .f32) (v1 : FVec Ideal S256x256 .f32) (c1 : FVec Ideal S256 .f32)
    (v2 : FVec Ideal S256x1 .f32) (c2 : FVec Ideal S1 .f32) (b : Fin 32768) :
    Terms.rho (F := Ideal) o v1 c1 v2 c2 (ix2 b (0 : Fin 1)) = head (fun j => o (ix2 b j)) v1 c1 v2 c2 := by
  unfold Terms.rho head
  rw [addf_apply]
  have hb : broadcastInDim S32768x1 ![0, 1] bcast_S1x1_S32768x1_0_1 (broadcastInDim S1x1 ![1] bcast_S1_S1x1_1 c2) (ix2 b (0 : Fin 1))
      = c2 (ix1 (0 : Fin 1)) := by
    refine (broadcastInDim_apply _ _ _ (ix2 b (0 : Fin 1)) (ix2 (0 : Fin 1) (0 : Fin 1)) (fun a => ?_)).trans ?_
    · match a with
      | ⟨0, _⟩ => rfl
      | ⟨1, _⟩ => rfl
    · refine broadcastInDim_apply _ _ _ (ix2 (0 : Fin 1) (0 : Fin 1)) (ix1 (0 : Fin 1)) (fun a => ?_)
      match a with
      | ⟨0, _⟩ => rfl
  rw [hb]
  congr 1
  rw [Cert.MatProd.hostDot_apply dot_S32768x256_S256x1_S32768x1_1_0_0_1_n_n rfl rfl (fun _ _ => rfl) (fun _ _ => rfl) (fun _ _ => rfl) (fun _ _ => rfl)]
  unfold Cert.Spec.rowsByCols
  refine Finset.sum_congr rfl fun k _ => ?_
  congr 1
  show Terms.relu2 _ (ix2 b k) = _
  rw [relu2_apply, addf_apply, bias2_apply,
    Cert.MatProd.hostDot_apply dot_S32768x256_S256x256_S32768x256_1_0_0_1_n_n rfl rfl (fun _ _ => rfl) (fun _ _ => rfl) (fun _ _ => rfl) (fun _ _ => rfl)]
  rfl

/-- A twin's output is the specification's, given that the feature rows are the specification's features. -/
theorem q_eq_of (a0 : FVec Ideal S32768x55 .f32) (a1 a2 : FVec Ideal S32768x9 .f32) (a3 : FVec Ideal S32768x4 .f32)
    (hinp : ∀ (b : Fin 32768) (p : Fin 6) (f : Fin 62), Terms.inp (F := Ideal) a0 a1 a2 a3 (ix3 b p f) = feat a0 a1 a2 a3 b p.val f.val)
    (w1 : FVec Ideal S62x256 .f32) (b1 : FVec Ideal S256 .f32) (w2 : FVec Ideal S256x256 .f32) (b2 : FVec Ideal S256 .f32)
    (v1 : FVec Ideal S256x256 .f32) (c1 : FVec Ideal S256 .f32) (v2 : FVec Ideal S256x1 .f32) (c2 : FVec Ideal S1 .f32) :
    Terms.q (F := Ideal) a0 a1 a2 a3 w1 b1 w2 b2 v1 c1 v2 c2 = qOut a0 a1 a2 a3 w1 b1 w2 b2 v1 c1 v2 c2 := by
  funext i
  obtain ⟨b, z, rfl⟩ : ∃ (b : Fin 32768) (z : Fin 1), i = ix2 b z := ⟨i 0, i 1, eq_ix2 i⟩
  obtain rfl : z = 0 := Subsingleton.elim _ _
  unfold Terms.q qOut qRow
  refine (rho_apply _ v1 c1 v2 c2 b).trans ?_
  refine congrArg (fun o => head o v1 c1 v2 c2) (funext fun j => ?_)
  refine (phi_apply _ w1 b1 w2 b2 b j).trans ?_
  exact congrArg (fun x => pooled x w1 b1 w2 b2 j) (funext fun p => funext fun f => hinp b p f)

end Cert.ReferenceIdeal.RefNet

end
-- ==== Proof.RefInp.lean ====
/-
  The reference's feature rows read at an index.

  The array of feature rows has, for every sample `b` and ordered pair `p` of objects, 62 entries laid end to end in eight
  pieces of 3, 3, 3, 3, 10, 18, 18 and 4 entries: the achieved-goal entries of the pair's first and second object, the goal
  entries of the first and second object, the body entries of the observation, then for the first and for the second object
  its one-hot code followed by its 15 observation entries, and last the action. Each piece is read through the program's own
  operations: a pick of an object's row by a table of object numbers (the tables `[0,0,1,1,2,2]` and `[1,2,0,2,0,1]` of
  the six ordered pairs, and the table `[[0,1,2],[3,4,5],[6,7,8]]` of each object's three goal columns), repeats of a row
  over the six pairs, a cut of columns `10 … 54` of the observation regrouped as three rows of 15, and the 3 × 3 identity.
  The result: entry `(b, p, f)` is the feature `feat … b p f` of the plain description.
-/
import proofs.«164559_j30691836297668_1_alg».proof.Proof.RefTerms
import proofs.«164559_j30691836297668_1_alg».proof.Proof.Spec
import Idealize.ShloMosaic.Lib.ValueIdx
import Idealize.ShloMosaic.Lib.Pipeline.Value
import Idealize.ShloMosaic.Lib.ValueLayout

noncomputable section

namespace Cert.ReferenceIdeal.RefInp

open Idealize.ShloMosaic Idealize.ShloMosaic.ValueIdx Cert.ReferenceIdeal Cert.ReferenceIdeal.Facts₀

/-! ## The three picks, each read at an index for any table of start numbers

A pick reads its operand, on each operand axis, at the sum of three numbers: the start number for that axis (the table's
entry, read as a signed integer and kept inside the axis; zero on an axis the table does not address), a batching
coordinate (none here) and the result's own coordinate on the axis it copies (zero on the axis the pick collapses). -/

/-- The pick of one of three rows of 3 entries per pair: sample and column are copied, the row is the table's entry for the
    pair, kept within `0 … 2`. -/
theorem gather3_raw {α : Type} (x : S32768x3x3.Idx → α) (idx : IVec S6x1 32) (b : Fin 32768) (p : Fin 6) (k : Fin 3) :
    Host.gather gather_S32768x3x3_S6x1_S32768x6x3_02_1_n_n_1_1_3276813 x idx (ix3 b p k)
      = x (ix3 b ⟨min (idx (ix2 p 0)).toInt.toNat 2, by omega⟩ k) := by
  unfold Host.gather
  refine congrArg x ?_
  funext a
  refine Fin.ext ?_
  show gather_S32768x3x3_S6x1_S32768x6x3_02_1_n_n_1_1_3276813.start (ix3 b p k) idx a
     + gather_S32768x3x3_S6x1_S32768x6x3_02_1_n_n_1_1_3276813.batchCoord (ix3 b p k) a
     + gather_S32768x3x3_S6x1_S32768x6x3_02_1_n_n_1_1_3276813.offCoord (ix3 b p k) a = _
  rw [GatherDims.batchCoord_eq_zero _ _ _ List.not_mem_nil, Nat.add_zero]
  fin_cases a
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : gather_S32768x3x3_S6x1_S32768x6x3_02_1_n_n_1_1_3276813.siIdx (ix3 b p k)
        ⟨List.idxOf (1 : Fin 3) gather_S32768x3x3_S6x1_S32768x6x3_02_1_n_n_1_1_3276813.startIndexMap,
          List.idxOf_lt_length_iff.2 (by decide)⟩ = ix2 p 0 := by
      funext c; refine Fin.ext ?_
      match c with
      | ⟨0, _⟩ => rfl
      | ⟨1, _⟩ => rfl
    exact congrArg (fun i => min (idx i).toInt.toNat 2) hsi
  · unfold GatherDims.start GatherDims.offCoord
    rw [dif_neg (by decide), dif_pos (by decide), Nat.zero_add]
    rfl

/-- The pick of one of nine goal columns per object and entry: the sample is copied, the column is the table's entry for
    (object, entry), kept within `0 … 8`. -/
theorem gatherObj_raw {α : Type} (x : S32768x9.Idx → α) (idx : IVec S3x3x1 32) (b : Fin 32768) (o k : Fin 3) :
    Host.gather gather_S32768x9_S3x3x1_S32768x3x3_0_1_n_n_1_2_327681 x idx (ix3 b o k)
      = x (ix2 b ⟨min (idx (ix3 o k 0)).toInt.toNat 8, by omega⟩) := by
  unfold Host.gather
  refine congrArg x ?_
  funext a
  refine Fin.ext ?_
  show gather_S32768x9_S3x3x1_S32768x3x3_0_1_n_n_1_2_327681.start (ix3 b o k) idx a
     + gather_S32768x9_S3x3x1_S32768x3x3_0_1_n_n_1_2_327681.batchCoord (ix3 b o k) a
     + gather_S32768x9_S3x3x1_S32768x3x3_0_1_n_n_1_2_327681.offCoord (ix3 b o k) a = _
  rw [GatherDims.batchCoord_eq_zero _ _ _ List.not_mem_nil, Nat.add_zero]
  fin_cases a
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : gather_S32768x9_S3x3x1_S32768x3x3_0_1_n_n_1_2_327681.siIdx (ix3 b o k)
        ⟨List.idxOf (1 : Fin 2) gather_S32768x9_S3x3x1_S32768x3x3_0_1_n_n_1_2_327681.startIndexMap,
          List.idxOf_lt_length_iff.2 (by decide)⟩ = ix3 o k 0 := by
      funext c; refine Fin.ext ?_
      match c with
      | ⟨0, _⟩ => rfl
      | ⟨1, _⟩ => rfl
      | ⟨2, _⟩ => rfl
    exact congrArg (fun i => min (idx i).toInt.toNat 8) hsi

/-- The pick of one of three rows of 18 entries per pair: sample and column are copied, the row is the table's entry for the
    pair, kept within `0 … 2`. -/
theorem gather18_raw {α : Type} (x : S32768x3x18.Idx → α) (idx : IVec S6x1 32) (b : Fin 32768) (p : Fin 6) (k : Fin 18) :
    Host.gather gather_S32768x3x18_S6x1_S32768x6x18_02_1_n_n_1_1_32768118 x idx (ix3 b p k)
      = x (ix3 b ⟨min (idx (ix2 p 0)).toInt.toNat 2, by omega⟩ k) := by
  unfold Host.gather
  refine congrArg x ?_
  funext a
  refine Fin.ext ?_
  show gather_S32768x3x18_S6x1_S32768x6x18_02_1_n_n_1_1_32768118.start (ix3 b p k) idx a
     + gather_S32768x3x18_S6x1_S32768x6x18_02_1_n_n_1_1_32768118.batchCoord (ix3 b p k) a
     + gather_S32768x3x18_S6x1_S32768x6x18_02_1_n_n_1_1_32768118.offCoord (ix3 b p k) a = _
  rw [GatherDims.batchCoord_eq_zero _ _ _ List.not_mem_nil, Nat.add_zero]
  fin_cases a
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : gather_S32768x3x18_S6x1_S32768x6x18_02_1_n_n_1_1_32768118.siIdx (ix3 b p k)
        ⟨List.idxOf (1 : Fin 3) gather_S32768x3x18_S6x1_S32768x6x18_02_1_n_n_1_1_32768118.startIndexMap,
          List.idxOf_lt_length_iff.2 (by decide)⟩ = ix2 p 0 := by
      funext c; refine Fin.ext ?_
      match c with
      | ⟨0, _⟩ => rfl
      | ⟨1, _⟩ => rfl
    exact congrArg (fun i => min (idx i).toInt.toNat 2) hsi
  · unfold GatherDims.start GatherDims.offCoord
    rw [dif_neg (by decide), dif_pos (by decide), Nat.zero_add]
    rfl

/-! ## The repeated rows -/

/-- The body entries repeated over the pairs: entry `(b, p, k)` is observation column `k` of sample `b`. -/
theorem bodyRows_apply (a0 : FVec Ideal S32768x55 .f32) (b : Fin 32768) (p : Fin 6) (k : Fin 10) :
    Terms.bodyRows a0 (ix3 b p k) = a0 (ix2 b ⟨k.val, by omega⟩) := by
  unfold Terms.bodyRows
  refine (broadcastInDim_apply _ _ _ _ (ix3 b 0 k) (fun a => ?_)).trans ?_
  · fin_cases a <;> rfl
  refine (broadcastInDim_apply _ _ _ _ (ix2 b k) (fun a => ?_)).trans ?_
  · fin_cases a <;> rfl
  refine extractStridedSlice_apply _ _ _ _ _ (fun a => ?_)
  fin_cases a
  · exact (Nat.zero_add _).symm
  · exact (Nat.zero_add _).symm

/-- The action repeated over the pairs: entry `(b, p, k)` is action column `k` of sample `b`. -/
theorem actRows_apply (a3 : FVec Ideal S32768x4 .f32) (b : Fin 32768) (p : Fin 6) (k : Fin 4) :
    Terms.actRows a3 (ix3 b p k) = a3 (ix2 b k) := by
  unfold Terms.actRows
  refine (broadcastInDim_apply _ _ _ _ (ix3 b 0 k) (fun a => ?_)).trans ?_
  · fin_cases a <;> rfl
  refine (broadcastInDim_apply _ _ _ _ (ix2 b k) (fun a => ?_)).trans ?_
  · fin_cases a <;> rfl
  rfl

/-! ## The tables of start numbers

Each table is written as "the number, or the number plus the axis length where the number is negative", with the condition
the constant false: so it is the number itself. -/

/-- The start number of pair `p` is the pair table's entry `p`. -/
theorem pairIdx_apply (tab : IVec S6 32) (p : Fin 6) : Terms.pairIdx tab (ix2 p 0) = tab (ix1 p) := by
  unfold Terms.pairIdx
  refine (broadcastInDim_apply _ _ _ _ (ix1 p) (fun a => ?_)).trans ?_
  · fin_cases a; rfl
  · rw [select_apply, constantI_apply, select_zero]

/-- The start number of (object `o`, entry `k`) is the goal-column table's entry `(o, k)`. -/
theorem objIdx_apply (o k : Fin 3) : Terms.objIdx (ix3 o k 0) = Terms.objIds (ix2 o k) := by
  unfold Terms.objIdx
  refine (broadcastInDim_apply _ _ _ _ (ix2 o k) (fun a => ?_)).trans ?_
  · fin_cases a <;> rfl
  · rw [select_apply, constantI_apply, select_zero]

/-- The first objects `[0,0,1,1,2,2]` of the six pairs: pair `p` has first object `p / 2`. -/
theorem first_val (p : Fin 6) : min (Terms.firstOf (ix1 p)).toInt.toNat 2 = Cert.Critic.pI p.val := by
  fin_cases p <;> rfl
/-- The second objects `[1,2,0,2,0,1]` of the six pairs. -/
theorem second_val (p : Fin 6) : min (Terms.secondOf (ix1 p)).toInt.toNat 2 = Cert.Critic.pJ p.val := by
  fin_cases p <;> rfl
/-- The goal columns `[[0,1,2],[3,4,5],[6,7,8]]`: entry `k` of object `o` is column `3 o + k`. -/
theorem objIds_val (o k : Fin 3) : min (Terms.objIds (ix2 o k)).toInt.toNat 8 = 3 * o.val + k.val := by
  fin_cases o <;> fin_cases k <;> rfl

/-! ## The one-hot codes and the per-object observation entries -/

/-- The 3 × 3 identity: "row number equals column number" as a bit, read as the number 1 or 0. -/
theorem eye_apply (i j : Fin 3) : Terms.eye (F := Ideal) (ix2 i j) = if i = j then 1 else 0 := by
  have h : ∀ i j : Fin 3, Terms.eye (F := Ideal) (ix2 i j)
      = (((IntOp.cmpi .eq (IntOp.addi (BitVec.ofNat 32 i.val) 0#32) (BitVec.ofNat 32 j.val)).toNat : ℝ) : EReal) := fun _ _ => rfl
  rw [h]
  fin_cases i <;> fin_cases j <;> simp [IntOp.cmpi, IntOp.addi]

/-- The first three entries of an object's 18: its one-hot code, one at the object's own number. -/
theorem objFeats_code (a0 : FVec Ideal S32768x55 .f32) (b : Fin 32768) (o : Fin 3) (k : Fin 18) (hk : k.val < 3) :
    Terms.objFeats a0 (ix3 b o k) = if k.val = o.val then 1 else 0 := by
  unfold Terms.objFeats
  refine (concatenate_pair_apply_left (s₁ := S32768x3x3) (s₂ := S32768x3x15) (2 : Fin 3) _ _ _ (ix3 b o k) rfl (ix3 b o (⟨k.val, hk⟩ : Fin 3)) (fun c => ?_)).trans ?_
  · fin_cases c <;> rfl
  refine (broadcastInDim_apply _ _ _ _ (ix2 o (⟨k.val, hk⟩ : Fin 3)) (fun a => ?_)).trans ?_
  · fin_cases a <;> rfl
  rw [eye_apply]
  by_cases h : k.val = o.val
  · rw [if_pos h, if_pos (Fin.ext h.symm)]
  · rw [if_neg h, if_neg (fun e => h (congrArg Fin.val e).symm)]

/-- The other fifteen entries of an object's 18: entry `k ≥ 3` of object `o` is observation column
    `10 + 15 o + (k − 3)` (columns `10 … 54` regrouped, row-major, as three rows of 15: position `15 o + (k − 3)`). -/
theorem objFeats_obs (a0 : FVec Ideal S32768x55 .f32) (b : Fin 32768) (o : Fin 3) (k : Fin 18) (hk : 3 ≤ k.val) :
    Terms.objFeats a0 (ix3 b o k) = a0 (ix2 b ⟨10 + 15 * o.val + (k.val - 3), by omega⟩) := by
  unfold Terms.objFeats
  refine (concatenate_pair_apply_right (s₁ := S32768x3x3) (s₂ := S32768x3x15) (2 : Fin 3) _ _ _ (ix3 b o k) rfl rfl (ix3 b o (⟨k.val - 3, by omega⟩ : Fin 15)) (fun c hc => ?_) ?_).trans ?_
  · fin_cases c
    · rfl
    · rfl
    · exact absurd rfl hc
  · show k.val - 3 + 3 = k.val
    omega
  refine (shapeCast_apply _ _ _ (ix2 b (⟨15 * o.val + (k.val - 3), by omega⟩ : Fin 45)) ?_).trans ?_
  · rw [Shape.rowMajor_val_two, Shape.rowMajor_val_three]
    show b.val * 45 + (15 * o.val + (k.val - 3)) = (b.val * 3 + o.val) * 15 + (k.val - 3)
    omega
  refine extractStridedSlice_apply _ _ _ _ _ (fun a => ?_)
  fin_cases a
  · exact (Nat.zero_add _).symm
  · show 10 + 15 * o.val + (k.val - 3) = 10 + (15 * o.val + (k.val - 3))
    omega

/-! ## The gathers at the program's own index tables -/

/-- The first object of a pair is one of the three objects. -/
theorem pI_lt (p : Fin 6) : Cert.Critic.pI p.val < 3 := by
  have := p.isLt
  unfold Cert.Critic.pI
  omega

/-- The second object of a pair is one of the three objects. -/
theorem pJ_lt (p : Fin 6) : Cert.Critic.pJ p.val < 3 := by
  fin_cases p <;> decide

/-- An object's three goal entries: entry `(b, o, k)` is column `3 o + k` of sample `b`. -/
theorem perObj_apply (a : FVec Ideal S32768x9 .f32) (b : Fin 32768) (o k : Fin 3) :
    Terms.perObj a (ix3 b o k) = a (ix2 b ⟨3 * o.val + k.val, by omega⟩) := by
  unfold Terms.perObj
  rw [gatherObj_raw]
  exact congrArg (fun c => a (ix2 b c)) (Fin.ext ((congrArg (fun w : BitVec 32 => min w.toInt.toNat 8) (objIdx_apply o k)).trans (objIds_val o k)))

/-- The rows of 3 picked by the first objects: pair `p` reads the row of object `p / 2`. -/
theorem gather3_first {α : Type} (x : S32768x3x3.Idx → α) (b : Fin 32768) (p : Fin 6) (k : Fin 3) :
    Host.gather gather_S32768x3x3_S6x1_S32768x6x3_02_1_n_n_1_1_3276813 x (Terms.pairIdx Terms.firstOf) (ix3 b p k)
      = x (ix3 b ⟨Cert.Critic.pI p.val, pI_lt p⟩ k) := by
  rw [gather3_raw]
  exact congrArg (fun o => x (ix3 b o k)) (Fin.ext ((congrArg (fun w : BitVec 32 => min w.toInt.toNat 2) (pairIdx_apply _ p)).trans (first_val p)))

/-- The rows of 3 picked by the second objects. -/
theorem gather3_second {α : Type} (x : S32768x3x3.Idx → α) (b : Fin 32768) (p : Fin 6) (k : Fin 3) :
    Host.gather gather_S32768x3x3_S6x1_S32768x6x3_02_1_n_n_1_1_3276813 x (Terms.pairIdx Terms.secondOf) (ix3 b p k)
      = x (ix3 b ⟨Cert.Critic.pJ p.val, pJ_lt p⟩ k) := by
  rw [gather3_raw]
  exact congrArg (fun o => x (ix3 b o k)) (Fin.ext ((congrArg (fun w : BitVec 32 => min w.toInt.toNat 2) (pairIdx_apply _ p)).trans (second_val p)))

/-- The rows of 18 picked by the first objects. -/
theorem gather18_first {α : Type} (x : S32768x3x18.Idx → α) (b : Fin 32768) (p : Fin 6) (k : Fin 18) :
    Host.gather gather_S32768x3x18_S6x1_S32768x6x18_02_1_n_n_1_1_32768118 x (Terms.pairIdx Terms.firstOf) (ix3 b p k)
      = x (ix3 b ⟨Cert.Critic.pI p.val, pI_lt p⟩ k) := by
  rw [gather18_raw]
  exact congrArg (fun o => x (ix3 b o k)) (Fin.ext ((congrArg (fun w : BitVec 32 => min w.toInt.toNat 2) (pairIdx_apply _ p)).trans (first_val p)))

/-- The rows of 18 picked by the second objects. -/
theorem gather18_second {α : Type} (x : S32768x3x18.Idx → α) (b : Fin 32768) (p : Fin 6) (k : Fin 18) :
    Host.gather gather_S32768x3x18_S6x1_S32768x6x18_02_1_n_n_1_1_32768118 x (Terms.pairIdx Terms.secondOf) (ix3 b p k)
      = x (ix3 b ⟨Cert.Critic.pJ p.val, pJ_lt p⟩ k) := by
  rw [gather18_raw]
  exact congrArg (fun o => x (ix3 b o k)) (Fin.ext ((congrArg (fun w : BitVec 32 => min w.toInt.toNat 2) (pairIdx_apply _ p)).trans (second_val p)))

/-- Equal columns read equal entries. -/
theorem col_congr {R C : Nat} (A : Cert.Critic.A2 R C) (r : Fin R) (c c' : Fin C) (h : c.val = c'.val) :
    A (ix2 r c) = A (ix2 r c') := by
  rw [Fin.ext h]

/-! ## The feature rows

The 62 entries are the eight pieces laid end to end, so entry `f` lies in the piece whose span holds `f`, at `f` less the
extents before it: `[0,3)`, `[3,6)`, `[6,9)`, `[9,12)` the four picks of goal entries, `[12,22)` the body, `[22,40)` and
`[40,58)` the first and second object's 18 entries (code on the first three, observation on the rest), `[58,62)` the action. -/

/-- **The feature rows read at an index**: entry `(b, p, f)` is feature `f` of sample `b` for the `p`-th ordered pair. -/
theorem inp_apply (a0 : FVec Ideal S32768x55 .f32) (a1 a2 : FVec Ideal S32768x9 .f32) (a3 : FVec Ideal S32768x4 .f32)
    (b : Fin 32768) (p : Fin 6) (f : Fin 62) :
    Terms.inp (F := Ideal) a0 a1 a2 a3 (ix3 b p f) = Cert.Critic.feat a0 a1 a2 a3 b p.val f.val := by
  have hf := f.isLt
  have hI := pI_lt p
  have hJ := pJ_lt p
  unfold Terms.inp Cert.Critic.feat
  by_cases h0 : f.val < 3
  · rw [if_pos h0]
    refine (concatenate_apply_piece (t := S32768x6x62) (2 : Fin 3) _ _ (ix3 b p f) 0 ?hk S32768x6x3
      (Host.gather gather_S32768x3x3_S6x1_S32768x6x3_02_1_n_n_1_1_3276813 (Terms.perObj a1) (Terms.pairIdx Terms.firstOf)) ?hxk ?hr 0 ?hpre
      (ix3 b p (⟨f.val, by omega⟩ : Fin 3)) ?hi ?ha).trans ?_
    case hk => show (0 : Nat) < 8; omega
    case hxk => exact rfl
    case hr => exact rfl
    case hpre => exact rfl
    case hi =>
      intro c hc
      fin_cases c
      · rfl
      · rfl
      · exact absurd rfl hc
    case ha =>
      show 0 + (f.val) = f.val
      omega
    rw [gather3_first, perObj_apply, Cert.Critic.at2_eq _ _ _ (by omega)]
  rw [if_neg h0]
  by_cases h1 : f.val < 6
  · rw [if_pos h1]
    refine (concatenate_apply_piece (t := S32768x6x62) (2 : Fin 3) _ _ (ix3 b p f) 1 ?hk S32768x6x3
      (Host.gather gather_S32768x3x3_S6x1_S32768x6x3_02_1_n_n_1_1_3276813 (Terms.perObj a1) (Terms.pairIdx Terms.secondOf)) ?hxk ?hr 3 ?hpre
      (ix3 b p (⟨f.val - 3, by omega⟩ : Fin 3)) ?hi ?ha).trans ?_
    case hk => show (1 : Nat) < 8; omega
    case hxk => exact rfl
    case hr => exact rfl
    case hpre => exact rfl
    case hi =>
      intro c hc
      fin_cases c
      · rfl
      · rfl
      · exact absurd rfl hc
    case ha =>
      show 3 + (f.val - 3) = f.val
      omega
    rw [gather3_second, perObj_apply, Cert.Critic.at2_eq _ _ _ (by omega)]
  rw [if_neg h1]
  by_cases h2 : f.val < 9
  · rw [if_pos h2]
    refine (concatenate_apply_piece (t := S32768x6x62) (2 : Fin 3) _ _ (ix3 b p f) 2 ?hk S32768x6x3
      (Host.gather gather_S32768x3x3_S6x1_S32768x6x3_02_1_n_n_1_1_3276813 (Terms.perObj a2) (Terms.pairIdx Terms.firstOf)) ?hxk ?hr 6 ?hpre
      (ix3 b p (⟨f.val - 6, by omega⟩ : Fin 3)) ?hi ?ha).trans ?_
    case hk => show (2 : Nat) < 8; omega
    case hxk => exact rfl
    case hr => exact rfl
    case hpre => exact rfl
    case hi =>
      intro c hc
      fin_cases c
      · rfl
      · rfl
      · exact absurd rfl hc
    case ha =>
      show 6 + (f.val - 6) = f.val
      omega
    rw [gather3_first, perObj_apply, Cert.Critic.at2_eq _ _ _ (by omega)]
  rw [if_neg h2]
  by_cases h3 : f.val < 12
  · rw [if_pos h3]
    refine (concatenate_apply_piece (t := S32768x6x62) (2 : Fin 3) _ _ (ix3 b p f) 3 ?hk S32768x6x3
      (Host.gather gather_S32768x3x3_S6x1_S32768x6x3_02_1_n_n_1_1_3276813 (Terms.perObj a2) (Terms.pairIdx Terms.secondOf)) ?hxk ?hr 9 ?hpre
      (ix3 b p (⟨f.val - 9, by omega⟩ : Fin 3)) ?hi ?ha).trans ?_
    case hk => show (3 : Nat) < 8; omega
    case hxk => exact rfl
    case hr => exact rfl
    case hpre => exact rfl
    case hi =>
      intro c hc
      fin_cases c
      · rfl
      · rfl
      · exact absurd rfl hc
    case ha =>
      show 9 + (f.val - 9) = f.val
      omega
    rw [gather3_second, perObj_apply, Cert.Critic.at2_eq _ _ _ (by omega)]
  rw [if_neg h3]
  by_cases h4 : f.val < 22
  · rw [if_pos h4]
    refine (concatenate_apply_piece (t := S32768x6x62) (2 : Fin 3) _ _ (ix3 b p f) 4 ?hk S32768x6x10
      (Terms.bodyRows a0) ?hxk ?hr 12 ?hpre
      (ix3 b p (⟨f.val - 12, by omega⟩ : Fin 10)) ?hi ?ha).trans ?_
    case hk => show (4 : Nat) < 8; omega
    case hxk => exact rfl
    case hr => exact rfl
    case hpre => exact rfl
    case hi =>
      intro c hc
      fin_cases c
      · rfl
      · rfl
      · exact absurd rfl hc
    case ha =>
      show 12 + (f.val - 12) = f.val
      omega
    rw [bodyRows_apply, Cert.Critic.at2_eq _ _ _ (by omega)]
  rw [if_neg h4]
  by_cases h5 : f.val < 25
  · rw [if_pos h5]
    refine (concatenate_apply_piece (t := S32768x6x62) (2 : Fin 3) _ _ (ix3 b p f) 5 ?hk S32768x6x18
      (Host.gather gather_S32768x3x18_S6x1_S32768x6x18_02_1_n_n_1_1_32768118 (Terms.objFeats a0) (Terms.pairIdx Terms.firstOf)) ?hxk ?hr 22 ?hpre
      (ix3 b p (⟨f.val - 22, by omega⟩ : Fin 18)) ?hi ?ha).trans ?_
    case hk => show (5 : Nat) < 8; omega
    case hxk => exact rfl
    case hr => exact rfl
    case hpre => exact rfl
    case hi =>
      intro c hc
      fin_cases c
      · rfl
      · rfl
      · exact absurd rfl hc
    case ha =>
      show 22 + (f.val - 22) = f.val
      omega
    rw [gather18_first, objFeats_code _ _ _ _ (by show f.val - 22 < 3; omega)]
  rw [if_neg h5]
  by_cases h6 : f.val < 40
  · rw [if_pos h6]
    refine (concatenate_apply_piece (t := S32768x6x62) (2 : Fin 3) _ _ (ix3 b p f) 5 ?hk S32768x6x18
      (Host.gather gather_S32768x3x18_S6x1_S32768x6x18_02_1_n_n_1_1_32768118 (Terms.objFeats a0) (Terms.pairIdx Terms.firstOf)) ?hxk ?hr 22 ?hpre
      (ix3 b p (⟨f.val - 22, by omega⟩ : Fin 18)) ?hi ?ha).trans ?_
    case hk => show (5 : Nat) < 8; omega
    case hxk => exact rfl
    case hr => exact rfl
    case hpre => exact rfl
    case hi =>
      intro c hc
      fin_cases c
      · rfl
      · rfl
      · exact absurd rfl hc
    case ha =>
      show 22 + (f.val - 22) = f.val
      omega
    rw [gather18_first, objFeats_obs _ _ _ _ (by show 3 ≤ f.val - 22; omega), Cert.Critic.at2_eq _ _ _ (by omega)]
    exact col_congr _ _ _ _ (by show 10 + 15 * Cert.Critic.pI p.val + (f.val - 22 - 3) = 10 + 15 * Cert.Critic.pI p.val + (f.val - 25); omega)
  rw [if_neg h6]
  by_cases h7 : f.val < 43
  · rw [if_pos h7]
    refine (concatenate_apply_piece (t := S32768x6x62) (2 : Fin 3) _ _ (ix3 b p f) 6 ?hk S32768x6x18
      (Host.gather gather_S32768x3x18_S6x1_S32768x6x18_02_1_n_n_1_1_32768118 (Terms.objFeats a0) (Terms.pairIdx Terms.secondOf)) ?hxk ?hr 40 ?hpre
      (ix3 b p (⟨f.val - 40, by omega⟩ : Fin 18)) ?hi ?ha).trans ?_
    case hk => show (6 : Nat) < 8; omega
    case hxk => exact rfl
    case hr => exact rfl
    case hpre => exact rfl
    case hi =>
      intro c hc
      fin_cases c
      · rfl
      · rfl
      · exact absurd rfl hc
    case ha =>
      show 40 + (f.val - 40) = f.val
      omega
    rw [gather18_second, objFeats_code _ _ _ _ (by show f.val - 40 < 3; omega)]
  rw [if_neg h7]
  by_cases h8 : f.val < 58
  · rw [if_pos h8]
    refine (concatenate_apply_piece (t := S32768x6x62) (2 : Fin 3) _ _ (ix3 b p f) 6 ?hk S32768x6x18
      (Host.gather gather_S32768x3x18_S6x1_S32768x6x18_02_1_n_n_1_1_32768118 (Terms.objFeats a0) (Terms.pairIdx Terms.secondOf)) ?hxk ?hr 40 ?hpre
      (ix3 b p (⟨f.val - 40, by omega⟩ : Fin 18)) ?hi ?ha).trans ?_
    case hk => show (6 : Nat) < 8; omega
    case hxk => exact rfl
    case hr => exact rfl
    case hpre => exact rfl
    case hi =>
      intro c hc
      fin_cases c
      · rfl
      · rfl
      · exact absurd rfl hc
    case ha =>
      show 40 + (f.val - 40) = f.val
      omega
    rw [gather18_second, objFeats_obs _ _ _ _ (by show 3 ≤ f.val - 40; omega), Cert.Critic.at2_eq _ _ _ (by omega)]
    exact col_congr _ _ _ _ (by show 10 + 15 * Cert.Critic.pJ p.val + (f.val - 40 - 3) = 10 + 15 * Cert.Critic.pJ p.val + (f.val - 43); omega)
  rw [if_neg h8]
  refine (concatenate_apply_piece (t := S32768x6x62) (2 : Fin 3) _ _ (ix3 b p f) 7 ?hk S32768x6x4
    (Terms.actRows a3) ?hxk ?hr 58 ?hpre
    (ix3 b p (⟨f.val - 58, by omega⟩ : Fin 4)) ?hi ?ha).trans ?_
  case hk => show (7 : Nat) < 8; omega
  case hxk => exact rfl
  case hr => exact rfl
  case hpre => exact rfl
  case hi =>
    intro c hc
    fin_cases c
    · rfl
    · rfl
    · exact absurd rfl hc
  case ha =>
    show 58 + (f.val - 58) = f.val
    omega
  rw [actRows_apply, Cert.Critic.at2_eq _ _ _ (by omega)]

end Cert.ReferenceIdeal.RefInp

end
-- ==== Proof.lean ====
/-
  The certificate of a twin critic network evaluated on six ordered pairs of three objects.

  Both programs compute, for every sample b and each of two sets of weights, the same number: the 62 features of each ordered
  pair (goal entries of the two objects, the body entries, a one-hot code and the observation of each object, the action)
  go through two dense layers with the rectifier; the six results are added; the sum goes through a third layer and a last
  product with one column. The kernel cuts the 32768 samples into 32 blocks of 1024 rows, stacks the six pairs' feature rows
  of a block into 6144 rows and multiplies them at once, narrowing operands to a shorter float format on the way into each
  product; the reference gathers the features into a [32768, 6, 62] array and contracts it. On the extended reals a change
  of float format is the identity and every product into a zero accumulator is the plain sum over the shared axis, so both
  are the specification's `qOut` (Spec.lean) of the argument arrays; addition on the extended reals is commutative and
  associative, which is all that the two orders of adding the six pairs need, so finiteness of the inputs is never used.
  The ideal pass rewrote nothing, so the preservation claim is trivial; the two kernels' frames are the generated ones and
  the reference's frame is its run with the results dropped.
-/
import proofs.«164559_j30691836297668_1_alg».proof.Defs
import proofs.«164559_j30691836297668_1_alg».proof.Proof.Gen.Kernel
import proofs.«164559_j30691836297668_1_alg».proof.Proof.Gen.Kernel.Skeleton
import proofs.«164559_j30691836297668_1_alg».proof.Proof.Gen.Kernel.Launch
import proofs.«164559_j30691836297668_1_alg».proof.Proof.Gen.Kernel.Points
import proofs.«164559_j30691836297668_1_alg».proof.Proof.Gen.Kernel.Frame
import proofs.«164559_j30691836297668_1_alg».proof.Proof.Gen.KernelIdeal
import proofs.«164559_j30691836297668_1_alg».proof.Proof.Gen.KernelIdeal.Skeleton
import proofs.«164559_j30691836297668_1_alg».proof.Proof.Gen.KernelIdeal.Launch
import proofs.«164559_j30691836297668_1_alg».proof.Proof.Gen.KernelIdeal.Points
import proofs.«164559_j30691836297668_1_alg».proof.Proof.Gen.KernelIdeal.Frame
import proofs.«164559_j30691836297668_1_alg».proof.Proof.Gen.ReferenceIdeal
import proofs.«164559_j30691836297668_1_alg».proof.Proof.Gen.Pre_finite_inputs
import proofs.«164559_j30691836297668_1_alg».proof.Proof.KerBlocks
import proofs.«164559_j30691836297668_1_alg».proof.Proof.KerInp
import proofs.«164559_j30691836297668_1_alg».proof.Proof.RefRun
import proofs.«164559_j30691836297668_1_alg».proof.Proof.RefNet
import proofs.«164559_j30691836297668_1_alg».proof.Proof.RefInp
import Idealize.ShloMosaic.Adequacy
import Idealize.ShloMosaic.Init

noncomputable section

namespace Cert.Proof

open Idealize.ShloMosaic Idealize.SL.Sem

/-- The kernel's stacked feature rows are the specification's features of the block's rows. -/
theorem featRows : Cert.KernelIdeal.KerBlocks.FeatRows :=
  fun x0 x1 x2 x3 p r f => Cert.KernelIdeal.KerInp.pay2_apply x0 x1 x2 x3 p r f

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- A twin's output in the reference is the specification's function of its arguments. -/
theorem ref_q (a0 : FVec Ideal Cert.ReferenceIdeal.S32768x55 .f32) (a1 a2 : FVec Ideal Cert.ReferenceIdeal.S32768x9 .f32)
    (a3 : FVec Ideal Cert.ReferenceIdeal.S32768x4 .f32)
    (w1 : FVec Ideal Cert.ReferenceIdeal.S62x256 .f32) (b1 : FVec Ideal Cert.ReferenceIdeal.S256 .f32)
    (w2 : FVec Ideal Cert.ReferenceIdeal.S256x256 .f32) (b2 : FVec Ideal Cert.ReferenceIdeal.S256 .f32)
    (v1 : FVec Ideal Cert.ReferenceIdeal.S256x256 .f32) (c1 : FVec Ideal Cert.ReferenceIdeal.S256 .f32)
    (v2 : FVec Ideal Cert.ReferenceIdeal.S256x1 .f32) (c2 : FVec Ideal Cert.ReferenceIdeal.S1 .f32) :
    Cert.ReferenceIdeal.Terms.q (F := Ideal) a0 a1 a2 a3 w1 b1 w2 b2 v1 c1 v2 c2
      = Cert.Critic.qOut a0 a1 a2 a3 w1 b1 w2 b2 v1 c1 v2 c2 :=
  Cert.ReferenceIdeal.RefNet.q_eq_of a0 a1 a2 a3 (Cert.ReferenceIdeal.RefInp.inp_apply a0 a1 a2 a3) w1 b1 w2 b2 v1 c1 v2 c2

/-- Both programs, from memories that agree on the arguments, end with each output array at the specification's function
    of the arguments. -/
theorem algebraic : Cert.algebraic_KernelIdeal_ReferenceIdeal := by
  intro m ρ m' ρ' _ hagree
  refine ⟨fun c => Cert.KernelIdeal.KerBlocks.G20 m c, fun c => Cert.KernelIdeal.KerBlocks.G21 m c,
    Cert.KernelIdeal.KerBlocks.run m ρ featRows, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨h0, h1, h2, h3, h4, h5, h6, h7, h8, h9, h10, h11, h12, h13, h14, h15, h16, h17, h18, h19⟩ := hagree c
    rw [ref_q, h0, h1, h2, h3, h4, h5, h6, h7, h12, h13, h14, h15]
    rfl
  · obtain ⟨h0, h1, h2, h3, h4, h5, h6, h7, h8, h9, h10, h11, h12, h13, h14, h15, h16, h17, h18, h19⟩ := hagree c
    rw [ref_q, h0, h1, h2, h3, h8, h9, h10, h11, h16, h17, h18, h19]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
